-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S4096x16x64 : Shape := ⟨3, ![4096, 16, 64]⟩
abbrev S16x4096x64 : Shape := ⟨3, ![16, 4096, 64]⟩
abbrev S16x256x64 : Shape := ⟨3, ![16, 256, 64]⟩
abbrev S16x512x64 : Shape := ⟨3, ![16, 512, 64]⟩
abbrev S16x256x1 : Shape := ⟨3, ![16, 256, 1]⟩
abbrev S16x256x512 : Shape := ⟨3, ![16, 256, 512]⟩
abbrev S16x256 : Shape := ⟨2, ![16, 256]⟩

abbrev nBuf : Space → Nat
  | .hbm => 26
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x16x64, .bf16⟩
  | .hbm, ⟨17, _⟩ => ⟨S16x4096x64, .bf16⟩
  | .hbm, ⟨18, _⟩ => ⟨S4096x16x64, .bf16⟩
  | .hbm, ⟨19, _⟩ => ⟨S16x4096x64, .bf16⟩
  | .hbm, ⟨20, _⟩ => ⟨S4096x16x64, .bf16⟩
  | .hbm, ⟨21, _⟩ => ⟨S16x4096x64, .bf16⟩
  | .hbm, ⟨22, _⟩ => ⟨S16x4096x64, .bf16⟩
  | .hbm, ⟨23, _⟩ => ⟨S4096x16x64, .bf16⟩
  | .hbm, ⟨24, _⟩ => ⟨S4096x1024, .bf16⟩
  | .hbm, ⟨25, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S16x256x64, .bf16⟩
  | .local _ .vmem, ⟨15, _⟩ => ⟨S16x256x64, .bf16⟩
  | .local _ .vmem, ⟨16, _⟩ => ⟨S16x512x64, .bf16⟩
  | .local _ .vmem, ⟨17, _⟩ => ⟨S16x512x64, .bf16⟩
  | .local _ .vmem, ⟨18, _⟩ => ⟨S16x512x64, .bf16⟩
  | .local _ .vmem, ⟨19, _⟩ => ⟨S16x512x64, .bf16⟩
  | .local _ .vmem, ⟨20, _⟩ => ⟨S16x256x64, .bf16⟩
  | .local _ .vmem, ⟨21, _⟩ => ⟨S16x256x64, .bf16⟩
  | .local _ .vmem, ⟨22, _⟩ => ⟨S16x256x1, .f32⟩
  | .local _ .vmem, ⟨23, _⟩ => ⟨S16x256x1, .f32⟩
  | .local _ .vmem, ⟨24, _⟩ => ⟨S16x256x64, .f32⟩
  | .local _ .vmem, ⟨25, _⟩ => ⟨S512x1024, .bf16⟩
  | .local _ .vmem, ⟨26, _⟩ => ⟨S512x1024, .bf16⟩
  | .local _ .vmem, ⟨27, _⟩ => ⟨S1024x1024, .bf16⟩
  | .local _ .vmem, ⟨28, _⟩ => ⟨S1024, .f32⟩
  | .local _ .vmem, ⟨29, _⟩ => ⟨S512x1024, .f32⟩
  | .local _ .vmem, ⟨30, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S16x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S16x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S4096x16x64 : S4096x1024.ShapeCasts S4096x16x64
  transposes_S4096x16x64_S16x4096x64_1_0_2 : S4096x16x64.Transposes [1, 0, 2] S16x4096x64
  inb_S16x256x1_S16x256x1_0_0_0 : ∀ a, (![0, 0, 0] : Fin 3 → Nat) a + S16x256x1.size a ≤ S16x256x1.size a
  h_S16x256x1 : 0 < S16x256x1.numel
  shapeCasts_S16x256x1_S16x256x1 : S16x256x1.ShapeCasts S16x256x1
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S16x512x64_S16x512x64_0_0_0 : ∀ a, (![0, 0, 0] : Fin 3 → Nat) a + S16x512x64.size a ≤ S16x512x64.size a
  h_S16x512x64 : 0 < S16x512x64.numel
  shapeCasts_S16x512x64_S16x512x64 : S16x512x64.ShapeCasts S16x512x64
  reduces_S16x256x512_S16x256 : S16x256x512.Reduces [2] S16x256
  shapeCasts_S16x256_S16x256x1 : S16x256.ShapeCasts S16x256x1
  broadcasts_S16x256x1_S16x256x512 : S16x256x1.Broadcasts S16x256x512
  broadcasts_S16x256x1_S16x256x64 : S16x256x1.Broadcasts S16x256x64
  packedbf16_S16x256x64_S16x256x64_0_0_0 : (Rect.unit (s := S16x256x64) ![0, 0, 0] S16x256x64.size inb_S16x256x64_S16x256x64_0_0_0).PackedRows (EltTy.packing .bf16)
  transposes_S16x4096x64_S4096x16x64_1_0_2 : S16x4096x64.Transposes [1, 0, 2] S4096x16x64
  shapeCasts_S4096x16x64_S4096x1024 : S4096x16x64.ShapeCasts S4096x1024
  shapeCasts_S512x1024_S512x1024 : S512x1024.ShapeCasts S512x1024
  dot_S512x1024_S1024x1024_S512x1024_1_1_0_0_n_n_wf : DotDims.WF S512x1024 S1024x1024 S512x1024 [1] [1] [0] [0] [] []
  dot_S16x256x64_S16x512x64_S16x256x512_2_2_1_1_0_0_wf : DotDims.WF S16x256x64 S16x512x64 S16x256x512 [2] [2] [1] [1] [0] [0]
  dot_S16x256x512_S16x512x64_S16x256x64_2_1_1_2_0_0_wf : DotDims.WF S16x256x512 S16x512x64 S16x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .bf16 = 32 ∨ (Rect.block (s := S4096x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .bf16 = 32 ∨ (Rect.block (s := S4096x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .bf16 = 32 ∨ (Rect.block (s := S4096x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x64.size a ≤ S16x4096x64.size a
  hwx1_0 : ∀ i : grid1.Coords, EltTy.bits .bf16 = 32 ∨ (Rect.block (s := S16x4096x64) S16x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x512x64.size a ≤ S16x4096x64.size a
  hwx1_1 : ∀ i : grid1.Coords, EltTy.bits .bf16 = 32 ∨ (Rect.block (s := S16x4096x64) S16x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512x64.size a ≤ S16x4096x64.size a
  hwx1_2 : ∀ i : grid1.Coords, EltTy.bits .bf16 = 32 ∨ (Rect.block (s := S16x4096x64) S16x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x256x64.size a ≤ S16x4096x64.size a
  hwx1_3 : ∀ i : grid1.Coords, EltTy.bits .bf16 = 32 ∨ (Rect.block (s := S16x4096x64) S16x256x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S16x256x64_S16x512x64_S16x256x512_2_2_1_1_0_0 : DotDims S16x256x64 S16x512x64 S16x256x512 where
  lhsContracting := [2]
  rhsContracting := [2]
  lhsNonContracting := [1]
  rhsNonContracting := [1]
  lhsBatch := [0]
  rhsBatch := [0]
  wf := dot_S16x256x64_S16x512x64_S16x256x512_2_2_1_1_0_0_wf
def dot_S16x256x512_S16x512x64_S16x256x64_2_1_1_2_0_0 : DotDims S16x256x512 S16x512x64 S16x256x64 where
  lhsContracting := [2]
  rhsContracting := [1]
  lhsNonContracting := [1]
  rhsNonContracting := [2]
  lhsBatch := [0]
  rhsBatch := [0]
  wf := dot_S16x256x512_S16x512x64_S16x256x64_2_1_1_2_0_0_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6) S16x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S16x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S16x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S16x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v13) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S4096x16x64 : Shape := ⟨3, ![4096, 16, 64]⟩
abbrev S16x4096x64 : Shape := ⟨3, ![16, 4096, 64]⟩
abbrev S_ : Shape := ⟨0, ![]⟩
abbrev S16x4096x4096 : Shape := ⟨3, ![16, 4096, 4096]⟩
abbrev S16x4096 : Shape := ⟨2, ![16, 4096]⟩
abbrev S16x4096x1 : Shape := ⟨3, ![16, 4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x16x64, .f32⟩
  | .hbm, ⟨25, _⟩ => ⟨S16x4096x64, .f32⟩
  | .hbm, ⟨26, _⟩ => ⟨S4096x16x64, .f32⟩
  | .hbm, ⟨27, _⟩ => ⟨S16x4096x64, .f32⟩
  | .hbm, ⟨28, _⟩ => ⟨S4096x16x64, .f32⟩
  | .hbm, ⟨29, _⟩ => ⟨S16x4096x64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S_, .f32⟩
  | .hbm, ⟨40, _⟩ => ⟨S16x4096, .f32⟩
  | .hbm, ⟨41, _⟩ => ⟨S16x4096, .f32⟩
  | .hbm, ⟨42, _⟩ => ⟨S16x4096x1, .f32⟩
  | .hbm, ⟨43, _⟩ => ⟨S16x4096x4096, .f32⟩
  | .hbm, ⟨44, _⟩ => ⟨S16x4096x4096, .f32⟩
  | .hbm, ⟨45, _⟩ => ⟨S16x4096x4096, .f32⟩
  | .hbm, ⟨46, _⟩ => ⟨S_, .f32⟩
  | .hbm, ⟨47, _⟩ => ⟨S16x4096, .f32⟩
  | .hbm, ⟨48, _⟩ => ⟨S16x4096x1, .f32⟩
  | .hbm, ⟨49, _⟩ => ⟨S16x4096x4096, .f32⟩
  | .hbm, ⟨50, _⟩ => ⟨S16x4096x4096, .f32⟩
  | .hbm, ⟨51, _⟩ => ⟨S16x4096x64, .f32⟩
  | .hbm, ⟨52, _⟩ => ⟨S4096x16x64, .f32⟩
  | .hbm, ⟨53, _⟩ => ⟨S4096x1024, .f32⟩
  | .hbm, ⟨54, _⟩ => ⟨S1024x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S4096x1024_S4096x16x64 : S4096x1024.ShapeCasts S4096x16x64
  transposes_S4096x16x64_S16x4096x64_1_0_2 : S4096x16x64.Transposes [1, 0, 2] S16x4096x64
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  transposes_S16x4096x64_S4096x16x64_1_0_2 : S16x4096x64.Transposes [1, 0, 2] S4096x16x64
  shapeCasts_S4096x16x64_S4096x1024 : S4096x16x64.ShapeCasts S4096x1024
  dot_S4096x1024_S1024x1024_S4096x1024_1_0_0_1_n_n_wf : DotDims.WF S4096x1024 S1024x1024 S4096x1024 [1] [0] [0] [1] [] []
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.Reg0K.lean ====
/-
  The fused query / key / value projection's pallas_call as one region of the program: its grid has 8 points, each
  taking rows 512·t … 512·t + 511 of the input, the three whole weight matrices and bias vectors, and storing the
  three blocks `rows · Wᵀ + b` of the query, key and value arrays. Stated at the contents `V` the region is entered
  with: each window's block, what the body leaves in each output's staging buffer, the body's triple, and the proof
  data with its body obligation.
-/
import proofs.«168538_j2869038154470_2_alg».proof.Proof.Gen.Kernel.Launch
import proofs.«168538_j2869038154470_2_alg».proof.Proof.Gen.Kernel.Skeleton
import proofs.«168538_j2869038154470_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: every one a whole buffer -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- What the body leaves in output window 7's staging buffer, from the input blocks: one store of the whole block. -/
def out0_7 (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) : Vec F S512x1024 .bf16 :=
  View.canon [⟨rX, k0_pay2 (View.ld x0 rX) (View.ld x1 rW) (View.ld x2 rB)⟩]

/-- The one store covers the buffer. -/
theorem cover0_7 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-- What the body leaves in output window 8's staging buffer, from the input blocks: one store of the whole block. -/
def out0_8 (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) : Vec F S512x1024 .bf16 :=
  View.canon [⟨rX, k0_pay3 (View.ld x0 rX) (View.ld x3 rW) (View.ld x4 rB)⟩]

/-- The one store covers the buffer. -/
theorem cover0_8 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-- What the body leaves in output window 9's staging buffer, from the input blocks: one store of the whole block. -/
def out0_9 (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) : Vec F S512x1024 .bf16 :=
  View.canon [⟨rX, k0_pay4 (View.ld x0 rX) (View.ld x5 rW) (View.ld x6 rB)⟩]

/-- The one store covers the buffer. -/
theorem cover0_9 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 4000000 in
/-- The body on whole staging memrefs, the inputs' at the read contents and the outputs' at anything, runs to the
    continuation holding the inputs' as they were and each output's at its `out` of the inputs'. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of this pipeline on core `c`: the arrays as the region finds them; after the body at point `t`
    each input's buffer at its block and each output's at its `out` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg0

end
-- ==== Proof.Reg1RunsK.lean ====
/-
  The geometry of the attention call, for the runs of its body.

  The call walks 16 query blocks of 256 rows and, inside each, the 8 key blocks of 512 rows in turn; every block holds
  all 16 heads. Point `t` is key block `t % 8` of query block `t / 8`. Stated here, for any contents of the core's
  buffers at the call's entry: the block of its array that each of the four windows (query, key, value, output) shows
  at a point; the two conditions the body branches on — first key block (`t ≡ 0` mod 8) and last key block
  (`t ≡ 7` mod 8); that the output window is live only at the last key block; and the three buffers carried from point
  to point (running maximum, running normaliser, running weighted sum) with the invariant that hands them to the body
  and takes them back.
-/
import proofs.«168538_j2869038154470_2_alg».proof.Proof.Gen.Kernel.Launch
import proofs.«168538_j2869038154470_2_alg».proof.Proof.Gen.Kernel.Skeleton
import proofs.«168538_j2869038154470_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks

The attention call walks 16 query blocks of 256 rows and, inside each, 8 key blocks of 512 rows; every block holds
all 16 heads. What follows is stated for any contents `V` of the core's buffers at the call's entry. -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block at every point, although it is moved only when
    the query block changes: between two moves the block index stands still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds the point's key block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds the point's value block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form -/

/-- "This is the first key block of its query block": the key-block coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key block of its query block": the key-block coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key block nothing is stored into the output block: the window is idle there, -/
theorem idleAt1_3 : ∀ t : Fin cfg1.N, ¬cond1_1 (grid1.coords t) → cfg1.idle 3 (grid1.coords t) = true := by decide +kernel
/-- and its block is not written back there. -/
theorem noFlush1_3 : ∀ t : Fin cfg1.N, ¬cond1_1 (grid1.coords t) → (cfg1.win 3).flush t = false := by decide +kernel
/-- At the last key block the output block is stored: the window is live. -/
theorem liveAt1_3 : ∀ t : Fin cfg1.N, cond1_1 (grid1.coords t) → cfg1.idle 3 (grid1.coords t) = false := by decide +kernel

/-! ## The memrefs the body is called with -/

/-- One staging buffer of the output window, through which its contents are stated (the choice does not matter). -/
abbrev VO1_3 : View sig .tc .vmem S16x256x64 .bf16 := (Memref.whole cc1_stg3_0 : Memref sig .tc .vmem S16x256x64 .bf16).view
/-- Each window's current staging memref at point `t`, and its wholeness. -/
abbrev ms1_0 (t : Fin cfg1.N) : Memref sig .tc .vmem S16x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x256x64 .bf16 := win1_3.stage (cfg1.slots t 3)
abbrev hs1_3 (t : Fin cfg1.N) : (ms1_3 t).IsWhole := hstage1_3 ((cfg1.slots t 3).cast nbuf1_3)
/-- The three carried buffers: the running maximum, the running normaliser, the running weighted sum. -/
abbrev scM1_0 : Memref sig .tc .vmem S16x256x1 .f32 := Memref.whole cc1_scratch0
abbrev scM1_1 : Memref sig .tc .vmem S16x256x1 .f32 := Memref.whole cc1_scratch1
abbrev scM1_2 : Memref sig .tc .vmem S16x256x64 .f32 := Memref.whole cc1_scratch2
/-- The same as views: what they hold is stated through these. -/
abbrev VS1_0 : View sig .tc .vmem S16x256x1 .f32 := scM1_0.view
abbrev VS1_1 : View sig .tc .vmem S16x256x1 .f32 := scM1_1.view
abbrev VS1_2 : View sig .tc .vmem S16x256x64 .f32 := scM1_2.view

/-- The core's scoped buffers that are no staging buffer of this call, split at the three carried buffers; the
    remainder (the other calls' staging buffers) stays unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f) ∗ (∃ f : Buf Val ((c : Thread nD τ).loc cc1_scratch2), ((c : Thread nD τ).loc cc1_scratch2) ↦{fullShare} f))
          ∗ Pipeline.scopedRestBut (Ix := Ix) (Name := Name) (U := U) (Lvl := Lvl) (Val := Val) spec1 c [cc1_scratch0, cc1_scratch1, cc1_scratch2]) :=
  Pipeline.scopedRest_split_of_list spec1 c [cc1_scratch0, cc1_scratch1, cc1_scratch2] (by decide) (by decide)

/-- The other calls' scoped buffers, which this call never touches. -/
abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region's invariant with the three carried buffers as memrefs owned at some contents: what the body is handed
    and gives back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 (F := F) c) ∗ (∃ r, prngReg c r)) := by
  unfold Pipeline.ΦA; rw [scopedRest1_split]; simp only [scM1_0, scM1_1, scM1_2, owns_whole]; try rfl

end Cert.Kernel.Reg1

end
-- ==== Proof.Reg1RunAK.lean ====
/-
  The body of the attention call at the first key block of a query block.

  Nothing is carried into this point: the body resets the three carried buffers (maximum −∞, normaliser 0, weighted
  sum 0) and makes one step of the online softmax recurrence from the reset contents with the point's query, key and
  value blocks. The output block is not stored. The run is stated on whole buffers with the blocks' contents as
  variables, and keeps, per carried buffer, the stores that end in it.
-/
import proofs.«168538_j2869038154470_2_alg».proof.Proof.Reg1RunsK
set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE FIRST KEY BLOCK of a query block. On whole memrefs — the query, key and value blocks at their contents, the
    output block at contents handed back untouched, the three carried buffers at anything — the body first resets the
    carried buffers (maximum -∞, normaliser 0, sum 0) and then makes one step of the recurrence from them; it stores
    nothing into the output block. The pieces each carried buffer ends with are the witness the run finds. -/
noncomputable def kernelRun1_A (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) :
    Σ' (L3 : List (View.Piece (Elt F) S16x256x64 .bf16)) (LS0 : List (View.Piece (Elt F) S16x256x1 .f32)) (LS1 : List (View.Piece (Elt F) S16x256x1 .f32)), { LS2 : List (View.Piece (Elt F) S16x256x64 .f32) //
      ∀ (xi3 : Vec F S16x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Reg1

end
-- ==== Proof.Reg1RunBK.lean ====
/-
  The body of the attention call at a middle key block of a query block: neither the first nor the last.

  The body makes one step of the online softmax recurrence — the new maximum, and the normaliser and weighted sum
  rescaled to it plus the block's own terms — from what the point before left in the three carried buffers, with the
  point's query, key and value blocks. The output block is not stored. The run is stated on whole buffers with the
  blocks' and the carried contents as variables, and keeps, per carried buffer, the stores that end in it.
-/
import proofs.«168538_j2869038154470_2_alg».proof.Proof.Reg1RunAK
set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- A MIDDLE KEY BLOCK. On whole memrefs — the query, key and value blocks at their contents, the output block at
    contents handed back untouched, the three carried buffers at what the point before left (`xs·`) — the body makes
    one step of the recurrence from the carried contents and stores nothing into the output block. -/
noncomputable def kernelRun1_B (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16)
    (xs0 : Vec F S16x256x1 .f32) (xs1 : Vec F S16x256x1 .f32) (xs2 : Vec F S16x256x64 .f32) :
    Σ' (L3 : List (View.Piece (Elt F) S16x256x64 .bf16)) (LS0 : List (View.Piece (Elt F) S16x256x1 .f32)) (LS1 : List (View.Piece (Elt F) S16x256x1 .f32)), { LS2 : List (View.Piece (Elt F) S16x256x64 .f32) //
      ∀ (xi3 : Vec F S16x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Reg1

end
-- ==== Proof.Reg1RunCK.lean ====
/-
  The body of the attention call at the last key block of a query block.

  The body makes one step of the online softmax recurrence from what the point before left in the three carried
  buffers, with the point's query, key and value blocks, and then stores the output block: the updated weighted sum
  divided by the updated normaliser. The run is stated on whole buffers with the blocks' and the carried contents as
  variables, and keeps, per carried buffer and for the output block, the stores that end in it.
-/
import proofs.«168538_j2869038154470_2_alg».proof.Proof.Reg1RunBK
set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE LAST KEY BLOCK of a query block. On whole memrefs — the query, key and value blocks at their contents, the
    output block at anything, the three carried buffers at what the point before left (`xs·`) — the body makes one
    step of the recurrence and then stores the weighted sum over the normaliser into the output block. -/
noncomputable def kernelRun1_C (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16)
    (xs0 : Vec F S16x256x1 .f32) (xs1 : Vec F S16x256x1 .f32) (xs2 : Vec F S16x256x64 .f32) :
    Σ' (L3 : List (View.Piece (Elt F) S16x256x64 .bf16)) (LS0 : List (View.Piece (Elt F) S16x256x1 .f32)) (LS1 : List (View.Piece (Elt F) S16x256x1 .f32)), { LS2 : List (View.Piece (Elt F) S16x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Reg1

end
-- ==== Proof.Reg1K.lean ====
/-
  The attention call as one region of the program: what its buffers hold after every point, and the call's proof data.

  In each case of the body (first, middle, last key block of a query block) the stores into a carried buffer tile it,
  so what the buffer holds afterwards is those stores read back. Along the points these contents accumulate: at the
  first key block of a query block the carried buffers are reset and stepped once, at every later key block they are
  stepped from what the point before left, and at the last key block the output block is stored as well. The region's
  invariant keeps the three carried buffers at these contents between two points. The body obligation is proved at a
  generic point, by the point's position among the 8 key blocks of its query block; the invariant holds at the
  region's entry and gives the entry's resources back after any point.
-/
import proofs.«168538_j2869038154470_2_alg».proof.Proof.Reg1RunCK
set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first key block the stores into the running maximum's buffer tile it, so they cover it. -/
theorem scover1_A_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) (y : S16x256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S16x256x1.size (by sl_kernel_rfl) y

/-- What the first key block leaves in the running maximum's buffer: its stores read back. -/
def sout1_A_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) : Vec F S16x256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- At the first key block the stores into the running normaliser's buffer tile it, so they cover it. -/
theorem scover1_A_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) (y : S16x256x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S16x256x1.size (by sl_kernel_rfl) y

/-- What the first key block leaves in the running normaliser's buffer: its stores read back. -/
def sout1_A_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) : Vec F S16x256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- At the first key block the stores into the running weighted sum's buffer tile it, so they cover it. -/
theorem scover1_A_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) (y : S16x256x64.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S16x256x64.size (by sl_kernel_rfl) y

/-- What the first key block leaves in the running weighted sum's buffer: its stores read back. -/
def sout1_A_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) : Vec F S16x256x64 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- At a middle key block the stores into the running maximum's buffer tile it, so they cover it. -/
theorem scover1_B_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S16x256x1.size (by sl_kernel_rfl) y

/-- What a middle key block leaves in the running maximum's buffer: its stores read back. -/
def sout1_B_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- At a middle key block the stores into the running normaliser's buffer tile it, so they cover it. -/
theorem scover1_B_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S16x256x1.size (by sl_kernel_rfl) y

/-- What a middle key block leaves in the running normaliser's buffer: its stores read back. -/
def sout1_B_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- At a middle key block the stores into the running weighted sum's buffer tile it, so they cover it. -/
theorem scover1_B_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x64.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S16x256x64.size (by sl_kernel_rfl) y

/-- What a middle key block leaves in the running weighted sum's buffer: its stores read back. -/
def sout1_B_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x64 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- At the last key block the stores into the running maximum's buffer tile it, so they cover it. -/
theorem scover1_C_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S16x256x1.size (by sl_kernel_rfl) y

/-- What the last key block leaves in the running maximum's buffer: its stores read back. -/
def sout1_C_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- At the last key block the stores into the running normaliser's buffer tile it, so they cover it. -/
theorem scover1_C_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S16x256x1.size (by sl_kernel_rfl) y

/-- What the last key block leaves in the running normaliser's buffer: its stores read back. -/
def sout1_C_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- At the last key block the stores into the running weighted sum's buffer tile it, so they cover it. -/
theorem scover1_C_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x64.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S16x256x64.size (by sl_kernel_rfl) y

/-- What the last key block leaves in the running weighted sum's buffer: its stores read back. -/
def sout1_C_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x64 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- At the last key block the one store into the output block tiles it, so it covers it. -/
theorem cover1_C_3 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x64.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S16x256x64.size (by sl_kernel_rfl) y

/-- What the last key block leaves in the output block's staging buffer: its store read back. -/
def out1_C_3 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x64 .bf16 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Off the last key block nothing is stored into the output block; its staging buffer is handed back as found and is
    not written back, so what is recorded for it there is a placeholder nothing consults. -/
def outIdle1_3 : Vec F S16x256x64 .bf16 := VO1_3.read (Elt F) VO1_3.junk

/-! ## What the output block's buffer and the carried buffers hold after each point -/

/-- THE ACCUMULATION. After the body at position `n`: the output block's staging buffer, then the running maximum,
    normaliser and weighted sum. At the first key block of a query block the carried buffers are reset and stepped
    once; at every later key block they are stepped from what the point before left; at the last key block the output
    block is stored as well. -/
def outsAt1 (c : Dev nD) : (n : ℕ) → n < cfg1.N → Vec F S16x256x64 .bf16 × Vec F S16x256x1 .f32 × Vec F S16x256x1 .f32 × Vec F S16x256x64 .f32
  | 0, hn => (outIdle1_3, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (outIdle1_3, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (outIdle1_3, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at the first key block of a query block. -/
theorem outsAt1_A (c : Dev nD) (t : Fin cfg1.N) (h0 : t.val % 8 = 0) (h1 : ¬t.val % 8 = 7) :
    outsAt1 V c t.val t.isLt = (outIdle1_3, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle key block: a step over what the point before left. -/
theorem outsAt1_B (c : Dev nD) (t : Fin cfg1.N) (h0 : ¬t.val % 8 = 0) (h1 : ¬t.val % 8 = 7) :
    outsAt1 V c t.val t.isLt = (outIdle1_3, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last key block: a step over what the point before left, and the output block. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of this call at anything); afterwards the three carried buffers at what the point before left, the
    other calls' buffers unopened, and the generator register at some state. -/
def PhiS (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ others1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ others1 (F := F) c) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ others1 (F := F) c) ∗ (∃ r, prngReg c r)) := by
  cases n with
  | zero => exact absurd rfl hz
  | succ n => rfl

/-! ## The call's proof data -/

/-- The proof data of the attention call on core `c`: the arrays as the call finds them; after the body each input's
    buffer at its block and the output's at `outsAt1`'s first component; the invariant `PhiS`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's position among the 8 key blocks of its
    query block says which case it is; the invariant hands the body the carried buffers at what the point before left
    (at anything at the very first point) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS_castSucc V c t, PhiS_zero V c _ _ hz, PhiA1_eq]
        iintro ⟨⟨⟨⟨HS0, HS1, HS2⟩, Hoth⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨⟨HS0, HS1, HS2⟩, Hoth⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      · rw [PhiS_castSucc V c t, PhiS_pos V c _ _ hz]
        iintro ⟨⟨⟨⟨HS0, HS1, HS2⟩, Hoth⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      · rw [PhiS_castSucc V c t, PhiS_pos V c _ _ hz]
        iintro ⟨⟨⟨⟨HS0, HS1, HS2⟩, Hoth⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the carried buffers' named contents are
    forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, Hoth⟩, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

/-- The same after the last point. -/
theorem hout1 (c : Dev nD) : (dat1 V c).Φ (Fin.last cfg1.N) ⊢ Pipeline.ΦA spec1 c :=
  Phi_out V c _ (by rw [Fin.val_last]; have : cfg1.N = 128 := N_1; omega)

end Cert.Kernel.Reg1

end
-- ==== Proof.Reg2K.lean ====
/-
  The output projection's pallas_call as one region of the program: its grid has 8 points, each taking rows
  512·t … 512·t + 511 of the merged attention output, the whole weight matrix and the whole bias vector, and storing
  the block `rows · Wᵀ + b` of the result. Stated at the contents `V` the region is entered with: each window's block,
  what the body leaves in the output's staging buffer, the body's triple, and the proof data with its body obligation.
-/
import proofs.«168538_j2869038154470_2_alg».proof.Proof.Gen.Kernel.Launch
import proofs.«168538_j2869038154470_2_alg».proof.Proof.Gen.Kernel.Skeleton
import proofs.«168538_j2869038154470_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not: where it is not
    fetched its block index has not moved since the fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not: where it is not
    fetched its block index has not moved since the fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: every one a whole buffer -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- What the body leaves in output window 3's staging buffer, from the input blocks: one store of the whole block. -/
def out2_3 (x0 : Vec F S512x1024 .bf16) (x1 : Vec F S1024x1024 .bf16) (x2 : Vec F S1024 .f32) : Vec F S512x1024 .f32 :=
  View.canon [⟨rX, k2_pay1 (View.ld x0 rX) (View.ld x1 rW) (View.ld x2 rB)⟩]

/-- The one store covers the buffer. -/
theorem cover2_3 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The body's triple -/

set_option maxHeartbeats 4000000 in
/-- The body on whole staging memrefs, the inputs' at the read contents and the outputs' at anything, runs to the
    continuation holding the inputs' as they were and each output's at its `out` of the inputs'. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t`
    each input's buffer at its block and each output's at its `out` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 4000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg2

end
-- ==== Proof.RunK.lean ====
/-
  The whole program as six segments — three stretches of host operations (the weights' change of format; the
  split into heads; the merge of heads) and the three pallas_calls between them — run from the launch memory. The
  buffer contents at each boundary are a fold through the program: a host stretch applies its operations, a region
  replaces its windows' arrays by what its write-backs leave and keeps every other buffer. No host operation and no
  region writes an argument array, so the fold at an argument walks back to the launch memory; the result array is
  what the last region's write-backs leave.
-/
import proofs.«168538_j2869038154470_2_alg».proof.Proof.Reg0K
import proofs.«168538_j2869038154470_2_alg».proof.Proof.Reg1K
import proofs.«168538_j2869038154470_2_alg».proof.Proof.Reg2K
import proofs.«168538_j2869038154470_2_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Reg0 Cert.Kernel.Reg1 Cert.Kernel.Reg2

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the weights' change of format (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the split into heads (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the merge of heads (the output projection's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the output projection's exit: the end of the program. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide : main_arg1 ∉ hostOps2_W)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide : main_arg2 ∉ hostOps2_W)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (by decide : main_arg2 ∉ hostOps0_W)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide : main_arg3 ∉ hostOps2_W)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide : main_arg4 ∉ hostOps2_W)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := (W2_arr m c 4).trans (((dat0 (V1 m) c).arrAt_in 4 rfl _).trans (A_eq0 (V1 m) c 4))
    _ = W0 m c (Proc.devRef .tc main_arg4) := StableHlo.after_of_writes_sub hostOps0 _ hostOps0_writes (by decide : main_arg4 ∉ hostOps0_W)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (by decide : main_arg5 ∉ hostOps2_W)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (by decide : main_arg6 ∉ hostOps2_W)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := (W2_arr m c 6).trans (((dat0 (V1 m) c).arrAt_in 6 rfl _).trans (A_eq0 (V1 m) c 6))
    _ = W0 m c (Proc.devRef .tc main_arg6) := StableHlo.after_of_writes_sub hostOps0 _ hostOps0_writes (by decide : main_arg6 ∉ hostOps0_W)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps2 _ hostOps2_writes (by decide : main_arg7 ∉ hostOps2_W)
    _ = W3 m c (Proc.devRef .tc main_arg7) := W4_of_ne m c main_arg7 (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := (W6_arr m c 2).trans (((dat2 (V5 m) c).arrAt_in 2 rfl _).trans (A_eq2 (V5 m) c 2))
    _ = W4 m c (Proc.devRef .tc main_arg8) := StableHlo.after_of_writes_sub hostOps2 _ hostOps2_writes (by decide : main_arg8 ∉ hostOps2_W)
    _ = W3 m c (Proc.devRef .tc main_arg8) := W4_of_ne m c main_arg8 (by decide)
    _ = W2 m c (Proc.devRef .tc main_arg8) := StableHlo.after_of_writes_sub hostOps1 _ hostOps1_writes (by decide : main_arg8 ∉ hostOps1_W)
    _ = W1 m c (Proc.devRef .tc main_arg8) := W2_of_ne m c main_arg8 (by decide)
    _ = W0 m c (Proc.devRef .tc main_arg8) := StableHlo.after_of_writes_sub hostOps0 _ hostOps0_writes (by decide : main_arg8 ∉ hostOps0_W)
    _ = m ((c : Thread nD τ).loc main_arg8) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    refine .trans ?_ (hin1 (V3 m) c)
    unfold Pipeline.ΦA
    iintro ⟨Hp, -, Hr⟩
    isplitl [Hr]; · iexact Hr
    iexact Hp
  hout c := by
    rw [Pipeline.ownSems0_none, show (pdats m 1 c).Φ (Fin.last _) = (dat1 (V3 m) c).Φ (Fin.last cfg1.N) from rfl]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The same with the result array and the nine arguments named: the result is what the last region's write-backs
    leave in its output window's array; every argument is as launched. -/
theorem run_named : θ_run defs (onTc (τ := τ) (main (F := F))) ⟨m, fun _ => 0, ρ⟩ (fun r => ∀ c : Dev nD,
      r.2.mem ((c.tc : Thread nD τ).loc main_v14) = (dat2 (V5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v14 (by decide))).trans (W6_arr m c 3),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩) (run_all m ρ)

/-- The frame: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_named m ρ)

end Cert.Kernel.Run

end
-- ==== Proof.Reg0I.lean ====
/-
  The fused query / key / value projection's pallas_call as one region of the program: its grid has 8 points, each
  taking rows 512·t … 512·t + 511 of the input, the three whole weight matrices and bias vectors, and storing the
  three blocks `rows · Wᵀ + b` of the query, key and value arrays. Stated at the contents `V` the region is entered
  with: each window's block, what the body leaves in each output's staging buffer, the body's triple, and the proof
  data with its body obligation.
-/
import proofs.«168538_j2869038154470_2_alg».proof.Proof.Gen.KernelIdeal.Launch
import proofs.«168538_j2869038154470_2_alg».proof.Proof.Gen.KernelIdeal.Skeleton
import proofs.«168538_j2869038154470_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not
    fetched its block index has not moved since the fetch. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: every one a whole buffer -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- What the body leaves in output window 7's staging buffer, from the input blocks: one store of the whole block. -/
def out0_7 (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) : Vec F S512x1024 .bf16 :=
  View.canon [⟨rX, k0_pay2 (View.ld x0 rX) (View.ld x1 rW) (View.ld x2 rB)⟩]

/-- The one store covers the buffer. -/
theorem cover0_7 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-- What the body leaves in output window 8's staging buffer, from the input blocks: one store of the whole block. -/
def out0_8 (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) : Vec F S512x1024 .bf16 :=
  View.canon [⟨rX, k0_pay3 (View.ld x0 rX) (View.ld x3 rW) (View.ld x4 rB)⟩]

/-- The one store covers the buffer. -/
theorem cover0_8 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-- What the body leaves in output window 9's staging buffer, from the input blocks: one store of the whole block. -/
def out0_9 (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) : Vec F S512x1024 .bf16 :=
  View.canon [⟨rX, k0_pay4 (View.ld x0 rX) (View.ld x5 rW) (View.ld x6 rB)⟩]

/-- The one store covers the buffer. -/
theorem cover0_9 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 4000000 in
/-- The body on whole staging memrefs, the inputs' at the read contents and the outputs' at anything, runs to the
    continuation holding the inputs' as they were and each output's at its `out` of the inputs'. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .bf16) (x2 : Vec F S1024 .f32) (x3 : Vec F S1024x1024 .bf16) (x4 : Vec F S1024 .f32) (x5 : Vec F S1024x1024 .bf16) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of this pipeline on core `c`: the arrays as the region finds them; after the body at point `t`
    each input's buffer at its block and each output's at its `out` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg0

end
-- ==== Proof.Reg1Runs.lean ====
/-
  The geometry of the attention call, for the runs of its body.

  The call walks 16 query blocks of 256 rows and, inside each, the 8 key blocks of 512 rows in turn; every block holds
  all 16 heads. Point `t` is key block `t % 8` of query block `t / 8`. Stated here, for any contents of the core's
  buffers at the call's entry: the block of its array that each of the four windows (query, key, value, output) shows
  at a point; the two conditions the body branches on — first key block (`t ≡ 0` mod 8) and last key block
  (`t ≡ 7` mod 8); that the output window is live only at the last key block; and the three buffers carried from point
  to point (running maximum, running normaliser, running weighted sum) with the invariant that hands them to the body
  and takes them back.
-/
import proofs.«168538_j2869038154470_2_alg».proof.Proof.Gen.KernelIdeal.Launch
import proofs.«168538_j2869038154470_2_alg».proof.Proof.Gen.KernelIdeal.Skeleton
import proofs.«168538_j2869038154470_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks

The attention call walks 16 query blocks of 256 rows and, inside each, 8 key blocks of 512 rows; every block holds
all 16 heads. What follows is stated for any contents `V` of the core's buffers at the call's entry. -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block at every point, although it is moved only when
    the query block changes: between two moves the block index stands still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds the point's key block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds the point's value block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form -/

/-- "This is the first key block of its query block": the key-block coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key block of its query block": the key-block coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key block nothing is stored into the output block: the window is idle there, -/
theorem idleAt1_3 : ∀ t : Fin cfg1.N, ¬cond1_1 (grid1.coords t) → cfg1.idle 3 (grid1.coords t) = true := by decide +kernel
/-- and its block is not written back there. -/
theorem noFlush1_3 : ∀ t : Fin cfg1.N, ¬cond1_1 (grid1.coords t) → (cfg1.win 3).flush t = false := by decide +kernel
/-- At the last key block the output block is stored: the window is live. -/
theorem liveAt1_3 : ∀ t : Fin cfg1.N, cond1_1 (grid1.coords t) → cfg1.idle 3 (grid1.coords t) = false := by decide +kernel

/-! ## The memrefs the body is called with -/

/-- One staging buffer of the output window, through which its contents are stated (the choice does not matter). -/
abbrev VO1_3 : View sig .tc .vmem S16x256x64 .bf16 := (Memref.whole cc1_stg3_0 : Memref sig .tc .vmem S16x256x64 .bf16).view
/-- Each window's current staging memref at point `t`, and its wholeness. -/
abbrev ms1_0 (t : Fin cfg1.N) : Memref sig .tc .vmem S16x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x256x64 .bf16 := win1_3.stage (cfg1.slots t 3)
abbrev hs1_3 (t : Fin cfg1.N) : (ms1_3 t).IsWhole := hstage1_3 ((cfg1.slots t 3).cast nbuf1_3)
/-- The three carried buffers: the running maximum, the running normaliser, the running weighted sum. -/
abbrev scM1_0 : Memref sig .tc .vmem S16x256x1 .f32 := Memref.whole cc1_scratch0
abbrev scM1_1 : Memref sig .tc .vmem S16x256x1 .f32 := Memref.whole cc1_scratch1
abbrev scM1_2 : Memref sig .tc .vmem S16x256x64 .f32 := Memref.whole cc1_scratch2
/-- The same as views: what they hold is stated through these. -/
abbrev VS1_0 : View sig .tc .vmem S16x256x1 .f32 := scM1_0.view
abbrev VS1_1 : View sig .tc .vmem S16x256x1 .f32 := scM1_1.view
abbrev VS1_2 : View sig .tc .vmem S16x256x64 .f32 := scM1_2.view

/-- The core's scoped buffers that are no staging buffer of this call, split at the three carried buffers; the
    remainder (the other calls' staging buffers) stays unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f) ∗ (∃ f : Buf Val ((c : Thread nD τ).loc cc1_scratch2), ((c : Thread nD τ).loc cc1_scratch2) ↦{fullShare} f))
          ∗ Pipeline.scopedRestBut (Ix := Ix) (Name := Name) (U := U) (Lvl := Lvl) (Val := Val) spec1 c [cc1_scratch0, cc1_scratch1, cc1_scratch2]) :=
  Pipeline.scopedRest_split_of_list spec1 c [cc1_scratch0, cc1_scratch1, cc1_scratch2] (by decide) (by decide)

/-- The other calls' scoped buffers, which this call never touches. -/
abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region's invariant with the three carried buffers as memrefs owned at some contents: what the body is handed
    and gives back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 (F := F) c) ∗ (∃ r, prngReg c r)) := by
  unfold Pipeline.ΦA; rw [scopedRest1_split]; simp only [scM1_0, scM1_1, scM1_2, owns_whole]; try rfl

end Cert.KernelIdeal.Reg1

end
-- ==== Proof.Reg1RunA.lean ====
/-
  The body of the attention call at the first key block of a query block.

  Nothing is carried into this point: the body resets the three carried buffers (maximum −∞, normaliser 0, weighted
  sum 0) and makes one step of the online softmax recurrence from the reset contents with the point's query, key and
  value blocks. The output block is not stored. The run is stated on whole buffers with the blocks' contents as
  variables, and keeps, per carried buffer, the stores that end in it.
-/
import proofs.«168538_j2869038154470_2_alg».proof.Proof.Reg1Runs

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE FIRST KEY BLOCK of a query block. On whole memrefs — the query, key and value blocks at their contents, the
    output block at contents handed back untouched, the three carried buffers at anything — the body first resets the
    carried buffers (maximum -∞, normaliser 0, sum 0) and then makes one step of the recurrence from them; it stores
    nothing into the output block. The pieces each carried buffer ends with are the witness the run finds. -/
noncomputable def kernelRun1_A (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) :
    Σ' (L3 : List (View.Piece (Elt F) S16x256x64 .bf16)) (LS0 : List (View.Piece (Elt F) S16x256x1 .f32)) (LS1 : List (View.Piece (Elt F) S16x256x1 .f32)), { LS2 : List (View.Piece (Elt F) S16x256x64 .f32) //
      ∀ (xi3 : Vec F S16x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Reg1

end
-- ==== Proof.Reg1RunB.lean ====
/-
  The body of the attention call at a middle key block of a query block: neither the first nor the last.

  The body makes one step of the online softmax recurrence — the new maximum, and the normaliser and weighted sum
  rescaled to it plus the block's own terms — from what the point before left in the three carried buffers, with the
  point's query, key and value blocks. The output block is not stored. The run is stated on whole buffers with the
  blocks' and the carried contents as variables, and keeps, per carried buffer, the stores that end in it.
-/
import proofs.«168538_j2869038154470_2_alg».proof.Proof.Reg1RunA

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- A MIDDLE KEY BLOCK. On whole memrefs — the query, key and value blocks at their contents, the output block at
    contents handed back untouched, the three carried buffers at what the point before left (`xs·`) — the body makes
    one step of the recurrence from the carried contents and stores nothing into the output block. -/
noncomputable def kernelRun1_B (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16)
    (xs0 : Vec F S16x256x1 .f32) (xs1 : Vec F S16x256x1 .f32) (xs2 : Vec F S16x256x64 .f32) :
    Σ' (L3 : List (View.Piece (Elt F) S16x256x64 .bf16)) (LS0 : List (View.Piece (Elt F) S16x256x1 .f32)) (LS1 : List (View.Piece (Elt F) S16x256x1 .f32)), { LS2 : List (View.Piece (Elt F) S16x256x64 .f32) //
      ∀ (xi3 : Vec F S16x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Reg1

end
-- ==== Proof.Reg1RunC.lean ====
/-
  The body of the attention call at the last key block of a query block.

  The body makes one step of the online softmax recurrence from what the point before left in the three carried
  buffers, with the point's query, key and value blocks, and then stores the output block: the updated weighted sum
  divided by the updated normaliser. The run is stated on whole buffers with the blocks' and the carried contents as
  variables, and keeps, per carried buffer and for the output block, the stores that end in it.
-/
import proofs.«168538_j2869038154470_2_alg».proof.Proof.Reg1RunB

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE LAST KEY BLOCK of a query block. On whole memrefs — the query, key and value blocks at their contents, the
    output block at anything, the three carried buffers at what the point before left (`xs·`) — the body makes one
    step of the recurrence and then stores the weighted sum over the normaliser into the output block. -/
noncomputable def kernelRun1_C (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16)
    (xs0 : Vec F S16x256x1 .f32) (xs1 : Vec F S16x256x1 .f32) (xs2 : Vec F S16x256x64 .f32) :
    Σ' (L3 : List (View.Piece (Elt F) S16x256x64 .bf16)) (LS0 : List (View.Piece (Elt F) S16x256x1 .f32)) (LS1 : List (View.Piece (Elt F) S16x256x1 .f32)), { LS2 : List (View.Piece (Elt F) S16x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Reg1

end
-- ==== Proof.Reg1.lean ====
/-
  The attention call as one region of the program: what its buffers hold after every point, and the call's proof data.

  In each case of the body (first, middle, last key block of a query block) the stores into a carried buffer tile it,
  so what the buffer holds afterwards is those stores read back. Along the points these contents accumulate: at the
  first key block of a query block the carried buffers are reset and stepped once, at every later key block they are
  stepped from what the point before left, and at the last key block the output block is stored as well. The region's
  invariant keeps the three carried buffers at these contents between two points. The body obligation is proved at a
  generic point, by the point's position among the 8 key blocks of its query block; the invariant holds at the
  region's entry and gives the entry's resources back after any point.
-/
import proofs.«168538_j2869038154470_2_alg».proof.Proof.Reg1RunC

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first key block the stores into the running maximum's buffer tile it, so they cover it. -/
theorem scover1_A_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) (y : S16x256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S16x256x1.size (by sl_kernel_rfl) y

/-- What the first key block leaves in the running maximum's buffer: its stores read back. -/
def sout1_A_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) : Vec F S16x256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- At the first key block the stores into the running normaliser's buffer tile it, so they cover it. -/
theorem scover1_A_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) (y : S16x256x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S16x256x1.size (by sl_kernel_rfl) y

/-- What the first key block leaves in the running normaliser's buffer: its stores read back. -/
def sout1_A_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) : Vec F S16x256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- At the first key block the stores into the running weighted sum's buffer tile it, so they cover it. -/
theorem scover1_A_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) (y : S16x256x64.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S16x256x64.size (by sl_kernel_rfl) y

/-- What the first key block leaves in the running weighted sum's buffer: its stores read back. -/
def sout1_A_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) : Vec F S16x256x64 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- At a middle key block the stores into the running maximum's buffer tile it, so they cover it. -/
theorem scover1_B_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S16x256x1.size (by sl_kernel_rfl) y

/-- What a middle key block leaves in the running maximum's buffer: its stores read back. -/
def sout1_B_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- At a middle key block the stores into the running normaliser's buffer tile it, so they cover it. -/
theorem scover1_B_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S16x256x1.size (by sl_kernel_rfl) y

/-- What a middle key block leaves in the running normaliser's buffer: its stores read back. -/
def sout1_B_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- At a middle key block the stores into the running weighted sum's buffer tile it, so they cover it. -/
theorem scover1_B_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x64.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S16x256x64.size (by sl_kernel_rfl) y

/-- What a middle key block leaves in the running weighted sum's buffer: its stores read back. -/
def sout1_B_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x64 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- At the last key block the stores into the running maximum's buffer tile it, so they cover it. -/
theorem scover1_C_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S16x256x1.size (by sl_kernel_rfl) y

/-- What the last key block leaves in the running maximum's buffer: its stores read back. -/
def sout1_C_0 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- At the last key block the stores into the running normaliser's buffer tile it, so they cover it. -/
theorem scover1_C_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S16x256x1.size (by sl_kernel_rfl) y

/-- What the last key block leaves in the running normaliser's buffer: its stores read back. -/
def sout1_C_1 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- At the last key block the stores into the running weighted sum's buffer tile it, so they cover it. -/
theorem scover1_C_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x64.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S16x256x64.size (by sl_kernel_rfl) y

/-- What the last key block leaves in the running weighted sum's buffer: its stores read back. -/
def sout1_C_2 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x64 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- At the last key block the one store into the output block tiles it, so it covers it. -/
theorem cover1_C_3 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) (y : S16x256x64.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S16x256x64.size (by sl_kernel_rfl) y

/-- What the last key block leaves in the output block's staging buffer: its store read back. -/
def out1_C_3 (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) : Vec F S16x256x64 .bf16 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Off the last key block nothing is stored into the output block; its staging buffer is handed back as found and is
    not written back, so what is recorded for it there is a placeholder nothing consults. -/
def outIdle1_3 : Vec F S16x256x64 .bf16 := VO1_3.read (Elt F) VO1_3.junk

/-! ## What the output block's buffer and the carried buffers hold after each point -/

/-- THE ACCUMULATION. After the body at position `n`: the output block's staging buffer, then the running maximum,
    normaliser and weighted sum. At the first key block of a query block the carried buffers are reset and stepped
    once; at every later key block they are stepped from what the point before left; at the last key block the output
    block is stored as well. -/
def outsAt1 (c : Dev nD) : (n : ℕ) → n < cfg1.N → Vec F S16x256x64 .bf16 × Vec F S16x256x1 .f32 × Vec F S16x256x1 .f32 × Vec F S16x256x64 .f32
  | 0, hn => (outIdle1_3, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (outIdle1_3, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (outIdle1_3, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at the first key block of a query block. -/
theorem outsAt1_A (c : Dev nD) (t : Fin cfg1.N) (h0 : t.val % 8 = 0) (h1 : ¬t.val % 8 = 7) :
    outsAt1 V c t.val t.isLt = (outIdle1_3, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle key block: a step over what the point before left. -/
theorem outsAt1_B (c : Dev nD) (t : Fin cfg1.N) (h0 : ¬t.val % 8 = 0) (h1 : ¬t.val % 8 = 7) :
    outsAt1 V c t.val t.isLt = (outIdle1_3, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last key block: a step over what the point before left, and the output block. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of this call at anything); afterwards the three carried buffers at what the point before left, the
    other calls' buffers unopened, and the generator register at some state. -/
def PhiS (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ others1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ others1 (F := F) c) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ others1 (F := F) c) ∗ (∃ r, prngReg c r)) := by
  cases n with
  | zero => exact absurd rfl hz
  | succ n => rfl

/-! ## The call's proof data -/

/-- The proof data of the attention call on core `c`: the arrays as the call finds them; after the body each input's
    buffer at its block and the output's at `outsAt1`'s first component; the invariant `PhiS`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's position among the 8 key blocks of its
    query block says which case it is; the invariant hands the body the carried buffers at what the point before left
    (at anything at the very first point) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS_castSucc V c t, PhiS_zero V c _ _ hz, PhiA1_eq]
        iintro ⟨⟨⟨⟨HS0, HS1, HS2⟩, Hoth⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨⟨HS0, HS1, HS2⟩, Hoth⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      · rw [PhiS_castSucc V c t, PhiS_pos V c _ _ hz]
        iintro ⟨⟨⟨⟨HS0, HS1, HS2⟩, Hoth⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      · rw [PhiS_castSucc V c t, PhiS_pos V c _ _ hz]
        iintro ⟨⟨⟨⟨HS0, HS1, HS2⟩, Hoth⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the carried buffers' named contents are
    forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, Hoth⟩, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

/-- The same after the last point. -/
theorem hout1 (c : Dev nD) : (dat1 V c).Φ (Fin.last cfg1.N) ⊢ Pipeline.ΦA spec1 c :=
  Phi_out V c _ (by rw [Fin.val_last]; have : cfg1.N = 128 := N_1; omega)

end Cert.KernelIdeal.Reg1

end
-- ==== Proof.Reg2I.lean ====
/-
  The output projection's pallas_call as one region of the program: its grid has 8 points, each taking rows
  512·t … 512·t + 511 of the merged attention output, the whole weight matrix and the whole bias vector, and storing
  the block `rows · Wᵀ + b` of the result. Stated at the contents `V` the region is entered with: each window's block,
  what the body leaves in the output's staging buffer, the body's triple, and the proof data with its body obligation.
-/
import proofs.«168538_j2869038154470_2_alg».proof.Proof.Gen.KernelIdeal.Launch
import proofs.«168538_j2869038154470_2_alg».proof.Proof.Gen.KernelIdeal.Skeleton
import proofs.«168538_j2869038154470_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not: where it is not
    fetched its block index has not moved since the fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not: where it is not
    fetched its block index has not moved since the fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: every one a whole buffer -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- What the body leaves in output window 3's staging buffer, from the input blocks: one store of the whole block. -/
def out2_3 (x0 : Vec F S512x1024 .bf16) (x1 : Vec F S1024x1024 .bf16) (x2 : Vec F S1024 .f32) : Vec F S512x1024 .f32 :=
  View.canon [⟨rX, k2_pay1 (View.ld x0 rX) (View.ld x1 rW) (View.ld x2 rB)⟩]

/-- The one store covers the buffer. -/
theorem cover2_3 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The body's triple -/

set_option maxHeartbeats 4000000 in
/-- The body on whole staging memrefs, the inputs' at the read contents and the outputs' at anything, runs to the
    continuation holding the inputs' as they were and each output's at its `out` of the inputs'. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t`
    each input's buffer at its block and each output's at its `out` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 4000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg2

end
-- ==== Proof.RunI.lean ====
/-
  The whole program as six segments — three stretches of host operations (the weights' change of format; the
  split into heads; the merge of heads) and the three pallas_calls between them — run from the launch memory. The
  buffer contents at each boundary are a fold through the program: a host stretch applies its operations, a region
  replaces its windows' arrays by what its write-backs leave and keeps every other buffer. No host operation and no
  region writes an argument array, so the fold at an argument walks back to the launch memory; the result array is
  what the last region's write-backs leave.
-/
import proofs.«168538_j2869038154470_2_alg».proof.Proof.Reg0I
import proofs.«168538_j2869038154470_2_alg».proof.Proof.Reg1
import proofs.«168538_j2869038154470_2_alg».proof.Proof.Reg2I
import proofs.«168538_j2869038154470_2_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg0 Cert.KernelIdeal.Reg1 Cert.KernelIdeal.Reg2

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the weights' change of format (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the split into heads (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the merge of heads (the output projection's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the output projection's exit: the end of the program. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide : main_arg1 ∉ hostOps2_W)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide : main_arg2 ∉ hostOps2_W)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (by decide : main_arg2 ∉ hostOps0_W)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide : main_arg3 ∉ hostOps2_W)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide : main_arg4 ∉ hostOps2_W)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := (W2_arr m c 4).trans (((dat0 (V1 m) c).arrAt_in 4 rfl _).trans (A_eq0 (V1 m) c 4))
    _ = W0 m c (Proc.devRef .tc main_arg4) := StableHlo.after_of_writes_sub hostOps0 _ hostOps0_writes (by decide : main_arg4 ∉ hostOps0_W)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (by decide : main_arg5 ∉ hostOps2_W)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (by decide : main_arg6 ∉ hostOps2_W)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := (W2_arr m c 6).trans (((dat0 (V1 m) c).arrAt_in 6 rfl _).trans (A_eq0 (V1 m) c 6))
    _ = W0 m c (Proc.devRef .tc main_arg6) := StableHlo.after_of_writes_sub hostOps0 _ hostOps0_writes (by decide : main_arg6 ∉ hostOps0_W)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps2 _ hostOps2_writes (by decide : main_arg7 ∉ hostOps2_W)
    _ = W3 m c (Proc.devRef .tc main_arg7) := W4_of_ne m c main_arg7 (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := (W6_arr m c 2).trans (((dat2 (V5 m) c).arrAt_in 2 rfl _).trans (A_eq2 (V5 m) c 2))
    _ = W4 m c (Proc.devRef .tc main_arg8) := StableHlo.after_of_writes_sub hostOps2 _ hostOps2_writes (by decide : main_arg8 ∉ hostOps2_W)
    _ = W3 m c (Proc.devRef .tc main_arg8) := W4_of_ne m c main_arg8 (by decide)
    _ = W2 m c (Proc.devRef .tc main_arg8) := StableHlo.after_of_writes_sub hostOps1 _ hostOps1_writes (by decide : main_arg8 ∉ hostOps1_W)
    _ = W1 m c (Proc.devRef .tc main_arg8) := W2_of_ne m c main_arg8 (by decide)
    _ = W0 m c (Proc.devRef .tc main_arg8) := StableHlo.after_of_writes_sub hostOps0 _ hostOps0_writes (by decide : main_arg8 ∉ hostOps0_W)
    _ = m ((c : Thread nD τ).loc main_arg8) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    refine .trans ?_ (hin1 (V3 m) c)
    unfold Pipeline.ΦA
    iintro ⟨Hp, -, Hr⟩
    isplitl [Hr]; · iexact Hr
    iexact Hp
  hout c := by
    rw [Pipeline.ownSems0_none, show (pdats m 1 c).Φ (Fin.last _) = (dat1 (V3 m) c).Φ (Fin.last cfg1.N) from rfl]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The same with the result array and the nine arguments named: the result is what the last region's write-backs
    leave in its output window's array; every argument is as launched. -/
theorem run_named : θ_run defs (onTc (τ := τ) (main (F := F))) ⟨m, fun _ => 0, ρ⟩ (fun r => ∀ c : Dev nD,
      r.2.mem ((c.tc : Thread nD τ).loc main_v14) = (dat2 (V5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v14 (by decide))).trans (W6_arr m c 3),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩) (run_all m ρ)

/-- The frame: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_named m ρ)

end Cert.KernelIdeal.Run

end
-- ==== Proof.LibBlocks.lean ====
/-
  Three more ways a block of numbers is read at an index — general in the extents.

  An `a × n` matrix with `n = b·c`, recast as an `a × b × c` block (each row cut into `b` groups of `c`), reads at
  `(p, s, l)` the matrix's entry `(p, c·s + l)`; an `a × 1` column recast as a vector reads at `p` the column's entry
  `(p, 0)`; and the sum of an `a × b × c` block along its middle axis, over the
  extended reals, reads at `(p, q)` the sum over `k` of the entries `(p, k, q)`.
-/
import Idealize.ShloMosaic.Lib.Pipeline.Value
import Idealize.ShloMosaic.Lib.ValueIdx
import Idealize.ShloMosaic.PureOps.Ideal.Laws

noncomputable section

open scoped BigOperators

namespace Cert.LibBlocks

open Idealize.ShloMosaic Idealize.ShloMosaic.ValueIdx

variable {α : Type}

/-- A matrix whose rows of length `n = b·c` are cut into `b` groups of `c` reads, at `(p, s, l)`, its entry
    `(p, c·s + l)`. -/
theorem shapeCast_rows_split_apply {a b c n : ℕ} (hn : n = b * c) (x : (⟨2, ![a, n]⟩ : Shape).Idx → α)
    (h : (⟨2, ![a, n]⟩ : Shape).ShapeCasts ⟨3, ![a, b, c]⟩) (p : Fin a) (s : Fin b) (l : Fin c) (q : Fin n)
    (hq : q.val = c * s.val + l.val) :
    shapeCast ⟨3, ![a, b, c]⟩ x h (ix3 p s l) = x (ix2 p q) := by
  refine shapeCast_apply x h (ix3 p s l) (ix2 p q) ?_
  rw [Shape.rowMajor_val_two, Shape.rowMajor_val_three]
  show p.val * n + q.val = (p.val * b + s.val) * c + l.val
  rw [hq, hn]
  ring

/-- An `a × 1` column recast as a vector of `a` entries reads, at `p`, the column's entry `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) := by
  refine shapeCast_apply x h (ix1 p) (ix2 p (0 : Fin 1)) ?_
  rw [Shape.rowMajor_val_one, Shape.rowMajor_val_two]
  show p.val * 1 + 0 = p.val
  omega

/-- Over the extended reals the sum of an `a × b × c` block along its middle axis reads, at `(p, q)`,
    `∑ₖ src (p, k, q)`. -/
theorem midSum_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (q : Fin c) :
    multiReduction .add [1] ⟨2, ![a, c]⟩ src acc h hφ hacc (ix2 p q) = ∑ k : Fin b, src (ix3 p k q) := by
  refine (Ideal.multiReduction_add_single src acc h hφ hacc (ix2 p q)).trans ?_
  refine Finset.sum_congr rfl fun k _ => congrArg src ?_
  funext d
  apply Fin.ext
  match d with
  | ⟨0, _⟩ => rfl
  | ⟨1, _⟩ => rfl
  | ⟨2, _⟩ => rfl

end Cert.LibBlocks

end
-- ==== Proof.HostReads.lean ====
/-
  What the host operations between the regions hand on, read at an entry. The weights' change of format is the
  identity on the extended reals. The split into heads recasts an array of 4096 rows of 1024 as [4096, 16, 64] and
  swaps the first two axes: head `h`, row `n`, column `d` is entry (n, 64·h + d). The merge of heads is the inverse:
  entry (n, c) of the merged array is head `c / 64`, row `n`, column `c % 64`.
-/
import proofs.«168538_j2869038154470_2_alg».proof.Proof.RunI
import proofs.«168538_j2869038154470_2_alg».proof.Proof.LibBlocks
import Idealize.ShloMosaic.Lib.StableHlo.Run
import Idealize.ShloMosaic.Lib.Pipeline.Value
import Idealize.ShloMosaic.Lib.ValueIdx

set_option maxRecDepth 16384

noncomputable section

namespace Cert.KernelIdeal.HostReads

open Idealize.ShloMosaic Idealize.ShloMosaic.TcCoe Idealize.ShloMosaic.ValueIdx
open Idealize.SL Idealize.SL.Sem
open Cert.KernelIdeal Cert.KernelIdeal.Gen Cert.KernelIdeal.Run

variable (m : (ℓ : Loc nD τ sig) → Buf (Elt Ideal) ℓ)

/-! ## The weights in the narrower format are the weights -/

theorem W1_v0 (c : Dev nD) : (W1 m c (Proc.devRef .tc main_v0) : S1024x1024.Idx → EReal) = m ((c : Thread nD τ).loc main_arg1) := by
  show StableHlo.after hostOps0 (W0 m c) (Proc.devRef .tc main_v0) = _
  after_results
  rfl
theorem W1_v1 (c : Dev nD) : (W1 m c (Proc.devRef .tc main_v1) : S1024x1024.Idx → EReal) = m ((c : Thread nD τ).loc main_arg3) := by
  show StableHlo.after hostOps0 (W0 m c) (Proc.devRef .tc main_v1) = _
  after_results
  rfl
theorem W1_v2 (c : Dev nD) : (W1 m c (Proc.devRef .tc main_v2) : S1024x1024.Idx → EReal) = m ((c : Thread nD τ).loc main_arg5) := by
  show StableHlo.after hostOps0 (W0 m c) (Proc.devRef .tc main_v2) = _
  after_results
  rfl
theorem W1_v3 (c : Dev nD) : (W1 m c (Proc.devRef .tc main_v3) : S1024x1024.Idx → EReal) = m ((c : Thread nD τ).loc main_arg7) := by
  show StableHlo.after hostOps0 (W0 m c) (Proc.devRef .tc main_v3) = _
  after_results
  rfl

/-! ## The split into heads and the merge of heads, read at an entry -/

/-- Head `h`, row `n`, column `d` of the split is entry (n, 64·h + d). -/
theorem split_apply (a : S4096x1024.Idx → EReal) (h : Fin 16) (n : Fin 4096) (d : Fin 64) (q : Fin 1024) (hq : q.val = 64 * h.val + d.val) :
    transpose S16x4096x64 [1, 0, 2] (shapeCast S4096x16x64 a shapeCasts_S4096x1024_S4096x16x64) transposes_S4096x16x64_S16x4096x64_1_0_2 (ix3 h n d)
      = a (ix2 n q) := by
  refine (transpose_apply _ _ _ (ix3 h n d) (ix3 n h d) (fun b => ?_)).trans ?_
  · match b with
    | ⟨0, _⟩ => rfl
    | ⟨1, _⟩ => rfl
    | ⟨2, _⟩ => rfl
  · exact Cert.LibBlocks.shapeCast_rows_split_apply (by norm_num) a _ n h d q hq

/-- Entry (n, c) of the merge is head `c / 64`, row `n`, column `c % 64`. -/
theorem merge_apply (a : S16x4096x64.Idx → EReal) (n : Fin 4096) (c : Fin 1024) (h : Fin 16) (d : Fin 64) (hc : c.val = 64 * h.val + d.val) :
    shapeCast S4096x1024 (transpose S4096x16x64 [1, 0, 2] a transposes_S16x4096x64_S4096x16x64_1_0_2) shapeCasts_S4096x16x64_S4096x1024 (ix2 n c)
      = a (ix3 h n d) := by
  refine (shapeCast_apply _ _ (ix2 n c) (ix3 n h d) ?_).trans ?_
  · rw [Shape.rowMajor_val_two, Shape.rowMajor_val_three]
    show (n.val * 16 + h.val) * 64 + d.val = n.val * 1024 + c.val
    rw [hc]; ring
  · refine transpose_apply _ _ _ (ix3 n h d) (ix3 h n d) (fun b => ?_)
    match b with
    | ⟨0, _⟩ => rfl
    | ⟨1, _⟩ => rfl
    | ⟨2, _⟩ => rfl

/-! ## The arrays the attention region and the output projection are entered with -/

theorem W3_v6 (c : Dev nD) : (W3 m c (Proc.devRef .tc main_v6) : S16x4096x64.Idx → EReal)
    = transpose S16x4096x64 [1, 0, 2] (shapeCast S4096x16x64 (W2 m c (Proc.devRef .tc main_v4_0) : S4096x1024.Idx → EReal) shapeCasts_S4096x1024_S4096x16x64) transposes_S4096x16x64_S16x4096x64_1_0_2 := by
  show StableHlo.after hostOps1 (W2 m c) (Proc.devRef .tc main_v6) = _
  after_results
  rfl
theorem W3_v8 (c : Dev nD) : (W3 m c (Proc.devRef .tc main_v8) : S16x4096x64.Idx → EReal)
    = transpose S16x4096x64 [1, 0, 2] (shapeCast S4096x16x64 (W2 m c (Proc.devRef .tc main_v4_1) : S4096x1024.Idx → EReal) shapeCasts_S4096x1024_S4096x16x64) transposes_S4096x16x64_S16x4096x64_1_0_2 := by
  show StableHlo.after hostOps1 (W2 m c) (Proc.devRef .tc main_v8) = _
  after_results
  rfl
theorem W3_v10 (c : Dev nD) : (W3 m c (Proc.devRef .tc main_v10) : S16x4096x64.Idx → EReal)
    = transpose S16x4096x64 [1, 0, 2] (shapeCast S4096x16x64 (W2 m c (Proc.devRef .tc main_v4_2) : S4096x1024.Idx → EReal) shapeCasts_S4096x1024_S4096x16x64) transposes_S4096x16x64_S16x4096x64_1_0_2 := by
  show StableHlo.after hostOps1 (W2 m c) (Proc.devRef .tc main_v10) = _
  after_results
  rfl
theorem W5_v13 (c : Dev nD) : (W5 m c (Proc.devRef .tc main_v13) : S4096x1024.Idx → EReal)
    = shapeCast S4096x1024 (transpose S4096x16x64 [1, 0, 2] (W4 m c (Proc.devRef .tc main_v11) : S16x4096x64.Idx → EReal) transposes_S16x4096x64_S4096x16x64_1_0_2) shapeCasts_S4096x16x64_S4096x1024 := by
  show StableHlo.after hostOps2 (W4 m c) (Proc.devRef .tc main_v13) = _
  after_results
  rfl

/-! ## Arrays that reach a later region as launched -/

theorem W1_arg0 (c : Dev nD) : W1 m c (Proc.devRef .tc main_arg0) = m ((c : Thread nD τ).loc main_arg0) :=
  (StableHlo.after_of_writes_sub hostOps0 _ hostOps0_writes (by decide : main_arg0 ∉ hostOps0_W)).trans rfl
theorem W1_arg2 (c : Dev nD) : W1 m c (Proc.devRef .tc main_arg2) = m ((c : Thread nD τ).loc main_arg2) :=
  (StableHlo.after_of_writes_sub hostOps0 _ hostOps0_writes (by decide : main_arg2 ∉ hostOps0_W)).trans rfl
theorem W1_arg4 (c : Dev nD) : W1 m c (Proc.devRef .tc main_arg4) = m ((c : Thread nD τ).loc main_arg4) :=
  (StableHlo.after_of_writes_sub hostOps0 _ hostOps0_writes (by decide : main_arg4 ∉ hostOps0_W)).trans rfl
theorem W1_arg6 (c : Dev nD) : W1 m c (Proc.devRef .tc main_arg6) = m ((c : Thread nD τ).loc main_arg6) :=
  (StableHlo.after_of_writes_sub hostOps0 _ hostOps0_writes (by decide : main_arg6 ∉ hostOps0_W)).trans rfl

/-- The output projection's bias is the launch's: nothing before it writes the array. -/
theorem W5_arg8 (c : Dev nD) : W5 m c (Proc.devRef .tc main_arg8) = m ((c : Thread nD τ).loc main_arg8) :=
  calc W5 m c (Proc.devRef .tc main_arg8)
    _ = W4 m c (Proc.devRef .tc main_arg8) := StableHlo.after_of_writes_sub hostOps2 _ hostOps2_writes (by decide : main_arg8 ∉ hostOps2_W)
    _ = W3 m c (Proc.devRef .tc main_arg8) := W4_of_ne m c main_arg8 (by decide)
    _ = W2 m c (Proc.devRef .tc main_arg8) := StableHlo.after_of_writes_sub hostOps1 _ hostOps1_writes (by decide : main_arg8 ∉ hostOps1_W)
    _ = W1 m c (Proc.devRef .tc main_arg8) := W2_of_ne m c main_arg8 (by decide)
    _ = W0 m c (Proc.devRef .tc main_arg8) := StableHlo.after_of_writes_sub hostOps0 _ hostOps0_writes (by decide : main_arg8 ∉ hostOps0_W)
    _ = m ((c : Thread nD τ).loc main_arg8) := rfl

/-- The output projection's weights are the launch's, in the narrower format. -/
theorem W5_v3 (c : Dev nD) : (W5 m c (Proc.devRef .tc main_v3) : S1024x1024.Idx → EReal) = m ((c : Thread nD τ).loc main_arg7) :=
  calc (W5 m c (Proc.devRef .tc main_v3) : S1024x1024.Idx → EReal)
    _ = W4 m c (Proc.devRef .tc main_v3) := StableHlo.after_of_writes_sub hostOps2 _ hostOps2_writes (by decide : main_v3 ∉ hostOps2_W)
    _ = W3 m c (Proc.devRef .tc main_v3) := W4_of_ne m c main_v3 (by decide)
    _ = W2 m c (Proc.devRef .tc main_v3) := StableHlo.after_of_writes_sub hostOps1 _ hostOps1_writes (by decide : main_v3 ∉ hostOps1_W)
    _ = W1 m c (Proc.devRef .tc main_v3) := W2_of_ne m c main_v3 (by decide)
    _ = m ((c : Thread nD τ).loc main_arg7) := W1_v3 m c

end Cert.KernelIdeal.HostReads

end
-- ==== Proof.LibDotRows.lean ====
/-
  A reusable general lemma: a matrix product that contracts the COLUMNS of both operands, read at an entry.

  The product of an `n` × `K` matrix `l` with the transpose of an `M` × `K` matrix `r` (`l @ r.T`, a linear layer
  whose weight matrix is stored one row per output feature) pairs row `p` of `l` with row `c` of `r`. Its dimension
  numbers index the sum by the contraction shape's positions; when that shape has the one axis of extent `K` and the
  two operand indices at output entry (p, c) and contraction position `k` are (p, k) and (c, k) — four coordinate
  facts a program's literal dimension numbers decide — the sum is `∑ k : Fin K, l (p, k) · r (c, k)`. On the extended
  reals this reads a vector unit's matrix product into a zero accumulator. Stated at any extents.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

/-- The contraction's sum, re-indexed by the one contracted coordinate. -/
theorem sum_contr_eq {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's matrix product into the zero accumulator, at entry (p, c): `∑ k, lhs (p, k) · rhs (c, k)`. -/
theorem matmul_zero_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_eq D hr hs l0 l1 r0 r1 lhs rhs p c)

end Idealize.ShloMosaic.DotRows

end
-- ==== Proof.DensePay.lean ====
/-
  The projections' arithmetic read at an entry. A block of 512 rows `x`, a weight matrix `w` stored one row per output
  feature and a bias vector `b` give the block `x · wᵀ + b`: entry (p, c) is `∑ k, x (p, k) · w (c, k) + b c`. On the
  extended reals the changes of float format are the identity, the matrix product into the zero accumulator is
  that sum, and the bias, recast as a row and spread over the rows, is read at its column.
-/
import proofs.«168538_j2869038154470_2_alg».proof.Proof.Gen.KernelIdeal.Skeleton
import proofs.«168538_j2869038154470_2_alg».proof.Proof.LibDotRows
import Idealize.ShloMosaic.Lib.ValueIdx
import Idealize.ShloMosaic.Lib.ValueLayout
import Idealize.ShloMosaic.Lib.Pipeline.Value

noncomputable section

open scoped BigOperators

namespace Cert.KernelIdeal.DensePay

open Idealize.ShloMosaic Idealize.ShloMosaic.TcCoe Idealize.ShloMosaic.ValueIdx Cert.KernelIdeal Cert.KernelIdeal.Gen

/-! ## The product's index maps: row `p` of the left operand against row `c` of the right one -/

theorem l0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem l1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem r0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem r1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into the zero accumulator at entry (p, c). -/
theorem dot_apply {φ₁ φ₂ : FTy} (l : FVec Ideal S512x1024 φ₁) (r : FVec Ideal S1024x1024 φ₂) (p : Fin 512) (c : Fin 1024) :
    matmul dot_S512x1024_S1024x1024_S512x1024_1_1_0_0_n_n none l r (constant (F := Ideal) S512x1024 .f32 0x00000000#32) (ix2 p c)
      = ∑ k : Fin 1024, (l (ix2 p k) : EReal) * (r (ix2 c k) : EReal) :=
  DotRows.matmul_zero_apply dot_S512x1024_S1024x1024_S512x1024_1_1_0_0_n_n rfl rfl l0 l1 r0 r1 none l r p c

/-- The bias vector as a row spread over the 512 rows, at entry (p, c). -/
theorem bias_apply (b : Vec Ideal S1024 .f32) (p : Fin 512) (c : Fin 1024) :
    broadcastTo S512x1024 (shapeCast S1x1024 b shapeCasts_S1024_S1x1024) broadcasts_S1x1024_S512x1024 (ix2 p c) = b (ix1 c) := by
  rw [broadcastTo_1b_ab_apply, shapeCast_a_1a_apply]

/-! ## The four payloads -/

theorem k2_pay1_apply (x0 : Vec Ideal S512x1024 .bf16) (x1 : Vec Ideal S1024x1024 .bf16) (x2 : Vec Ideal S1024 .f32) (p : Fin 512) (c : Fin 1024) :
    k2_pay1 x0 x1 x2 (ix2 p c) = (∑ k : Fin 1024, x0 (ix2 p k) * x1 (ix2 c k)) + x2 (ix1 c) := by
  unfold k2_pay1
  rw [addf_apply, shapeCast_self, shapeCast_self]
  exact congrArg₂ (· + ·) (dot_apply _ _ p c) (bias_apply x2 p c)

theorem k0_pay2_apply (x0 : Vec Ideal S512x1024 .f32) (x1 : Vec Ideal S1024x1024 .bf16) (x2 : Vec Ideal S1024 .f32) (p : Fin 512) (c : Fin 1024) :
    k0_pay2 x0 x1 x2 (ix2 p c) = (∑ k : Fin 1024, x0 (ix2 p k) * x1 (ix2 c k)) + x2 (ix1 c) := by
  unfold k0_pay2 k0_pay1
  rw [truncf_apply, addf_apply, shapeCast_self]
  exact congrArg₂ (· + ·) (dot_apply _ _ p c) (bias_apply x2 p c)

theorem k0_pay3_apply (x0 : Vec Ideal S512x1024 .f32) (x1 : Vec Ideal S1024x1024 .bf16) (x2 : Vec Ideal S1024 .f32) (p : Fin 512) (c : Fin 1024) :
    k0_pay3 x0 x1 x2 (ix2 p c) = (∑ k : Fin 1024, x0 (ix2 p k) * x1 (ix2 c k)) + x2 (ix1 c) := by
  unfold k0_pay3 k0_pay1
  rw [truncf_apply, addf_apply, shapeCast_self]
  exact congrArg₂ (· + ·) (dot_apply _ _ p c) (bias_apply x2 p c)

theorem k0_pay4_apply (x0 : Vec Ideal S512x1024 .f32) (x1 : Vec Ideal S1024x1024 .bf16) (x2 : Vec Ideal S1024 .f32) (p : Fin 512) (c : Fin 1024) :
    k0_pay4 x0 x1 x2 (ix2 p c) = (∑ k : Fin 1024, x0 (ix2 p k) * x1 (ix2 c k)) + x2 (ix1 c) := by
  unfold k0_pay4 k0_pay1
  rw [truncf_apply, addf_apply, shapeCast_self]
  exact congrArg₂ (· + ·) (dot_apply _ _ p c) (bias_apply x2 p c)

end Cert.KernelIdeal.DensePay

end
-- ==== Proof.FinalQ.lean ====
/-
  The query array as one function: the projection region's eight points write the eight blocks of 512 rows, each
  `rows · Wᵀ + b` of the input rows it was handed, so the whole array is `x · Wᵀ + b` of the arrays the region was
  entered with.
-/
import proofs.«168538_j2869038154470_2_alg».proof.Proof.Reg0I
import proofs.«168538_j2869038154470_2_alg».proof.Proof.DensePay
import Idealize.ShloMosaic.Lib.Pipeline.Value
import Idealize.ShloMosaic.Lib.ValueIdx

set_option maxRecDepth 16384

noncomputable section

open scoped BigOperators

namespace Cert.KernelIdeal.FinalQ

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Reg0

variable (V : (c : Dev nD) → (b : Ref sig .tc) → Buf (Elt Ideal) ((c : Thread nD τ).loc b))

/-- The three arrays the region was entered with, as functions into the extended reals. -/
abbrev aX (c : Dev nD) : S4096x1024.Idx → EReal := V c main_arg0
abbrev aW (c : Dev nD) : S1024x1024.Idx → EReal := V c main_v0
abbrev aB (c : Dev nD) : S1024.Idx → EReal := V c main_arg2

/-- Rows times the transposed weight matrix plus the bias, entry by entry. -/
def denseG (x : S4096x1024.Idx → EReal) (w : S1024x1024.Idx → EReal) (b : S1024.Idx → EReal) : S4096x1024.Idx → EReal :=
  fun i => (∑ k : Fin 1024, x (ix2 (i 0) k) * w (ix2 (i 1) k)) + b (ix1 (i 1))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row block moves with the point, the weights and the bias stay whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_7.index t (0 : Fin 2) = t.val ∧ win0_7.index t (1 : Fin 2) = 0 :=
  (by decide +kernel : ∀ t : Fin grid0.N, _)

/-- What point `t` writes back is block `t` of the whole-array function. -/
theorem flushed_eq (c : Dev nD) (t : Fin cfg0.N) :
    (dat0 V c).flushed 7 t = ((cfg0.win 7).blk t).view.read (Elt Ideal) (denseG (aX V c) (aW V c) (aB V c)) := by
  show (cfg0.win 7).cut (grid0.coords t) ((dat0 V c).after 7 t) = _
  rw [after0_7]
  unfold out0_7
  rw [View.canon_unit_zero hz2]
  simp only [View.ld_unit_zero (S := S512x1024) hz2, View.ld_unit_zero (S := S1024x1024) hz2, View.ld_unit_zero (S := S1024) hz1]
  obtain ⟨e0, e1, e2, e3, e4, e5, e6⟩ := idx_facts t
  funext j
  obtain ⟨p, q, rfl⟩ : ∃ (p : Fin 512) (q : Fin 1024), j = ix2 p q := ⟨j 0, j 1, eq_ix2 j⟩
  refine (DensePay.k0_pay2_apply _ _ _ p q).trans ?_
  show (∑ k : Fin 1024, aX V c (((cfg0.win 0).blk t).view.emb (ix2 p k)) * aW V c (((cfg0.win 1).blk t).view.emb (ix2 q k)))
      + aB V c (((cfg0.win 2).blk t).view.emb (ix1 q))
    = denseG (aX V c) (aW V c) (aB V c) (((cfg0.win 7).blk t).view.emb (ix2 p q))
  unfold denseG
  have hp : p.val < 512 := p.isLt
  have hq : q.val < 1024 := q.isLt
  have hx : ∀ k : Fin 1024, ((cfg0.win 0).blk t).view.emb (ix2 p k) = ix2 ((((cfg0.win 7).blk t).view.emb (ix2 p q)) 0) k := fun k => by
    funext a; apply Fin.ext
    match a with
    | ⟨0, _⟩ => show win0_0.index t (0 : Fin 2) * 512 + 1 * p.val = win0_7.index t (0 : Fin 2) * 512 + 1 * p.val; omega
    | ⟨1, _⟩ => show win0_0.index t (1 : Fin 2) * 1024 + 1 * k.val = k.val; omega
  have hw : ∀ k : Fin 1024, ((cfg0.win 1).blk t).view.emb (ix2 q k) = ix2 ((((cfg0.win 7).blk t).view.emb (ix2 p q)) 1) k := fun k => by
    funext a; apply Fin.ext
    match a with
    | ⟨0, _⟩ => show win0_1.index t (0 : Fin 2) * 1024 + 1 * q.val = win0_7.index t (1 : Fin 2) * 1024 + 1 * q.val; omega
    | ⟨1, _⟩ => show win0_1.index t (1 : Fin 2) * 1024 + 1 * k.val = k.val; omega
  have hb : ((cfg0.win 2).blk t).view.emb (ix1 q) = ix1 ((((cfg0.win 7).blk t).view.emb (ix2 p q)) 1) := by
    funext a; apply Fin.ext
    match a with
    | ⟨0, _⟩ => show win0_2.index t (0 : Fin 1) * 1024 + 1 * q.val = win0_7.index t (1 : Fin 2) * 1024 + 1 * q.val; omega
  refine congrArg₂ (· + ·) (Finset.sum_congr rfl fun k _ => ?_) ?_
  · rw [hx k, hw k] <;> rfl
  · rw [hb] <;> rfl

/-- An index of the array is in point `t`'s block iff each coordinate is in the block's range on its axis. -/
theorem mem_blk (t : Fin cfg0.N) (i : S4096x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v4_0).slice (win0_7.rect t)).set ↔ _
  rw [View.set_slice_whole, Rect.mem_set_unit]
  exact Iff.rfl

/-- Every row lies in the block of the point `row / 512`. -/
theorem cover (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_7 _, ?_⟩
  rw [mem_blk]
  obtain ⟨e0, e1, e2, e3, e4, e5, e6⟩ := idx_facts ⟨(i 0).val / 512, by rw [hN]; omega⟩
  intro a
  match a with
  | ⟨0, _⟩ => show win0_7.index _ (0 : Fin 2) * 512 ≤ (i 0).val ∧ (i 0).val < win0_7.index _ (0 : Fin 2) * 512 + 512; rw [e5]; show (i 0).val / 512 * 512 ≤ (i 0).val ∧ (i 0).val < (i 0).val / 512 * 512 + 512; omega
  | ⟨1, _⟩ => show win0_7.index _ (1 : Fin 2) * 1024 ≤ (i 1).val ∧ (i 1).val < win0_7.index _ (1 : Fin 2) * 1024 + 1024; rw [e6]; omega

/-- The array after the region: rows times the transposed weights plus the bias, of the arrays the region was entered with. -/
theorem final (c : Dev nD) : (dat0 V c).arrAt 7 cfg0.N = denseG (aX V c) (aW V c) (aB V c) :=
  (dat0 V c).arrAt_eq_of_cover 7 _ (fun t _ => flushed_eq V c t) (cover)

end Cert.KernelIdeal.FinalQ

end
-- ==== Proof.FinalK.lean ====
/-
  The key array as one function: the projection region's eight points write the eight blocks of 512 rows, each
  `rows · Wᵀ + b` of the input rows it was handed, so the whole array is `x · Wᵀ + b` of the arrays the region was
  entered with.
-/
import proofs.«168538_j2869038154470_2_alg».proof.Proof.Reg0I
import proofs.«168538_j2869038154470_2_alg».proof.Proof.DensePay
import Idealize.ShloMosaic.Lib.Pipeline.Value
import Idealize.ShloMosaic.Lib.ValueIdx

set_option maxRecDepth 16384

noncomputable section

open scoped BigOperators

namespace Cert.KernelIdeal.FinalK

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Reg0

variable (V : (c : Dev nD) → (b : Ref sig .tc) → Buf (Elt Ideal) ((c : Thread nD τ).loc b))

/-- The three arrays the region was entered with, as functions into the extended reals. -/
abbrev aX (c : Dev nD) : S4096x1024.Idx → EReal := V c main_arg0
abbrev aW (c : Dev nD) : S1024x1024.Idx → EReal := V c main_v1
abbrev aB (c : Dev nD) : S1024.Idx → EReal := V c main_arg4

/-- Rows times the transposed weight matrix plus the bias, entry by entry. -/
def denseG (x : S4096x1024.Idx → EReal) (w : S1024x1024.Idx → EReal) (b : S1024.Idx → EReal) : S4096x1024.Idx → EReal :=
  fun i => (∑ k : Fin 1024, x (ix2 (i 0) k) * w (ix2 (i 1) k)) + b (ix1 (i 1))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row block moves with the point, the weights and the bias stay whole. -/
theorem idx_facts : ∀ t : Fin cfg0.N, win0_0.index t (0 : Fin 2) = t.val ∧ win0_0.index t (1 : Fin 2) = 0
    ∧ win0_3.index t (0 : Fin 2) = 0 ∧ win0_3.index t (1 : Fin 2) = 0 ∧ win0_4.index t (0 : Fin 1) = 0
    ∧ win0_8.index t (0 : Fin 2) = t.val ∧ win0_8.index t (1 : Fin 2) = 0 :=
  (by decide +kernel : ∀ t : Fin grid0.N, _)

/-- What point `t` writes back is block `t` of the whole-array function. -/
theorem flushed_eq (c : Dev nD) (t : Fin cfg0.N) :
    (dat0 V c).flushed 8 t = ((cfg0.win 8).blk t).view.read (Elt Ideal) (denseG (aX V c) (aW V c) (aB V c)) := by
  show (cfg0.win 8).cut (grid0.coords t) ((dat0 V c).after 8 t) = _
  rw [after0_8]
  unfold out0_8
  rw [View.canon_unit_zero hz2]
  simp only [View.ld_unit_zero (S := S512x1024) hz2, View.ld_unit_zero (S := S1024x1024) hz2, View.ld_unit_zero (S := S1024) hz1]
  obtain ⟨e0, e1, e2, e3, e4, e5, e6⟩ := idx_facts t
  funext j
  obtain ⟨p, q, rfl⟩ : ∃ (p : Fin 512) (q : Fin 1024), j = ix2 p q := ⟨j 0, j 1, eq_ix2 j⟩
  refine (DensePay.k0_pay3_apply _ _ _ p q).trans ?_
  show (∑ k : Fin 1024, aX V c (((cfg0.win 0).blk t).view.emb (ix2 p k)) * aW V c (((cfg0.win 3).blk t).view.emb (ix2 q k)))
      + aB V c (((cfg0.win 4).blk t).view.emb (ix1 q))
    = denseG (aX V c) (aW V c) (aB V c) (((cfg0.win 8).blk t).view.emb (ix2 p q))
  unfold denseG
  have hp : p.val < 512 := p.isLt
  have hq : q.val < 1024 := q.isLt
  have hx : ∀ k : Fin 1024, ((cfg0.win 0).blk t).view.emb (ix2 p k) = ix2 ((((cfg0.win 8).blk t).view.emb (ix2 p q)) 0) k := fun k => by
    funext a; apply Fin.ext
    match a with
    | ⟨0, _⟩ => show win0_0.index t (0 : Fin 2) * 512 + 1 * p.val = win0_8.index t (0 : Fin 2) * 512 + 1 * p.val; omega
    | ⟨1, _⟩ => show win0_0.index t (1 : Fin 2) * 1024 + 1 * k.val = k.val; omega
  have hw : ∀ k : Fin 1024, ((cfg0.win 3).blk t).view.emb (ix2 q k) = ix2 ((((cfg0.win 8).blk t).view.emb (ix2 p q)) 1) k := fun k => by
    funext a; apply Fin.ext
    match a with
    | ⟨0, _⟩ => show win0_3.index t (0 : Fin 2) * 1024 + 1 * q.val = win0_8.index t (1 : Fin 2) * 1024 + 1 * q.val; omega
    | ⟨1, _⟩ => show win0_3.index t (1 : Fin 2) * 1024 + 1 * k.val = k.val; omega
  have hb : ((cfg0.win 4).blk t).view.emb (ix1 q) = ix1 ((((cfg0.win 8).blk t).view.emb (ix2 p q)) 1) := by
    funext a; apply Fin.ext
    match a with
    | ⟨0, _⟩ => show win0_4.index t (0 : Fin 1) * 1024 + 1 * q.val = win0_8.index t (1 : Fin 2) * 1024 + 1 * q.val; omega
  refine congrArg₂ (· + ·) (Finset.sum_congr rfl fun k _ => ?_) ?_
  · rw [hx k, hw k] <;> rfl
  · rw [hb] <;> rfl

/-- An index of the array is in point `t`'s block iff each coordinate is in the block's range on its axis. -/
theorem mem_blk (t : Fin cfg0.N) (i : S4096x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v4_1).slice (win0_8.rect t)).set ↔ _
  rw [View.set_slice_whole, Rect.mem_set_unit]
  exact Iff.rfl

/-- Every row lies in the block of the point `row / 512`. -/
theorem cover (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_8 _, ?_⟩
  rw [mem_blk]
  obtain ⟨e0, e1, e2, e3, e4, e5, e6⟩ := idx_facts ⟨(i 0).val / 512, by rw [hN]; omega⟩
  intro a
  match a with
  | ⟨0, _⟩ => show win0_8.index _ (0 : Fin 2) * 512 ≤ (i 0).val ∧ (i 0).val < win0_8.index _ (0 : Fin 2) * 512 + 512; rw [e5]; show (i 0).val / 512 * 512 ≤ (i 0).val ∧ (i 0).val < (i 0).val / 512 * 512 + 512; omega
  | ⟨1, _⟩ => show win0_8.index _ (1 : Fin 2) * 1024 ≤ (i 1).val ∧ (i 1).val < win0_8.index _ (1 : Fin 2) * 1024 + 1024; rw [e6]; omega

/-- The array after the region: rows times the transposed weights plus the bias, of the arrays the region was entered with. -/
theorem final (c : Dev nD) : (dat0 V c).arrAt 8 cfg0.N = denseG (aX V c) (aW V c) (aB V c) :=
  (dat0 V c).arrAt_eq_of_cover 8 _ (fun t _ => flushed_eq V c t) (cover)

end Cert.KernelIdeal.FinalK

end
-- ==== Proof.FinalV.lean ====
/-
  The value array as one function: the projection region's eight points write the eight blocks of 512 rows, each
  `rows · Wᵀ + b` of the input rows it was handed, so the whole array is `x · Wᵀ + b` of the arrays the region was
  entered with.
-/
import proofs.«168538_j2869038154470_2_alg».proof.Proof.Reg0I
import proofs.«168538_j2869038154470_2_alg».proof.Proof.DensePay
import Idealize.ShloMosaic.Lib.Pipeline.Value
import Idealize.ShloMosaic.Lib.ValueIdx

set_option maxRecDepth 16384

noncomputable section

open scoped BigOperators

namespace Cert.KernelIdeal.FinalV

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Reg0

variable (V : (c : Dev nD) → (b : Ref sig .tc) → Buf (Elt Ideal) ((c : Thread nD τ).loc b))

/-- The three arrays the region was entered with, as functions into the extended reals. -/
abbrev aX (c : Dev nD) : S4096x1024.Idx → EReal := V c main_arg0
abbrev aW (c : Dev nD) : S1024x1024.Idx → EReal := V c main_v2
abbrev aB (c : Dev nD) : S1024.Idx → EReal := V c main_arg6

/-- Rows times the transposed weight matrix plus the bias, entry by entry. -/
def denseG (x : S4096x1024.Idx → EReal) (w : S1024x1024.Idx → EReal) (b : S1024.Idx → EReal) : S4096x1024.Idx → EReal :=
  fun i => (∑ k : Fin 1024, x (ix2 (i 0) k) * w (ix2 (i 1) k)) + b (ix1 (i 1))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row block moves with the point, the weights and the bias stay whole. -/
theorem idx_facts : ∀ t : Fin cfg0.N, win0_0.index t (0 : Fin 2) = t.val ∧ win0_0.index t (1 : Fin 2) = 0
    ∧ win0_5.index t (0 : Fin 2) = 0 ∧ win0_5.index t (1 : Fin 2) = 0 ∧ win0_6.index t (0 : Fin 1) = 0
    ∧ win0_9.index t (0 : Fin 2) = t.val ∧ win0_9.index t (1 : Fin 2) = 0 :=
  (by decide +kernel : ∀ t : Fin grid0.N, _)

/-- What point `t` writes back is block `t` of the whole-array function. -/
theorem flushed_eq (c : Dev nD) (t : Fin cfg0.N) :
    (dat0 V c).flushed 9 t = ((cfg0.win 9).blk t).view.read (Elt Ideal) (denseG (aX V c) (aW V c) (aB V c)) := by
  show (cfg0.win 9).cut (grid0.coords t) ((dat0 V c).after 9 t) = _
  rw [after0_9]
  unfold out0_9
  rw [View.canon_unit_zero hz2]
  simp only [View.ld_unit_zero (S := S512x1024) hz2, View.ld_unit_zero (S := S1024x1024) hz2, View.ld_unit_zero (S := S1024) hz1]
  obtain ⟨e0, e1, e2, e3, e4, e5, e6⟩ := idx_facts t
  funext j
  obtain ⟨p, q, rfl⟩ : ∃ (p : Fin 512) (q : Fin 1024), j = ix2 p q := ⟨j 0, j 1, eq_ix2 j⟩
  refine (DensePay.k0_pay4_apply _ _ _ p q).trans ?_
  show (∑ k : Fin 1024, aX V c (((cfg0.win 0).blk t).view.emb (ix2 p k)) * aW V c (((cfg0.win 5).blk t).view.emb (ix2 q k)))
      + aB V c (((cfg0.win 6).blk t).view.emb (ix1 q))
    = denseG (aX V c) (aW V c) (aB V c) (((cfg0.win 9).blk t).view.emb (ix2 p q))
  unfold denseG
  have hp : p.val < 512 := p.isLt
  have hq : q.val < 1024 := q.isLt
  have hx : ∀ k : Fin 1024, ((cfg0.win 0).blk t).view.emb (ix2 p k) = ix2 ((((cfg0.win 9).blk t).view.emb (ix2 p q)) 0) k := fun k => by
    funext a; apply Fin.ext
    match a with
    | ⟨0, _⟩ => show win0_0.index t (0 : Fin 2) * 512 + 1 * p.val = win0_9.index t (0 : Fin 2) * 512 + 1 * p.val; omega
    | ⟨1, _⟩ => show win0_0.index t (1 : Fin 2) * 1024 + 1 * k.val = k.val; omega
  have hw : ∀ k : Fin 1024, ((cfg0.win 5).blk t).view.emb (ix2 q k) = ix2 ((((cfg0.win 9).blk t).view.emb (ix2 p q)) 1) k := fun k => by
    funext a; apply Fin.ext
    match a with
    | ⟨0, _⟩ => show win0_5.index t (0 : Fin 2) * 1024 + 1 * q.val = win0_9.index t (1 : Fin 2) * 1024 + 1 * q.val; omega
    | ⟨1, _⟩ => show win0_5.index t (1 : Fin 2) * 1024 + 1 * k.val = k.val; omega
  have hb : ((cfg0.win 6).blk t).view.emb (ix1 q) = ix1 ((((cfg0.win 9).blk t).view.emb (ix2 p q)) 1) := by
    funext a; apply Fin.ext
    match a with
    | ⟨0, _⟩ => show win0_6.index t (0 : Fin 1) * 1024 + 1 * q.val = win0_9.index t (1 : Fin 2) * 1024 + 1 * q.val; omega
  refine congrArg₂ (· + ·) (Finset.sum_congr rfl fun k _ => ?_) ?_
  · rw [hx k, hw k] <;> rfl
  · rw [hb] <;> rfl

/-- An index of the array is in point `t`'s block iff each coordinate is in the block's range on its axis. -/
theorem mem_blk (t : Fin cfg0.N) (i : S4096x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v4_2).slice (win0_9.rect t)).set ↔ _
  rw [View.set_slice_whole, Rect.mem_set_unit]
  exact Iff.rfl

/-- Every row lies in the block of the point `row / 512`. -/
theorem cover (i : S4096x1024.Idx) : ∃ t : Fin cfg0.N, (cfg0.win 9).flush t = true ∧ i ∈ ((cfg0.win 9).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_9 _, ?_⟩
  rw [mem_blk]
  obtain ⟨e0, e1, e2, e3, e4, e5, e6⟩ := idx_facts ⟨(i 0).val / 512, by rw [hN]; omega⟩
  intro a
  match a with
  | ⟨0, _⟩ => show win0_9.index _ (0 : Fin 2) * 512 ≤ (i 0).val ∧ (i 0).val < win0_9.index _ (0 : Fin 2) * 512 + 512; rw [e5]; show (i 0).val / 512 * 512 ≤ (i 0).val ∧ (i 0).val < (i 0).val / 512 * 512 + 512; omega
  | ⟨1, _⟩ => show win0_9.index _ (1 : Fin 2) * 1024 ≤ (i 1).val ∧ (i 1).val < win0_9.index _ (1 : Fin 2) * 1024 + 1024; rw [e6]; omega

/-- The array after the region: rows times the transposed weights plus the bias, of the arrays the region was entered with. -/
theorem final (c : Dev nD) : (dat0 V c).arrAt 9 cfg0.N = denseG (aX V c) (aW V c) (aB V c) :=
  (dat0 V c).arrAt_eq_of_cover 9 _ (fun t _ => flushed_eq V c t) (cover)

end Cert.KernelIdeal.FinalV

end
-- ==== Proof.FinalOut.lean ====
/-
  The output projection's result array as one function: the region's eight points write the eight blocks of 512
  rows, each `rows · Wᵀ + b` of the rows of the merged attention output it was handed, so the whole array is
  `x · Wᵀ + b` of the arrays the region was entered with.
-/
import proofs.«168538_j2869038154470_2_alg».proof.Proof.Reg2I
import proofs.«168538_j2869038154470_2_alg».proof.Proof.DensePay
import Idealize.ShloMosaic.Lib.Pipeline.Value
import Idealize.ShloMosaic.Lib.ValueIdx

set_option maxRecDepth 16384

noncomputable section

open scoped BigOperators

namespace Cert.KernelIdeal.FinalOut

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Reg2

variable (V : (c : Dev nD) → (b : Ref sig .tc) → Buf (Elt Ideal) ((c : Thread nD τ).loc b))

/-- The three arrays the region was entered with, as functions into the extended reals. -/
abbrev aX (c : Dev nD) : S4096x1024.Idx → EReal := V c main_v13
abbrev aW (c : Dev nD) : S1024x1024.Idx → EReal := V c main_v3
abbrev aB (c : Dev nD) : S1024.Idx → EReal := V c main_arg8

/-- Rows times the transposed weight matrix plus the bias, entry by entry. -/
def denseG (x : S4096x1024.Idx → EReal) (w : S1024x1024.Idx → EReal) (b : S1024.Idx → EReal) : S4096x1024.Idx → EReal :=
  fun i => (∑ k : Fin 1024, x (ix2 (i 0) k) * w (ix2 (i 1) k)) + b (ix1 (i 1))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row block moves with the point, the weights and the bias stay whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- What point `t` writes back is block `t` of the whole-array function. -/
theorem flushed_eq (c : Dev nD) (t : Fin cfg2.N) :
    (dat2 V c).flushed 3 t = ((cfg2.win 3).blk t).view.read (Elt Ideal) (denseG (aX V c) (aW V c) (aB V c)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1024) hz1]
  obtain ⟨e0, e1, e2, e3, e4, e5, e6⟩ := idx_facts t
  funext j
  obtain ⟨p, q, rfl⟩ : ∃ (p : Fin 512) (q : Fin 1024), j = ix2 p q := ⟨j 0, j 1, eq_ix2 j⟩
  refine (DensePay.k2_pay1_apply _ _ _ p q).trans ?_
  show (∑ k : Fin 1024, aX V c (((cfg2.win 0).blk t).view.emb (ix2 p k)) * aW V c (((cfg2.win 1).blk t).view.emb (ix2 q k)))
      + aB V c (((cfg2.win 2).blk t).view.emb (ix1 q))
    = denseG (aX V c) (aW V c) (aB V c) (((cfg2.win 3).blk t).view.emb (ix2 p q))
  unfold denseG
  have hp : p.val < 512 := p.isLt
  have hq : q.val < 1024 := q.isLt
  have hx : ∀ k : Fin 1024, ((cfg2.win 0).blk t).view.emb (ix2 p k) = ix2 ((((cfg2.win 3).blk t).view.emb (ix2 p q)) 0) k := fun k => by
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  have hw : ∀ k : Fin 1024, ((cfg2.win 1).blk t).view.emb (ix2 q k) = ix2 ((((cfg2.win 3).blk t).view.emb (ix2 p q)) 1) k := fun k => by
    funext a; apply Fin.ext
    match a with
    | ⟨0, _⟩ => show win2_1.index t (0 : Fin 2) * 1024 + 1 * q.val = win2_3.index t (1 : Fin 2) * 1024 + 1 * q.val; omega
    | ⟨1, _⟩ => show win2_1.index t (1 : Fin 2) * 1024 + 1 * k.val = k.val; omega
  have hb : ((cfg2.win 2).blk t).view.emb (ix1 q) = ix1 ((((cfg2.win 3).blk t).view.emb (ix2 p q)) 1) := by
    funext a; apply Fin.ext
    match a with
    | ⟨0, _⟩ => show win2_2.index t (0 : Fin 1) * 1024 + 1 * q.val = win2_3.index t (1 : Fin 2) * 1024 + 1 * q.val; omega
  refine congrArg₂ (· + ·) (Finset.sum_congr rfl fun k _ => ?_) ?_
  · rw [hx k, hw k] <;> rfl
  · rw [hb] <;> rfl

/-- An index of the array is in point `t`'s block iff each coordinate is in the block's range on its axis. -/
theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v14).slice (win2_3.rect t)).set ↔ _
  rw [View.set_slice_whole, Rect.mem_set_unit]
  exact Iff.rfl

/-- Every row lies in the block of the point `row / 512`. -/
theorem cover (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 8 := N_2
  refine ⟨⟨(i 0).val / 512, by rw [hN]; omega⟩, flush2_3 _, ?_⟩
  rw [mem_blk]
  obtain ⟨e0, e1, e2, e3, e4, e5, e6⟩ := idx_facts ⟨(i 0).val / 512, by rw [hN]; omega⟩
  intro a
  match a with
  | ⟨0, _⟩ => show win2_3.index _ (0 : Fin 2) * 512 ≤ (i 0).val ∧ (i 0).val < win2_3.index _ (0 : Fin 2) * 512 + 512; rw [e5]; show (i 0).val / 512 * 512 ≤ (i 0).val ∧ (i 0).val < (i 0).val / 512 * 512 + 512; omega
  | ⟨1, _⟩ => show win2_3.index _ (1 : Fin 2) * 1024 ≤ (i 1).val ∧ (i 1).val < win2_3.index _ (1 : Fin 2) * 1024 + 1024; rw [e6]; omega

/-- The array after the region: rows times the transposed weights plus the bias, of the arrays the region was entered with. -/
theorem final (c : Dev nD) : (dat2 V c).arrAt 3 cfg2.N = denseG (aX V c) (aW V c) (aB V c) :=
  (dat2 V c).arrAt_eq_of_cover 3 _ (fun t _ => flushed_eq V c t) (cover)

end Cert.KernelIdeal.FinalOut

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibRowSoftmax.lean ====
/-
  A row softmax as a vector unit spells it, read at an index — general in the extents.

  For an `n × m` matrix `a` over the extended reals: take each row's maximum (a fold of `max` from the accumulator's
  value), recast it as a column and spread it back over the row, subtract, exponentiate, sum each row, recast and spread
  the sums the same way, and divide.  At `(p, k)` the result is the softmax weight of column `k` in row `p`:
  `exp (a(p,k) − M) / Σₑ exp (a(p,e) − M)` with `M` the fold of `max` over row `p`.  (Needs the column recasts and the
  row sum of LibColumns, and the row maximum of LibRowMax, beside it.)
-/
import proofs.«168538_j2869038154470_2_alg».proof.Proof.LibColumns
import proofs.«168538_j2869038154470_2_alg».proof.Proof.LibRowMax
import Idealize.ShloMosaic.Lib.ValueIdx
import Idealize.ShloMosaic.PureOps.Ideal.Laws

noncomputable section

open scoped BigOperators

namespace Cert.LibRowSoftmax

open Idealize.ShloMosaic Idealize.ShloMosaic.ValueIdx

/-- The softmax weight of column `d` in a row of scores `s`, shifted by the fold of `max` over the row from `init`. -/
def weight {m : ℕ} (init : EReal) (s : Fin m → EReal) (d : Fin m) : EReal :=
  Ideal.div (Ideal.exp (s d - (Finset.univ : Finset (Fin m)).fold max init s))
    (∑ e : Fin m, Ideal.exp (s e - (Finset.univ : Finset (Fin m)).fold max init s))

/-- The row maximum of an `n × m` matrix, recast as a column and spread back over the row, reads at `(p, e)` the fold
    of `max` over row `p`. -/
theorem rowPeak_apply {n m : ℕ} {φ : FTy} (a : FVec Ideal ⟨2, ![n, m]⟩ φ) (accMax : BitVec φ.bits)
    (hred : (⟨2, ![n, m]⟩ : Shape).Reduces [1] ⟨1, ![n]⟩) (hφ : FKind.Formats φ)
    (hmax : accMax = FKind.maximumf.neutral φ hφ)
    (hcast : (⟨1, ![n]⟩ : Shape).ShapeCasts ⟨2, ![n, 1]⟩) (hbc : (⟨2, ![n, 1]⟩ : Shape).Broadcasts ⟨2, ![n, m]⟩)
    (p : Fin n) (e : Fin m) :
    broadcastTo ⟨2, ![n, m]⟩ (shapeCast ⟨2, ![n, 1]⟩ (multiReduction (F := Ideal) .maximumf [1] ⟨1, ![n]⟩ a accMax hred hφ hmax) hcast) hbc (ix2 p e)
      = (Finset.univ : Finset (Fin m)).fold max (Ideal.ofBits φ accMax) (fun k => a (ix2 p k)) :=
  (Cert.LibColumns.broadcastTo_a1_ab_apply _ hbc p e).trans
    ((Cert.LibColumns.shapeCast_a_a1_apply _ hcast p 0).trans (Cert.LibRowMax.rowMax_apply a accMax hred hφ hmax p))

/-- The row softmax — subtract the spread row maximum, exponentiate, divide by the spread row sum — reads, at `(p, k)`,
    the softmax weight of column `k` in row `p`. -/
theorem rowSoftmax_apply {n m : ℕ} {φ : FTy} (a : FVec Ideal ⟨2, ![n, m]⟩ φ) (accMax accSum : BitVec φ.bits)
    (hred : (⟨2, ![n, m]⟩ : Shape).Reduces [1] ⟨1, ![n]⟩) (hφ : FKind.Formats φ)
    (hmax : accMax = FKind.maximumf.neutral φ hφ) (hsum : accSum = FKind.add.neutral φ hφ)
    (hcast : (⟨1, ![n]⟩ : Shape).ShapeCasts ⟨2, ![n, 1]⟩) (hbc : (⟨2, ![n, 1]⟩ : Shape).Broadcasts ⟨2, ![n, m]⟩)
    (p : Fin n) (k : Fin m) :
    divf (exp (subf a (broadcastTo ⟨2, ![n, m]⟩ (shapeCast ⟨2, ![n, 1]⟩ (multiReduction (F := Ideal) .maximumf [1] ⟨1, ![n]⟩ a accMax hred hφ hmax) hcast) hbc)))
        (broadcastTo ⟨2, ![n, m]⟩ (shapeCast ⟨2, ![n, 1]⟩ (multiReduction (F := Ideal) .add [1] ⟨1, ![n]⟩
            (exp (subf a (broadcastTo ⟨2, ![n, m]⟩ (shapeCast ⟨2, ![n, 1]⟩ (multiReduction (F := Ideal) .maximumf [1] ⟨1, ![n]⟩ a accMax hred hφ hmax) hcast) hbc)))
            accSum hred hφ hsum) hcast) hbc) (ix2 p k)
      = weight (Ideal.ofBits φ accMax) (fun e => a (ix2 p e)) k := by
  have hw : ∀ e : Fin m, exp (subf a (broadcastTo ⟨2, ![n, m]⟩ (shapeCast ⟨2, ![n, 1]⟩ (multiReduction (F := Ideal) .maximumf [1] ⟨1, ![n]⟩ a accMax hred hφ hmax) hcast) hbc)) (ix2 p e)
      = Ideal.exp (a (ix2 p e) - (Finset.univ : Finset (Fin m)).fold max (Ideal.ofBits φ accMax) (fun k => a (ix2 p k))) :=
    fun e => congrArg (fun z => Ideal.exp (a (ix2 p e) - z)) (rowPeak_apply a accMax hred hφ hmax hcast hbc p e)
  refine congrArg₂ Ideal.div (hw k) ?_
  refine (Cert.LibColumns.broadcastTo_a1_ab_apply _ hbc p k).trans ?_
  refine (Cert.LibColumns.shapeCast_a_a1_apply _ hcast p 0).trans ?_
  refine (Cert.LibColumns.rowSum_apply _ accSum hred hφ hsum p).trans ?_
  exact Finset.sum_congr rfl fun e _ => hw e

end Cert.LibRowSoftmax

end
-- ==== Proof.LibHostLastMax.lean ====
/-
  The host's largest entry along the last axis of a rank-3 array, read at an index — general in the extents.

  A one-operand reduction with a maximum body along the last axis of an `a × b × c` array reads, at `(p, q)`, the fold
  of `max`, from the initial value, over the entries `(p, q, k)`: over the extended reals `max` is commutative and
  associative, so the order of the fold does not matter.  And taking the maximum of such a fold with its own starting
  value once more changes nothing (a softmax's row maximum is printed that way).
-/
import Idealize.ShloMosaic.Lib.ValueIdx
import Idealize.ShloMosaic.PureOps.Ideal.Laws

noncomputable section

namespace Cert.LibHostLastMax

open Idealize.ShloMosaic Idealize.ShloMosaic.ValueIdx

/-- Over the extended reals the host's reduction by `max` of an `a × b × c` array along its last axis reads, at
    `(p, q)`, the fold of `max` from the initial value over `k` of the entries `(p, q, k)`. -/
theorem hostLastMax_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf x init h' hu (ix2 p q)
      = (Finset.univ : Finset (Fin c)).fold max (init (Shape.Idx.first hu)) (fun k : Fin c => x (ix3 p q k)) := by
  refine (Host.reduce_eq_fold_single FloatOps.maximumf x init h' h hu (ix2 p q)).trans ?_
  have hf : (x ∘ h.lift (ix2 p q)) = fun k : Fin c => x (ix3 p q k) := funext fun k => congrArg x
    (funext fun d => Fin.ext (by match d with | ⟨0, _⟩ => rfl | ⟨1, _⟩ => rfl | ⟨2, _⟩ => rfl))
  exact congrArg (fun f => Finset.fold max (init (Shape.Idx.first hu)) f (Finset.univ : Finset (Fin c))) hf

/-- The maximum of a fold of `max` with the fold's own starting value is the fold. -/
theorem max_init_fold {ι : Type} (s : Finset ι) (init : EReal) (f : ι → EReal) :
    max init (s.fold max init f) = s.fold max init f :=
  max_eq_right ((Finset.le_fold_max init).mpr (Or.inl le_rfl))

end Cert.LibHostLastMax

end
-- ==== Proof.RefSpec.lean ====
/-
  Multi-head self-attention as ONE function of its nine arrays, entry by entry.

  4096 tokens of width 1024 are projected three times (queries, keys, values), each projection a row of the input
  against a ROW of a 1024 × 1024 weight matrix plus a bias entry. The 1024 columns are 16 heads of 64: column
  64·h + d is coordinate d of head h. Inside head h, query row n scores key row m by the dot product of their 64
  coordinates times the constant 1 / sqrt 64; a row of scores becomes weights by the usual softmax (subtract the
  row's largest score, exponentiate, divide by the sum of the exponentials); the head's output row n is the weighted
  sum of the value rows; the heads are laid side by side again and projected once more.

  Every stage is a function of explicit coordinates, and the constants are kept as the words the program prints: the
  largest score is a fold of the maximum from the word of −∞ (and the maximum of that with −∞ once more), the sum of
  the exponentials starts from the word of 0, and the scale is the quotient of the word of 1 by the square root of the
  word of 64. The last lemma says the weights are the softmax weights of the row in the plain form (fold of the
  maximum, bare sum).
-/
import proofs.«168538_j2869038154470_2_alg».proof.Proof.LibRowSoftmax
import proofs.«168538_j2869038154470_2_alg».proof.Proof.LibHostLastMax
import Idealize.ShloMosaic.Lib.ValueIdx
import Idealize.ShloMosaic.PureOps.Ideal.Laws

noncomputable section

open scoped BigOperators

namespace Cert.RefSide

open Idealize.ShloMosaic Idealize.ShloMosaic.ValueIdx

/-- Column 64·h + d of a row of width 1024: coordinate d of head h. -/
def hcol (h : Fin 16) (d : Fin 64) : Fin 1024 := ⟨64 * h.val + d.val, by have := h.isLt; have := d.isLt; omega⟩

/-- The head of a column: c / 64. -/
def headOf (c : Fin 1024) : Fin 16 := ⟨c.val / 64, by have := c.isLt; omega⟩

/-- The coordinate of a column inside its head: c % 64. -/
def coordOf (c : Fin 1024) : Fin 64 := ⟨c.val % 64, Nat.mod_lt _ (by decide)⟩

/-- The column of coordinate d of head h, as a number. -/
theorem hcol_val (h : Fin 16) (d : Fin 64) : (hcol h d).val = 64 * h.val + d.val := rfl

/-- The head of a column, as a number. -/
theorem headOf_val (c : Fin 1024) : (headOf c).val = c.val / 64 := rfl

/-- The coordinate of a column inside its head, as a number. -/
theorem coordOf_val (c : Fin 1024) : (coordOf c).val = c.val % 64 := rfl

/-- A column is the column of its coordinate in its head: 64·(c / 64) + c % 64 = c. -/
theorem hcol_headOf_coordOf (c : Fin 1024) : hcol (headOf c) (coordOf c) = c :=
  Fin.ext (by show 64 * (c.val / 64) + c.val % 64 = c.val; omega)

/-- The head of column 64·h + d is h. -/
theorem headOf_hcol (h : Fin 16) (d : Fin 64) : headOf (hcol h d) = h :=
  Fin.ext (by have := h.isLt; have := d.isLt; show (64 * h.val + d.val) / 64 = h.val; omega)

/-- The coordinate of column 64·h + d inside its head is d. -/
theorem coordOf_hcol (h : Fin 16) (d : Fin 64) : coordOf (hcol h d) = d :=
  Fin.ext (by have := h.isLt; have := d.isLt; show (64 * h.val + d.val) % 64 = d.val; omega)

/-- A linear layer whose weight matrix is stored one row per output feature: entry (p, c) is row p of x against
    row c of w, plus b at c. -/
def denseAt (x : (⟨2, ![4096, 1024]⟩ : Shape).Idx → EReal) (w : (⟨2, ![1024, 1024]⟩ : Shape).Idx → EReal)
    (b : (⟨1, ![1024]⟩ : Shape).Idx → EReal) (p : Fin 4096) (c : Fin 1024) : EReal :=
  (∑ k : Fin 1024, x (ix2 p k) * w (ix2 c k)) + b (ix1 c)

/-- The word of −∞, where the largest score of a row starts. -/
def negInf : EReal := Ideal.ofBits .f32 0xFF800000#32

/-- The scale of the scores: the word of 1 over the square root of the word of 64. -/
def scale : EReal := Ideal.div (Ideal.ofBits .f32 0x3F800000#32) (Ideal.sqrt (Ideal.ofBits .f32 0x42800000#32))

/-- The score of query row n against key row m in head h: the dot product of the head's 64 coordinates, scaled. -/
def score (Q K : Fin 4096 → Fin 1024 → EReal) (h : Fin 16) (n m : Fin 4096) : EReal :=
  (∑ d : Fin 64, Q n (hcol h d) * K m (hcol h d)) * scale

/-- The largest entry of a row of scores: the fold of the maximum from −∞, and its maximum with −∞ once more. -/
def rowMax {n : ℕ} (s : Fin n → EReal) : EReal := max negInf ((Finset.univ : Finset (Fin n)).fold max negInf s)

/-- A score minus the row's largest, exponentiated. -/
def expAt {n : ℕ} (s : Fin n → EReal) (m : Fin n) : EReal := Ideal.exp (s m - rowMax s)

/-- The sum of the exponentials of a row, started from the word of 0. -/
def rowSum {n : ℕ} (s : Fin n → EReal) : EReal := Ideal.ofBits .f32 0x00000000#32 + ∑ k : Fin n, expAt s k

/-- The softmax weight of column m in a row of scores. -/
def prob {n : ℕ} (s : Fin n → EReal) (m : Fin n) : EReal := Ideal.div (expAt s m) (rowSum s)

/-- Coordinate d of the output of head h at row n: the value rows weighted by the softmax of the score row. -/
def att (Q K V : Fin 4096 → Fin 1024 → EReal) (h : Fin 16) (n : Fin 4096) (d : Fin 64) : EReal :=
  ∑ m : Fin 4096, prob (fun m' => score Q K h n m') m * V m (hcol h d)

/-- The heads side by side again: column c of row p is coordinate c % 64 of head c / 64. -/
def merged (Q K V : Fin 4096 → Fin 1024 → EReal) (p : Fin 4096) (c : Fin 1024) : EReal :=
  att Q K V (headOf c) p (coordOf c)

/-- The attention layer at (p, c): the three projections, the heads, and the output projection. -/
def outAt (x : (⟨2, ![4096, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal)
    (wo : (⟨2, ![1024, 1024]⟩ : Shape).Idx → EReal) (bo : (⟨1, ![1024]⟩ : Shape).Idx → EReal)
    (p : Fin 4096) (c : Fin 1024) : EReal :=
  (∑ k : Fin 1024, merged (denseAt x wq bq) (denseAt x wk bk) (denseAt x wv bv) p k * wo (ix2 c k)) + bo (ix1 c)

/-- The attention layer as one array. -/
def refSpec (x : (⟨2, ![4096, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal)
    (wo : (⟨2, ![1024, 1024]⟩ : Shape).Idx → EReal) (bo : (⟨1, ![1024]⟩ : Shape).Idx → EReal) :
    (⟨2, ![4096, 1024]⟩ : Shape).Idx → EReal :=
  fun i => outAt x wq bq wk bk wv bv wo bo (i 0) (i 1)

/-- The array at explicit coordinates. -/
theorem refSpec_apply (x : (⟨2, ![4096, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal)
    (wo : (⟨2, ![1024, 1024]⟩ : Shape).Idx → EReal) (bo : (⟨1, ![1024]⟩ : Shape).Idx → EReal)
    (p : Fin 4096) (c : Fin 1024) :
    refSpec x wq bq wk bk wv bv wo bo (ix2 p c) = outAt x wq bq wk bk wv bv wo bo p c := rfl

/-- The largest entry of a row is the plain fold of the maximum from −∞. -/
theorem rowMax_eq_fold {n : ℕ} (s : Fin n → EReal) :
    rowMax s = (Finset.univ : Finset (Fin n)).fold max negInf s :=
  Cert.LibHostLastMax.max_init_fold Finset.univ negInf s

/-- The sum of the exponentials is the bare sum: the word of 0 is 0. -/
theorem rowSum_eq_sum {n : ℕ} (s : Fin n → EReal) : rowSum s = ∑ k : Fin n, expAt s k := by
  unfold rowSum
  rw [Ideal.ofBits_zero_f32, zero_add]

/-- The weights are the softmax weights of the row, shifted by the fold of the maximum from −∞. -/
theorem prob_eq_weight {n : ℕ} (s : Fin n → EReal) (m : Fin n) :
    prob s m = Cert.LibRowSoftmax.weight negInf s m := by
  unfold prob
  rw [rowSum_eq_sum]
  unfold expAt Cert.LibRowSoftmax.weight
  rw [rowMax_eq_fold]

/-- A head's output with the weights in the plain form. -/
theorem att_eq_weight (Q K V : Fin 4096 → Fin 1024 → EReal) (h : Fin 16) (n : Fin 4096) (d : Fin 64) :
    att Q K V h n d
      = ∑ m : Fin 4096, Cert.LibRowSoftmax.weight negInf (fun m' => score Q K h n m') m * V m (hcol h d) := by
  unfold att
  exact Finset.sum_congr rfl fun m _ => by rw [prob_eq_weight]

end Cert.RefSide

end
-- ==== Proof.Bridge1.lean ====
/-
  From the run's arrays to the specification's stages. The query, key and value arrays the first region leaves are
  `x · Wᵀ + b` of the launch arrays; split into heads, entry (h, n, e) of each is the projection's entry
  (n, 64·h + e); the merged attention output's entry (p, k) is the attention region's entry (k / 64, p, k % 64); and
  the result is the output projection of the merged array with the launch's output weights and bias.
-/
import proofs.«168538_j2869038154470_2_alg».proof.Proof.HostReads
import proofs.«168538_j2869038154470_2_alg».proof.Proof.FinalQ
import proofs.«168538_j2869038154470_2_alg».proof.Proof.FinalK
import proofs.«168538_j2869038154470_2_alg».proof.Proof.FinalV
import proofs.«168538_j2869038154470_2_alg».proof.Proof.FinalOut
import proofs.«168538_j2869038154470_2_alg».proof.Proof.RefSpec

set_option maxRecDepth 16384

noncomputable section

open scoped BigOperators

namespace Cert.KernelIdeal.Bridge

open Idealize.ShloMosaic Idealize.ShloMosaic.TcCoe Idealize.ShloMosaic.ValueIdx
open Idealize.SL Idealize.SL.Sem
open Cert.KernelIdeal Cert.KernelIdeal.Gen Cert.KernelIdeal.Run Cert.KernelIdeal.HostReads Cert.RefSide

variable (m : (ℓ : Loc nD τ sig) → Buf (Elt Ideal) ℓ)

/-- The nine launch arrays of core `c`, as functions into the extended reals. -/
abbrev aX (c : Dev nD) : S4096x1024.Idx → EReal := m ((c : Thread nD τ).loc main_arg0)
abbrev aWq (c : Dev nD) : S1024x1024.Idx → EReal := m ((c : Thread nD τ).loc main_arg1)
abbrev aBq (c : Dev nD) : S1024.Idx → EReal := m ((c : Thread nD τ).loc main_arg2)
abbrev aWk (c : Dev nD) : S1024x1024.Idx → EReal := m ((c : Thread nD τ).loc main_arg3)
abbrev aBk (c : Dev nD) : S1024.Idx → EReal := m ((c : Thread nD τ).loc main_arg4)
abbrev aWv (c : Dev nD) : S1024x1024.Idx → EReal := m ((c : Thread nD τ).loc main_arg5)
abbrev aBv (c : Dev nD) : S1024.Idx → EReal := m ((c : Thread nD τ).loc main_arg6)
abbrev aWo (c : Dev nD) : S1024x1024.Idx → EReal := m ((c : Thread nD τ).loc main_arg7)
abbrev aBo (c : Dev nD) : S1024.Idx → EReal := m ((c : Thread nD τ).loc main_arg8)

/-- The attention region's result and the merged array handed to the output projection. -/
abbrev aAtt (c : Dev nD) : S16x4096x64.Idx → EReal := W4 m c (Proc.devRef .tc main_v11)
abbrev aMerged (c : Dev nD) : S4096x1024.Idx → EReal := W5 m c (Proc.devRef .tc main_v13)

/-! ## The three projected arrays -/

theorem q_arr (c : Dev nD) (n : Fin 4096) (q : Fin 1024) :
    (W2 m c (Proc.devRef .tc main_v4_0) : S4096x1024.Idx → EReal) (ix2 n q) = denseAt (aX m c) (aWq m c) (aBq m c) n q := by
  have h : (W2 m c (Proc.devRef .tc main_v4_0) : S4096x1024.Idx → EReal)
      = FinalQ.denseG (FinalQ.aX (V1 m) c) (FinalQ.aW (V1 m) c) (FinalQ.aB (V1 m) c) := (W2_arr m c 7).trans (FinalQ.final (V1 m) c)
  rw [h, show FinalQ.aX (V1 m) c = aX m c from W1_arg0 m c, show FinalQ.aW (V1 m) c = aWq m c from W1_v0 m c,
    show FinalQ.aB (V1 m) c = aBq m c from W1_arg2 m c]
  rfl
theorem k_arr (c : Dev nD) (n : Fin 4096) (q : Fin 1024) :
    (W2 m c (Proc.devRef .tc main_v4_1) : S4096x1024.Idx → EReal) (ix2 n q) = denseAt (aX m c) (aWk m c) (aBk m c) n q := by
  have h : (W2 m c (Proc.devRef .tc main_v4_1) : S4096x1024.Idx → EReal)
      = FinalK.denseG (FinalK.aX (V1 m) c) (FinalK.aW (V1 m) c) (FinalK.aB (V1 m) c) := (W2_arr m c 8).trans (FinalK.final (V1 m) c)
  rw [h, show FinalK.aX (V1 m) c = aX m c from W1_arg0 m c, show FinalK.aW (V1 m) c = aWk m c from W1_v1 m c,
    show FinalK.aB (V1 m) c = aBk m c from W1_arg4 m c]
  rfl
theorem v_arr (c : Dev nD) (n : Fin 4096) (q : Fin 1024) :
    (W2 m c (Proc.devRef .tc main_v4_2) : S4096x1024.Idx → EReal) (ix2 n q) = denseAt (aX m c) (aWv m c) (aBv m c) n q := by
  have h : (W2 m c (Proc.devRef .tc main_v4_2) : S4096x1024.Idx → EReal)
      = FinalV.denseG (FinalV.aX (V1 m) c) (FinalV.aW (V1 m) c) (FinalV.aB (V1 m) c) := (W2_arr m c 9).trans (FinalV.final (V1 m) c)
  rw [h, show FinalV.aX (V1 m) c = aX m c from W1_arg0 m c, show FinalV.aW (V1 m) c = aWv m c from W1_v2 m c,
    show FinalV.aB (V1 m) c = aBv m c from W1_arg6 m c]
  rfl

/-! ## Split into heads -/

theorem qh_at (c : Dev nD) (h : Fin 16) (n : Fin 4096) (e : Fin 64) :
    (W3 m c (Proc.devRef .tc main_v6) : S16x4096x64.Idx → EReal) (ix3 h n e) = denseAt (aX m c) (aWq m c) (aBq m c) n (hcol h e) := by
  rw [W3_v6 m c, split_apply _ h n e (hcol h e) (hcol_val h e)]
  exact q_arr m c n (hcol h e)
theorem kh_at (c : Dev nD) (h : Fin 16) (n : Fin 4096) (e : Fin 64) :
    (W3 m c (Proc.devRef .tc main_v8) : S16x4096x64.Idx → EReal) (ix3 h n e) = denseAt (aX m c) (aWk m c) (aBk m c) n (hcol h e) := by
  rw [W3_v8 m c, split_apply _ h n e (hcol h e) (hcol_val h e)]
  exact k_arr m c n (hcol h e)
theorem vh_at (c : Dev nD) (h : Fin 16) (n : Fin 4096) (e : Fin 64) :
    (W3 m c (Proc.devRef .tc main_v10) : S16x4096x64.Idx → EReal) (ix3 h n e) = denseAt (aX m c) (aWv m c) (aBv m c) n (hcol h e) := by
  rw [W3_v10 m c, split_apply _ h n e (hcol h e) (hcol_val h e)]
  exact v_arr m c n (hcol h e)

/-! ## Merge of heads, and the result -/

theorem merged_at (c : Dev nD) (p : Fin 4096) (k : Fin 1024) :
    aMerged m c (ix2 p k) = aAtt m c (ix3 (headOf k) p (coordOf k)) := by
  show (W5 m c (Proc.devRef .tc main_v13) : S4096x1024.Idx → EReal) (ix2 p k) = _
  rw [W5_v13 m c]
  refine merge_apply _ p k (headOf k) (coordOf k) ?_
  have := congrArg Fin.val (hcol_headOf_coordOf k)
  rw [hcol_val] at this
  exact this.symm

/-- The result array, entry (p, cc): the output projection of the merged array. -/
theorem result_at (c : Dev nD) (p : Fin 4096) (cc : Fin 1024) :
    ((Reg2.dat2 (V5 m) c).arrAt 3 cfg2.N : S4096x1024.Idx → EReal) (ix2 p cc)
      = (∑ k : Fin 1024, aMerged m c (ix2 p k) * aWo m c (ix2 cc k)) + aBo m c (ix1 cc) := by
  rw [FinalOut.final (V5 m) c, show FinalOut.aW (V5 m) c = aWo m c from W5_v3 m c, show FinalOut.aB (V5 m) c = aBo m c from W5_arg8 m c]
  rfl

end Cert.KernelIdeal.Bridge

end
-- ==== Proof.Reg1Pieces.lean ====
/-
  What the three cases of the attention body leave in the carried buffers and in the output block, as terms of the
  online softmax recurrence.

  Every store of the body covers its whole buffer and every load reads a whole buffer. So after the body a buffer
  holds the payload of the last store into it, with each load replaced by what it reads: an input block, a carried
  buffer as the point found it, or the payload of an earlier store of the same point. Case by case this gives the new
  maximum, normaliser and weighted sum as the recurrence's update of the reset contents (first key block) or of the
  carried contents (later key blocks), and at the last key block the output block as the updated weighted sum over
  the updated normaliser.
-/
import proofs.«168538_j2869038154470_2_alg».proof.Proof.Reg1
import Idealize.ShloMosaic.Lib.Pipeline.Value

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave, as the recurrence's terms

Every store of the body covers its whole buffer and every load reads a whole buffer, so what a buffer holds after the
body is the payload of the last store into it, with each load replaced by the contents it reads: an input block, a
carried buffer as the point found it, or — for a load that follows a store of the same point — that store's payload. -/

theorem hz3 : (![0, 0, 0] : Fin 3 → Nat) = fun _ => 0 := funext fun a => by fin_cases a <;> rfl

/-- At the first key block the running maximum ends as the recurrence's update of the reset contents: the last
    store into its buffer covers it, and the loads that feed it read whole buffers. -/
theorem sout1_A_0_eq (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) :
    sout1_A_0 c i arg2 harg2 arg3 harg3 arg4 harg4 arg5 harg5 arg6 harg6 arg7 harg7 arg8 harg8 hc0 hc1 x0 x1 x2 = k1_pay2 (k1_pay9 x0 x1 (k1_pay4 (F := F))) := by
  unfold sout1_A_0
  rw [View.read_writes_junk_eq_canon]
  unfold kernelRun1_A
  dsimp only
  sl_unfold_words
  rw [View.canon_cons_unit_zero (S := S16x256x1) hz3]
  simp only [View.readCov_unit_zero (S := S16x256x1) _ hz3, View.readCov_unit_zero (S := S16x256x64) _ hz3, View.readAt_eq_ld, harg2.read_unread, harg3.read_unread, harg4.read_unread, harg6.read_unread, harg7.read_unread, harg8.read_unread, View.ld_unit_zero (S := S16x256x64) hz3, View.ld_unit_zero (S := S16x512x64) hz3, View.ld_unit_zero (S := S16x256x1) hz3]
  first | done | rfl

/-- At the first key block the running normaliser ends as the recurrence's update of the reset contents: the last
    store into its buffer covers it, and the loads that feed it read whole buffers. -/
theorem sout1_A_1_eq (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) :
    sout1_A_1 c i arg2 harg2 arg3 harg3 arg4 harg4 arg5 harg5 arg6 harg6 arg7 harg7 arg8 harg8 hc0 hc1 x0 x1 x2 = k1_pay12 x0 x1 (k1_pay4 (F := F)) (k1_pay4 (F := F)) (k1_pay5 (F := F)) := by
  unfold sout1_A_1
  rw [View.read_writes_junk_eq_canon]
  unfold kernelRun1_A
  dsimp only
  sl_unfold_words
  rw [View.canon_cons_unit_zero (S := S16x256x1) hz3]
  simp only [View.readCov_unit_zero (S := S16x256x1) _ hz3, View.readCov_unit_zero (S := S16x256x64) _ hz3, View.readAt_eq_ld, harg2.read_unread, harg3.read_unread, harg4.read_unread, harg6.read_unread, harg7.read_unread, harg8.read_unread, View.ld_unit_zero (S := S16x256x64) hz3, View.ld_unit_zero (S := S16x512x64) hz3, View.ld_unit_zero (S := S16x256x1) hz3]
  first | done | rfl

/-- At the first key block the running weighted sum ends as the recurrence's update of the reset contents: the last
    store into its buffer covers it, and the loads that feed it read whole buffers. -/
theorem sout1_A_2_eq (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : cond1_0 i) (hc1 : ¬cond1_1 i)
    (x0 : Vec F S16x256x64 .bf16) (x1 : Vec F S16x512x64 .bf16) (x2 : Vec F S16x512x64 .bf16) :
    sout1_A_2 c i arg2 harg2 arg3 harg3 arg4 harg4 arg5 harg5 arg6 harg6 arg7 harg7 arg8 harg8 hc0 hc1 x0 x1 x2 = k1_pay1 (k1_pay7 x2) (k1_pay10 x0 x1 (k1_pay4 (F := F)) (k1_pay4 (F := F))) (k1_pay11 x0 x1 (k1_pay4 (F := F))) (k1_pay6 (F := F)) := by
  unfold sout1_A_2
  rw [View.read_writes_junk_eq_canon]
  unfold kernelRun1_A
  dsimp only
  sl_unfold_words
  rw [View.canon_cons_unit_zero (S := S16x256x64) hz3]
  simp only [View.readCov_unit_zero (S := S16x256x1) _ hz3, View.readCov_unit_zero (S := S16x256x64) _ hz3, View.readAt_eq_ld, harg2.read_unread, harg3.read_unread, harg4.read_unread, harg6.read_unread, harg7.read_unread, harg8.read_unread, View.ld_unit_zero (S := S16x256x64) hz3, View.ld_unit_zero (S := S16x512x64) hz3, View.ld_unit_zero (S := S16x256x1) hz3]
  first | done | rfl

/-- At a middle key block the running maximum ends as the recurrence's update of the carried contents: the last
    store into its buffer covers it, and the loads that feed it read whole buffers. -/
theorem sout1_B_0_eq (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) :
    sout1_B_0 c i arg2 harg2 arg3 harg3 arg4 harg4 arg5 harg5 arg6 harg6 arg7 harg7 arg8 harg8 hc0 hc1 x0 x1 x2 xs0 xs1 xs2 = k1_pay2 (k1_pay9 x0 x1 xs0) := by
  unfold sout1_B_0
  rw [View.read_writes_junk_eq_canon]
  unfold kernelRun1_B
  dsimp only
  sl_unfold_words
  rw [View.canon_cons_unit_zero (S := S16x256x1) hz3]
  simp only [View.readCov_unit_zero (S := S16x256x1) _ hz3, View.readCov_unit_zero (S := S16x256x64) _ hz3, View.readAt_eq_ld, harg2.read_unread, harg3.read_unread, harg4.read_unread, harg6.read_unread, harg7.read_unread, harg8.read_unread, View.ld_unit_zero (S := S16x256x64) hz3, View.ld_unit_zero (S := S16x512x64) hz3, View.ld_unit_zero (S := S16x256x1) hz3]
  first | done | rfl

/-- At a middle key block the running normaliser ends as the recurrence's update of the carried contents: the last
    store into its buffer covers it, and the loads that feed it read whole buffers. -/
theorem sout1_B_1_eq (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) :
    sout1_B_1 c i arg2 harg2 arg3 harg3 arg4 harg4 arg5 harg5 arg6 harg6 arg7 harg7 arg8 harg8 hc0 hc1 x0 x1 x2 xs0 xs1 xs2 = k1_pay12 x0 x1 xs0 xs0 xs1 := by
  unfold sout1_B_1
  rw [View.read_writes_junk_eq_canon]
  unfold kernelRun1_B
  dsimp only
  sl_unfold_words
  rw [View.canon_cons_unit_zero (S := S16x256x1) hz3]
  simp only [View.readCov_unit_zero (S := S16x256x1) _ hz3, View.readCov_unit_zero (S := S16x256x64) _ hz3, View.readAt_eq_ld, harg2.read_unread, harg3.read_unread, harg4.read_unread, harg6.read_unread, harg7.read_unread, harg8.read_unread, View.ld_unit_zero (S := S16x256x64) hz3, View.ld_unit_zero (S := S16x512x64) hz3, View.ld_unit_zero (S := S16x256x1) hz3]
  first | done | rfl

/-- At a middle key block the running weighted sum ends as the recurrence's update of the carried contents: the last
    store into its buffer covers it, and the loads that feed it read whole buffers. -/
theorem sout1_B_2_eq (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : ¬cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) :
    sout1_B_2 c i arg2 harg2 arg3 harg3 arg4 harg4 arg5 harg5 arg6 harg6 arg7 harg7 arg8 harg8 hc0 hc1 x0 x1 x2 xs0 xs1 xs2 = k1_pay1 (k1_pay7 x2) (k1_pay10 x0 x1 xs0 xs0) (k1_pay11 x0 x1 xs0) xs2 := by
  unfold sout1_B_2
  rw [View.read_writes_junk_eq_canon]
  unfold kernelRun1_B
  dsimp only
  sl_unfold_words
  rw [View.canon_cons_unit_zero (S := S16x256x64) hz3]
  simp only [View.readCov_unit_zero (S := S16x256x1) _ hz3, View.readCov_unit_zero (S := S16x256x64) _ hz3, View.readAt_eq_ld, harg2.read_unread, harg3.read_unread, harg4.read_unread, harg6.read_unread, harg7.read_unread, harg8.read_unread, View.ld_unit_zero (S := S16x256x64) hz3, View.ld_unit_zero (S := S16x512x64) hz3, View.ld_unit_zero (S := S16x256x1) hz3]
  first | done | rfl

/-- At the last key block the running maximum ends as the recurrence's update of the carried contents: the last
    store into its buffer covers it, and the loads that feed it read whole buffers. -/
theorem sout1_C_0_eq (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) :
    sout1_C_0 c i arg2 harg2 arg3 harg3 arg4 harg4 arg5 harg5 arg6 harg6 arg7 harg7 arg8 harg8 hc0 hc1 x0 x1 x2 xs0 xs1 xs2 = k1_pay2 (k1_pay9 x0 x1 xs0) := by
  unfold sout1_C_0
  rw [View.read_writes_junk_eq_canon]
  unfold kernelRun1_C
  dsimp only
  sl_unfold_words
  rw [View.canon_cons_unit_zero (S := S16x256x1) hz3]
  simp only [View.readCov_unit_zero (S := S16x256x1) _ hz3, View.readCov_unit_zero (S := S16x256x64) _ hz3, View.readAt_eq_ld, harg2.read_unread, harg3.read_unread, harg4.read_unread, harg6.read_unread, harg7.read_unread, harg8.read_unread, View.ld_unit_zero (S := S16x256x64) hz3, View.ld_unit_zero (S := S16x512x64) hz3, View.ld_unit_zero (S := S16x256x1) hz3]
  first | done | rfl

/-- At the last key block the running normaliser ends as the recurrence's update of the carried contents: the last
    store into its buffer covers it, and the loads that feed it read whole buffers. -/
theorem sout1_C_1_eq (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) :
    sout1_C_1 c i arg2 harg2 arg3 harg3 arg4 harg4 arg5 harg5 arg6 harg6 arg7 harg7 arg8 harg8 hc0 hc1 x0 x1 x2 xs0 xs1 xs2 = k1_pay12 x0 x1 xs0 xs0 xs1 := by
  unfold sout1_C_1
  rw [View.read_writes_junk_eq_canon]
  unfold kernelRun1_C
  dsimp only
  sl_unfold_words
  rw [View.canon_cons_unit_zero (S := S16x256x1) hz3]
  simp only [View.readCov_unit_zero (S := S16x256x1) _ hz3, View.readCov_unit_zero (S := S16x256x64) _ hz3, View.readAt_eq_ld, harg2.read_unread, harg3.read_unread, harg4.read_unread, harg6.read_unread, harg7.read_unread, harg8.read_unread, View.ld_unit_zero (S := S16x256x64) hz3, View.ld_unit_zero (S := S16x512x64) hz3, View.ld_unit_zero (S := S16x256x1) hz3]
  first | done | rfl

/-- At the last key block the running weighted sum ends as the recurrence's update of the carried contents: the last
    store into its buffer covers it, and the loads that feed it read whole buffers. -/
theorem sout1_C_2_eq (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) :
    sout1_C_2 c i arg2 harg2 arg3 harg3 arg4 harg4 arg5 harg5 arg6 harg6 arg7 harg7 arg8 harg8 hc0 hc1 x0 x1 x2 xs0 xs1 xs2 = k1_pay1 (k1_pay7 x2) (k1_pay10 x0 x1 xs0 xs0) (k1_pay11 x0 x1 xs0) xs2 := by
  unfold sout1_C_2
  rw [View.read_writes_junk_eq_canon]
  unfold kernelRun1_C
  dsimp only
  sl_unfold_words
  rw [View.canon_cons_unit_zero (S := S16x256x64) hz3]
  simp only [View.readCov_unit_zero (S := S16x256x1) _ hz3, View.readCov_unit_zero (S := S16x256x64) _ hz3, View.readAt_eq_ld, harg2.read_unread, harg3.read_unread, harg4.read_unread, harg6.read_unread, harg7.read_unread, harg8.read_unread, View.ld_unit_zero (S := S16x256x64) hz3, View.ld_unit_zero (S := S16x512x64) hz3, View.ld_unit_zero (S := S16x256x1) hz3]
  first | done | rfl

/-- At the last key block the output block is the updated weighted sum over the updated normaliser: the two loads that
    feed the division read back what the point has just stored. -/
theorem out1_C_3_eq (c : Dev nD) (i : grid1.Coords) (arg2 : Memref sig .tc .vmem S16x256x64 .bf16) (harg2 : arg2.IsWhole) (arg3 : Memref sig .tc .vmem S16x512x64 .bf16) (harg3 : arg3.IsWhole) (arg4 : Memref sig .tc .vmem S16x512x64 .bf16) (harg4 : arg4.IsWhole) (arg5 : Memref sig .tc .vmem S16x256x64 .bf16) (harg5 : arg5.IsWhole) (arg6 : Memref sig .tc .vmem S16x256x1 .f32) (harg6 : arg6.IsWhole) (arg7 : Memref sig .tc .vmem S16x256x1 .f32) (harg7 : arg7.IsWhole) (arg8 : Memref sig .tc .vmem S16x256x64 .f32) (harg8 : arg8.IsWhole) (hc0 : ¬cond1_0 i) (hc1 : cond1_1 i)
    (x0 : Vec F S16x256x64 .bf16) (x1 : Vec F S16x512x64 .bf16) (x2 : Vec F S16x512x64 .bf16) (xs0 : Vec F S16x256x1 .f32) (xs1 : Vec F S16x256x1 .f32) (xs2 : Vec F S16x256x64 .f32) :
    out1_C_3 c i arg2 harg2 arg3 harg3 arg4 harg4 arg5 harg5 arg6 harg6 arg7 harg7 arg8 harg8 hc0 hc1 x0 x1 x2 xs0 xs1 xs2 = k1_pay3 (k1_pay1 (k1_pay7 x2) (k1_pay10 x0 x1 xs0 xs0) (k1_pay11 x0 x1 xs0) xs2) (k1_pay12 x0 x1 xs0 xs0 xs1) := by
  unfold out1_C_3
  rw [View.read_writes_junk_eq_canon]
  unfold kernelRun1_C
  dsimp only
  sl_unfold_words
  rw [View.canon_cons_unit_zero (S := S16x256x64) hz3]
  simp only [View.readCov_unit_zero (S := S16x256x1) _ hz3, View.readCov_unit_zero (S := S16x256x64) _ hz3, View.readAt_eq_ld, harg2.read_unread, harg3.read_unread, harg4.read_unread, harg6.read_unread, harg7.read_unread, harg8.read_unread, View.ld_unit_zero (S := S16x256x64) hz3, View.ld_unit_zero (S := S16x512x64) hz3, View.ld_unit_zero (S := S16x256x1) hz3]
  first | done | rfl

end Cert.KernelIdeal.Reg1

end
-- ==== Proof.AttnStepsI.lean ====
/-
  One query block of the attention kernel as a pure recurrence. The kernel keeps, for the 256 query rows of every
  head, a running maximum `m`, a running normaliser `l` and a running weighted sum `acc`; each key block of 512 rows
  replaces them by `max m (row max of the scores)`, `exp (m - m') · l + Σ exp (s - m')` and
  `exp (m - m') · acc + exp (s - m') · v`, and after the last key block the output block is `acc / l`.
  The three updates are written here over the body's own arithmetic (the skeleton's payload terms), with the
  carried contents as arguments, so that the same terms serve the run of the body and the reading of its value.
-/
import proofs.«168538_j2869038154470_2_alg».proof.Proof.Gen.KernelIdeal.Skeleton

noncomputable section

namespace Cert.KernelIdeal.Attn

open Idealize.ShloMosaic Idealize.ShloMosaic.TcCoe Cert.KernelIdeal Cert.KernelIdeal.Gen

variable {F : FTy → Type} [FloatOps F]

/-- The carried contents: running maximum, running normaliser, running weighted sum. -/
structure St (F : FTy → Type) [FloatOps F] where
  m : Vec F S16x256x1 .f32
  l : Vec F S16x256x1 .f32
  acc : Vec F S16x256x64 .f32

/-- What the first key block's point stores before anything else: maximum -∞, normaliser 0, sum 0. -/
def St.init : St F := ⟨k1_pay4, k1_pay5, k1_pay6⟩

/-- One key block: from the carried contents and the query, key and value blocks to the new carried contents. -/
def St.step (q : Vec F S16x256x64 .bf16) (k v : Vec F S16x512x64 .bf16) (s : St F) : St F :=
  ⟨k1_pay2 (k1_pay9 q k s.m),
   k1_pay12 q k s.m s.m s.l,
   k1_pay1 (k1_pay7 v) (k1_pay10 q k s.m s.m) (k1_pay11 q k s.m) s.acc⟩

/-- The output block after the last key block: the weighted sum over the normaliser. -/
def St.out (s : St F) : Vec F S16x256x64 .bf16 := k1_pay3 s.acc s.l

/-- The carried contents after key blocks `0 … j` of a row of key and value blocks. -/
def St.after (q : Vec F S16x256x64 .bf16) (ks vs : ℕ → Vec F S16x512x64 .bf16) : ℕ → St F
  | 0 => St.step q (ks 0) (vs 0) St.init
  | j + 1 => St.step q (ks (j + 1)) (vs (j + 1)) (St.after q ks vs j)

end Cert.KernelIdeal.Attn

end
-- ==== Proof.Reg1Value.lean ====
/-
  The attention call's carried buffers as states of the online softmax recurrence.

  After the body at a point the three carried buffers (running maximum, normaliser, weighted sum) form a state of the
  recurrence: at the first key block of a query block it is one step from the reset state (−∞, 0, 0) with the point's
  query, key and value blocks; at every later key block it is one step from the state the point before left; and at
  the last key block the output block's staging buffer holds that state's output, the weighted sum over the normaliser.
-/
import proofs.«168538_j2869038154470_2_alg».proof.Proof.Reg1Pieces
import proofs.«168538_j2869038154470_2_alg».proof.Proof.AttnStepsI

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The carried contents as the recurrence's state -/

/-- The three carried buffers after the body at position `n`, as a state of the recurrence. -/
def stAt (c : Dev nD) (n : ℕ) (hn : n < cfg1.N) : Attn.St F :=
  ⟨(outsAt1 V c n hn).2.1, (outsAt1 V c n hn).2.2.1, (outsAt1 V c n hn).2.2.2⟩

/-- At the first key block of a query block the carried contents after the body are one step from the reset state. -/
theorem scratch_first (c : Dev nD) (t : Fin cfg1.N) (h0 : t.val % 8 = 0) :
    stAt V c t.val t.isLt = Attn.St.step (iblk1 V c 0 t) (iblk1 V c 1 t) (iblk1 V c 2 t) Attn.St.init := by
  have h1 : ¬t.val % 8 = 7 := by omega
  unfold stAt Attn.St.step Attn.St.init
  rw [outsAt1_A V c t h0 h1]
  dsimp only
  exact congr (congr (congrArg Attn.St.mk (sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))) (sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))) (sout1_A_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))

/-- At every later key block they are one step from what the point before left. -/
theorem scratch_next (c : Dev nD) (t : Fin cfg1.N) (h0 : ¬t.val % 8 = 0) :
    stAt V c t.val t.isLt = Attn.St.step (iblk1 V c 0 t) (iblk1 V c 1 t) (iblk1 V c 2 t)
      (stAt V c (t.val - 1) (Nat.lt_of_le_of_lt (Nat.sub_le _ _) t.isLt)) := by
  unfold stAt Attn.St.step
  by_cases h1 : t.val % 8 = 7
  · rw [outsAt1_C V c t h0 h1]
    dsimp only
    exact congr (congr (congrArg Attn.St.mk (sout1_C_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) (sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) (sout1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
  · rw [outsAt1_B V c t h0 h1]
    dsimp only
    exact congr (congr (congrArg Attn.St.mk (sout1_B_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) (sout1_B_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) (sout1_B_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)

/-- At the last key block the output block's staging buffer holds the output of the carried contents the same point
    leaves: the weighted sum over the normaliser. -/
theorem out_last (c : Dev nD) (t : Fin cfg1.N) (h1 : t.val % 8 = 7) :
    (dat1 V c).after 3 t = Attn.St.out (stAt V c t.val t.isLt) := by
  have h0 : ¬t.val % 8 = 0 := by omega
  rw [after1_3]
  unfold stAt Attn.St.out
  rw [outsAt1_C V c t h0 h1]
  dsimp only
  exact (out1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).trans
    (congr (congrArg k1_pay3 (sout1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).symm) (sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).symm)

end Cert.KernelIdeal.Reg1

end
-- ==== Proof.FinalAttA.lean ====
/-
  The attention region's result array as one function. Its 128 points are 16 query blocks of 256 rows, each met by
  the 8 key blocks of 512 rows in turn; the carried maximum, normaliser and weighted sum after key block `j` of query
  block `b` are the recurrence run over key blocks `0 … j`, and the last key block's point writes the output block
  `sum / normaliser`. So head `h`, row `n`, column `d` of the result is the recurrence's output for query block
  `n / 256` at row `n % 256`.
-/
import proofs.«168538_j2869038154470_2_alg».proof.Proof.Reg1Value
import Idealize.ShloMosaic.Lib.Pipeline.Value
import Idealize.ShloMosaic.Lib.ValueIdx

set_option maxRecDepth 16384

noncomputable section

namespace Cert.KernelIdeal.FinalAtt

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Reg1 Cert.KernelIdeal.Attn

variable (V : (c : Dev nD) → (b : Ref sig .tc) → Buf (Elt Ideal) ((c : Thread nD τ).loc b))

/-- The three arrays the region was entered with, as functions into the extended reals. -/
abbrev aQ (c : Dev nD) : S16x4096x64.Idx → EReal := V c main_v6
abbrev aK (c : Dev nD) : S16x4096x64.Idx → EReal := V c main_v8
abbrev aV (c : Dev nD) : S16x4096x64.Idx → EReal := V c main_v10

/-- Rows `256·b … 256·b + 255` of every head. -/
def rows256 (a : S16x4096x64.Idx → EReal) (b : ℕ) : Vec Ideal S16x256x64 .bf16 :=
  fun y => a (ix3 (y 0) ⟨(256 * b + (y 1).val) % 4096, Nat.mod_lt _ (by norm_num)⟩ (y 2))
/-- Rows `512·j … 512·j + 511` of every head. -/
def rows512 (a : S16x4096x64.Idx → EReal) (j : ℕ) : Vec Ideal S16x512x64 .bf16 :=
  fun y => a (ix3 (y 0) ⟨(512 * j + (y 1).val) % 4096, Nat.mod_lt _ (by norm_num)⟩ (y 2))

/-- The whole result: per row, the recurrence over the row's 8 key blocks. -/
def attG (q k v : S16x4096x64.Idx → EReal) : S16x4096x64.Idx → EReal := fun i =>
  (St.after (rows256 q ((i 1).val / 256)) (rows512 k) (rows512 v) 7).out (ix3 (i 0) ⟨(i 1).val % 256, Nat.mod_lt _ (by norm_num)⟩ (i 2))

theorem N1 : cfg1.N = 128 := by decide

/-- The printed index maps over the grid: the query and output blocks move with `t / 8`, the key and value blocks with `t % 8`. -/
theorem idx_facts : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 3) = 0 ∧ win1_2.index t (1 : Fin 3) = t.val % 8 ∧ win1_2.index t (2 : Fin 3) = 0
    ∧ win1_3.index t (0 : Fin 3) = 0 ∧ win1_3.index t (1 : Fin 3) = t.val / 8 ∧ win1_3.index t (2 : Fin 3) = 0 :=
  (by decide +kernel : ∀ t : Fin grid1.N, _)

theorem blk0 (c : Dev nD) (t : Fin cfg1.N) : iblk1 V c 0 t = rows256 (aQ V c) (t.val / 8) := by
  obtain ⟨e0, e1, e2, -⟩ := idx_facts t
  have ht : t.val < 128 := lt_of_lt_of_eq t.isLt N1
  funext y
  have h1 : (y 1).val < 256 := (y 1).isLt
  show aQ V c (((cfg1.win 0).blk t).view.emb y) = aQ V c (ix3 (y 0) ⟨(256 * (t.val / 8) + (y 1).val) % 4096, Nat.mod_lt _ (by norm_num)⟩ (y 2))
  refine congrArg (aQ V c) (funext fun a => Fin.ext ?_)
  match a with
  | ⟨0, _⟩ => show win1_0.index t (0 : Fin 3) * 16 + 1 * (y 0).val = (y 0).val; omega
  | ⟨1, _⟩ => show win1_0.index t (1 : Fin 3) * 256 + 1 * (y 1).val = (256 * (t.val / 8) + (y 1).val) % 4096; omega
  | ⟨2, _⟩ => show win1_0.index t (2 : Fin 3) * 64 + 1 * (y 2).val = (y 2).val; omega

theorem blk1 (c : Dev nD) (t : Fin cfg1.N) : iblk1 V c 1 t = rows512 (aK V c) (t.val % 8) := by
  obtain ⟨-, -, -, e0, e1, e2, -⟩ := idx_facts t
  funext y
  have h1 : (y 1).val < 512 := (y 1).isLt
  show aK V c (((cfg1.win 1).blk t).view.emb y) = aK V c (ix3 (y 0) ⟨(512 * (t.val % 8) + (y 1).val) % 4096, Nat.mod_lt _ (by norm_num)⟩ (y 2))
  refine congrArg (aK V c) (funext fun a => Fin.ext ?_)
  match a with
  | ⟨0, _⟩ => show win1_1.index t (0 : Fin 3) * 16 + 1 * (y 0).val = (y 0).val; omega
  | ⟨1, _⟩ => show win1_1.index t (1 : Fin 3) * 512 + 1 * (y 1).val = (512 * (t.val % 8) + (y 1).val) % 4096; omega
  | ⟨2, _⟩ => show win1_1.index t (2 : Fin 3) * 64 + 1 * (y 2).val = (y 2).val; omega

theorem blk2 (c : Dev nD) (t : Fin cfg1.N) : iblk1 V c 2 t = rows512 (aV V c) (t.val % 8) := by
  obtain ⟨-, -, -, -, -, -, e0, e1, e2, -⟩ := idx_facts t
  funext y
  have h1 : (y 1).val < 512 := (y 1).isLt
  show aV V c (((cfg1.win 2).blk t).view.emb y) = aV V c (ix3 (y 0) ⟨(512 * (t.val % 8) + (y 1).val) % 4096, Nat.mod_lt _ (by norm_num)⟩ (y 2))
  refine congrArg (aV V c) (funext fun a => Fin.ext ?_)
  match a with
  | ⟨0, _⟩ => show win1_2.index t (0 : Fin 3) * 16 + 1 * (y 0).val = (y 0).val; omega
  | ⟨1, _⟩ => show win1_2.index t (1 : Fin 3) * 512 + 1 * (y 1).val = (512 * (t.val % 8) + (y 1).val) % 4096; omega
  | ⟨2, _⟩ => show win1_2.index t (2 : Fin 3) * 64 + 1 * (y 2).val = (y 2).val; omega

end Cert.KernelIdeal.FinalAtt

end
-- ==== Proof.FinalAttB.lean ====
/-
  The carried maximum, normaliser and weighted sum after key block `j` of query block `b` are the recurrence run over
  key blocks `0 … j` of the rows of that query block: by induction on `j`, the first key block resetting the carried
  contents and every later one stepping what the point before left.
-/
import proofs.«168538_j2869038154470_2_alg».proof.Proof.FinalAttA
import Idealize.ShloMosaic.Lib.Pipeline.Value
import Idealize.ShloMosaic.Lib.ValueIdx

set_option maxRecDepth 16384

noncomputable section

namespace Cert.KernelIdeal.FinalAtt

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Reg1 Cert.KernelIdeal.Attn

variable (V : (c : Dev nD) → (b : Ref sig .tc) → Buf (Elt Ideal) ((c : Thread nD τ).loc b))

/-- The carried contents at equal positions are equal, whatever the bounds' proofs. -/
theorem stAt_congr (c : Dev nD) {n n' : ℕ} (e : n = n') (hn : n < cfg1.N) (hn' : n' < cfg1.N) : stAt V c n hn = stAt V c n' hn' := by
  subst e; rfl

/-- The recurrence's two equations. -/
theorem after_zero (q : Vec Ideal S16x256x64 .bf16) (ks vs : ℕ → Vec Ideal S16x512x64 .bf16) :
    St.after q ks vs 0 = St.step q (ks 0) (vs 0) St.init := rfl
theorem after_succ (q : Vec Ideal S16x256x64 .bf16) (ks vs : ℕ → Vec Ideal S16x512x64 .bf16) (j : ℕ) :
    St.after q ks vs (j + 1) = St.step q (ks (j + 1)) (vs (j + 1)) (St.after q ks vs j) := rfl

/-- One step of the recurrence at a point, with the point's blocks named as rows of the arrays. -/
theorem step_blocks (c : Dev nD) (t : Fin cfg1.N) (s : St Ideal) :
    St.step (iblk1 V c 0 t) (iblk1 V c 1 t) (iblk1 V c 2 t) s
      = St.step (rows256 (aQ V c) (t.val / 8)) (rows512 (aK V c) (t.val % 8)) (rows512 (aV V c) (t.val % 8)) s := by
  rw [blk0 V c t, blk1 V c t, blk2 V c t]

/-- The carried contents after key block `j` of query block `b` are the recurrence over key blocks `0 … j`. -/
theorem stAt_eq (c : Dev nD) (b : ℕ) (hb : b < 16) : ∀ (j : ℕ) (hj : j < 8) (hn : 8 * b + j < cfg1.N),
    stAt V c (8 * b + j) hn = St.after (rows256 (aQ V c) b) (rows512 (aK V c)) (rows512 (aV V c)) j
  | 0, hj, hn => by
    have e1 : (8 * b + 0) / 8 = b := by omega
    have e2 : (8 * b + 0) % 8 = 0 := by omega
    refine (scratch_first V c ⟨8 * b + 0, hn⟩ e2).trans ((step_blocks V c ⟨8 * b + 0, hn⟩ St.init).trans ?_)
    rw [after_zero]
    show St.step (rows256 (aQ V c) ((8 * b + 0) / 8)) (rows512 (aK V c) ((8 * b + 0) % 8)) (rows512 (aV V c) ((8 * b + 0) % 8)) St.init = _
    rw [e1, e2]
  | j + 1, hj, hn => by
    have e1 : (8 * b + (j + 1)) / 8 = b := by omega
    have e2 : (8 * b + (j + 1)) % 8 = j + 1 := by omega
    have ih := stAt_eq c b hb j (by omega) (by omega)
    have e3 : stAt V c ((⟨8 * b + (j + 1), hn⟩ : Fin cfg1.N).val - 1) (Nat.lt_of_le_of_lt (Nat.sub_le _ _) hn) = stAt V c (8 * b + j) (by omega) :=
      stAt_congr V c (by show 8 * b + (j + 1) - 1 = 8 * b + j; omega) _ _
    refine (scratch_next V c ⟨8 * b + (j + 1), hn⟩ (by show ¬(8 * b + (j + 1)) % 8 = 0; omega)).trans ?_
    rw [e3, ih]
    refine (step_blocks V c ⟨8 * b + (j + 1), hn⟩ _).trans ?_
    rw [after_succ]
    show St.step (rows256 (aQ V c) ((8 * b + (j + 1)) / 8)) (rows512 (aK V c) ((8 * b + (j + 1)) % 8)) (rows512 (aV V c) ((8 * b + (j + 1)) % 8)) _ = _
    rw [e1, e2]

end Cert.KernelIdeal.FinalAtt

end
-- ==== Proof.FinalAttC.lean ====
/-
  What the last key block's point of a query block writes back: its block of the array whose row `n` of head `h` is the
  recurrence's output for query block `n / 256` at row `n % 256`.
-/
import proofs.«168538_j2869038154470_2_alg».proof.Proof.FinalAttB
import Idealize.ShloMosaic.Lib.Pipeline.Value
import Idealize.ShloMosaic.Lib.ValueIdx

set_option maxRecDepth 16384

noncomputable section

namespace Cert.KernelIdeal.FinalAtt

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Reg1 Cert.KernelIdeal.Attn

variable (V : (c : Dev nD) → (b : Ref sig .tc) → Buf (Elt Ideal) ((c : Thread nD τ).loc b))

/-- The output window is not cut at the array's edge: what a point writes back is its whole block. -/
theorem cut3 (X : Vec Ideal S16x256x64 .bf16) (t : Fin cfg1.N) : (cfg1.win 3).cut (grid1.coords t) X = X := rfl

/-- Reading a function through the output window's block at a point. -/
theorem read3 (G : S16x4096x64.Idx → EReal) (t : Fin cfg1.N) (y : S16x256x64.Idx) :
    ((cfg1.win 3).blk t).view.read (Elt Ideal) G y = G (((cfg1.win 3).blk t).view.emb y) := rfl

/-- What a last-key-block point writes back is its block of the whole-array function. -/
theorem flushed_eq (c : Dev nD) (t : Fin cfg1.N) (hf : (cfg1.win 3).flush t = true) :
    (dat1 V c).flushed 3 t = ((cfg1.win 3).blk t).view.read (Elt Ideal) (attG (aQ V c) (aK V c) (aV V c)) := by
  have h7 : t.val % 8 = 7 := (flush1_3 t).mp hf
  have ht : t.val < 128 := lt_of_lt_of_eq t.isLt N1
  obtain ⟨-, -, -, -, -, -, -, -, -, e0, e1, e2⟩ := idx_facts t
  have hs := stAt_eq V c (t.val / 8) (by omega) 7 (by norm_num) (lt_of_lt_of_eq (by omega : 8 * (t.val / 8) + 7 < 128) N1.symm)
  have et : 8 * (t.val / 8) + 7 = t.val := by omega
  have hs' : stAt V c t.val t.isLt = St.after (rows256 (aQ V c) (t.val / 8)) (rows512 (aK V c)) (rows512 (aV V c)) 7 :=
    (stAt_congr V c et.symm _ _).trans hs
  show (cfg1.win 3).cut (grid1.coords t) ((dat1 V c).after 3 t) = _
  rw [out_last V c t h7, hs']
  -- the recurrence's last state, its output block and the whole-array function, as variables: the block's reading
  -- below looks inside none of them
  generalize hS : St.after (rows256 (aQ V c) (t.val / 8)) (rows512 (aK V c)) (rows512 (aV V c)) 7 = S
  generalize hX : St.out S = X
  generalize hG : attG (aQ V c) (aK V c) (aV V c) = G
  rw [cut3 X t]
  funext y
  rw [read3 G t y]
  have h1 : (y 1).val < 256 := (y 1).isLt
  have i0 : ((((cfg1.win 3).blk t).view.emb y) 0).val = (y 0).val := by
    show win1_3.index t (0 : Fin 3) * 16 + 1 * (y 0).val = (y 0).val; omega
  have i1 : ((((cfg1.win 3).blk t).view.emb y) 1).val = 256 * (t.val / 8) + (y 1).val := by
    show win1_3.index t (1 : Fin 3) * 256 + 1 * (y 1).val = 256 * (t.val / 8) + (y 1).val; omega
  have i2 : ((((cfg1.win 3).blk t).view.emb y) 2).val = (y 2).val := by
    show win1_3.index t (2 : Fin 3) * 64 + 1 * (y 2).val = (y 2).val; omega
  have d1 : ((((cfg1.win 3).blk t).view.emb y) 1).val / 256 = t.val / 8 := by rw [i1]; omega
  have m1 : ((((cfg1.win 3).blk t).view.emb y) 1).val % 256 = (y 1).val := by rw [i1]; omega
  have ey : y = ix3 ((((cfg1.win 3).blk t).view.emb y) 0) ⟨((((cfg1.win 3).blk t).view.emb y) 1).val % 256, Nat.mod_lt _ (by norm_num)⟩ ((((cfg1.win 3).blk t).view.emb y) 2) := by
    funext a; apply Fin.ext
    match a with
    | ⟨0, _⟩ => exact i0.symm
    | ⟨1, _⟩ => exact m1.symm
    | ⟨2, _⟩ => exact i2.symm
  rw [← hG]
  unfold attG
  rw [d1, hS, hX]
  exact congrArg X ey

end Cert.KernelIdeal.FinalAtt

end
-- ==== Proof.FinalAtt.lean ====
/-
  The attention region's result array as one function: the last key block's point of each query block writes the block
  `weighted sum / normaliser` of the recurrence over the row's 8 key blocks, and these blocks cover the array.
-/
import proofs.«168538_j2869038154470_2_alg».proof.Proof.FinalAttC
import Idealize.ShloMosaic.Lib.Pipeline.Value
import Idealize.ShloMosaic.Lib.ValueIdx

set_option maxRecDepth 16384

noncomputable section

namespace Cert.KernelIdeal.FinalAtt

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Reg1 Cert.KernelIdeal.Attn

variable (V : (c : Dev nD) → (b : Ref sig .tc) → Buf (Elt Ideal) ((c : Thread nD τ).loc b))

/-- An index of the array is in point `t`'s block iff each coordinate is in the block's range on its axis. -/
theorem mem_blk (t : Fin cfg1.N) (i : S16x4096x64.Idx) :
    i ∈ ((cfg1.win 3).blk t).view.set ↔ ∀ a : Fin 3, win1_3.index t a * S16x256x64.size a ≤ (i a).val ∧ (i a).val < win1_3.index t a * S16x256x64.size a + S16x256x64.size a := by
  show i ∈ ((View.whole main_v11).slice (win1_3.rect t)).set ↔ _
  rw [View.set_slice_whole, Rect.mem_set_unit]
  exact Iff.rfl

/-- Every row lies in the block written at the last key block of its query block. -/
theorem cover (i : S16x4096x64.Idx) : ∃ t : Fin cfg1.N, (cfg1.win 3).flush t = true ∧ i ∈ ((cfg1.win 3).blk t).view.set := by
  have hi0 : (i 0).val < 16 := (i 0).isLt
  have hi1 : (i 1).val < 4096 := (i 1).isLt
  have hi2 : (i 2).val < 64 := (i 2).isLt
  have hlt : 8 * ((i 1).val / 256) + 7 < cfg1.N := by rw [N1]; omega
  refine ⟨⟨8 * ((i 1).val / 256) + 7, hlt⟩, (flush1_3 _).mpr (by show (8 * ((i 1).val / 256) + 7) % 8 = 7; omega), ?_⟩
  rw [mem_blk]
  obtain ⟨-, -, -, -, -, -, -, -, -, e0, e1, e2⟩ := idx_facts ⟨8 * ((i 1).val / 256) + 7, hlt⟩
  have e1' : win1_3.index ⟨8 * ((i 1).val / 256) + 7, hlt⟩ (1 : Fin 3) = (i 1).val / 256 := by rw [e1]; show (8 * ((i 1).val / 256) + 7) / 8 = _; omega
  intro a
  match a with
  | ⟨0, _⟩ => show win1_3.index _ (0 : Fin 3) * 16 ≤ (i 0).val ∧ (i 0).val < win1_3.index _ (0 : Fin 3) * 16 + 16; rw [e0]; omega
  | ⟨1, _⟩ => show win1_3.index _ (1 : Fin 3) * 256 ≤ (i 1).val ∧ (i 1).val < win1_3.index _ (1 : Fin 3) * 256 + 256; rw [e1']; omega
  | ⟨2, _⟩ => show win1_3.index _ (2 : Fin 3) * 64 ≤ (i 2).val ∧ (i 2).val < win1_3.index _ (2 : Fin 3) * 64 + 64; rw [e2]; omega

/-- The array after the region: per row, the recurrence over its 8 key blocks, of the arrays the region was entered with. -/
theorem final (c : Dev nD) : (dat1 V c).arrAt 3 cfg1.N = attG (aQ V c) (aK V c) (aV V c) :=
  (dat1 V c).arrAt_eq_of_cover 3 _ (fun t hf => flushed_eq V c t hf) (cover)

/-- The whole-array function at head `h`, row `n`, column `d`. -/
theorem attG_apply (q k v : S16x4096x64.Idx → EReal) (h : Fin 16) (n : Fin 4096) (d : Fin 64) :
    attG q k v (ix3 h n d)
      = (St.after (rows256 q (n.val / 256)) (rows512 k) (rows512 v) 7).out (ix3 h ⟨n.val % 256, Nat.mod_lt _ (by norm_num)⟩ d) := rfl

end Cert.KernelIdeal.FinalAtt

end
-- ==== Proof.LibLastAxis.lean ====
/-
  A reusable general lemma file: a stack of matrices' last-axis operations read at an index, over the extended reals,
  at any extents.

  For a stack of `B` matrices:
  * a `B × N` array given a trailing unit axis reads, at `(b, p, z)`, the array at `(b, p)`;
  * a `B × N × 1` column spread over `M` columns reads, at `(b, p, c)`, the column at `(b, p, 0)`;
  * the maximum of a `B × N × M` array along its last axis reads, at `(b, p)`, the fold of `max`, from the
    accumulator's value, over the entries `(b, p, k)`: `max` is commutative and associative, so the order of the fold
    does not matter;
  * the sum along the last axis reads, at `(b, p)`, `∑ₖ src (b, p, k)`.
-/
import Idealize.ShloMosaic.Lib.ValueIdx
import Idealize.ShloMosaic.Lib.Pipeline.Value
import Idealize.ShloMosaic.PureOps.Ideal.Laws

noncomputable section

open scoped BigOperators

namespace Cert.LibLastAxis

open Idealize.ShloMosaic Idealize.ShloMosaic.ValueIdx

variable {B N M : ℕ} {α : Type}

/-- A `B × N` array given a trailing unit axis reads, at `(b, p, z)`, the array at `(b, p)`. -/
theorem cast_BN_BN1_apply (x : (⟨2, ![B, N]⟩ : Shape).Idx → α)
    (h : (⟨2, ![B, N]⟩ : Shape).ShapeCasts ⟨3, ![B, N, 1]⟩) (b : Fin B) (p : Fin N) (z : Fin 1) :
    shapeCast ⟨3, ![B, N, 1]⟩ x h (ix3 b p z) = x (ix2 b p) := by
  refine shapeCast_apply x h (ix3 b p z) (ix2 b p) ?_
  rw [Shape.rowMajor_val_two, Shape.rowMajor_val_three]
  show b.val * N + p.val = (b.val * N + p.val) * 1 + z.val
  have := z.isLt
  omega

/-- A `B × N × 1` column spread over `M` columns reads, at `(b, p, c)`, the column at `(b, p, 0)`. -/
theorem spread_BN1_BNM_apply (v : (⟨3, ![B, N, 1]⟩ : Shape).Idx → α)
    (h : (⟨3, ![B, N, 1]⟩ : Shape).Broadcasts ⟨3, ![B, N, M]⟩) (b : Fin B) (p : Fin N) (c : Fin M) :
    broadcastTo ⟨3, ![B, N, M]⟩ v h (ix3 b p c) = v (ix3 b p (0 : Fin 1)) := by
  refine broadcastTo_apply v h (ix3 b p c) (ix3 b p (0 : Fin 1)) fun ax => ?_
  match ax with
  | ⟨0, _⟩ =>
    show b.val = if B = 1 then 0 else b.val
    split
    · have := b.isLt; omega
    · rfl
  | ⟨1, _⟩ =>
    show p.val = if N = 1 then 0 else p.val
    split
    · have := p.isLt; omega
    · rfl
  | ⟨2, _⟩ =>
    show 0 = if (1 : ℕ) = 1 then 0 else c.val
    rw [if_pos rfl]

/-- Over the extended reals the maximum of a `B × N × M` array along its last axis reads, at `(b, p)`, the fold of
    `max` from the accumulator's value over `k` of the entries `(b, p, k)`. -/
theorem lastMax_apply {φ : FTy} (src : FVec Ideal ⟨3, ![B, N, M]⟩ φ) (acc : BitVec φ.bits)
    (h : (⟨3, ![B, N, M]⟩ : Shape).Reduces [2] ⟨2, ![B, N]⟩) (hφ : FKind.Formats φ)
    (hacc : acc = FKind.maximumf.neutral φ hφ) (b : Fin B) (p : Fin N) :
    multiReduction .maximumf [2] ⟨2, ![B, N]⟩ src acc h hφ hacc (ix2 b p)
      = (Finset.univ : Finset (Fin M)).fold max (Ideal.ofBits φ acc) (fun k : Fin M => src (ix3 b p k)) := by
  refine (Ideal.multiReduction_maximumf_single src acc h hφ hacc (ix2 b p)).trans ?_
  have hf : (src ∘ h.lift (ix2 b p)) = fun k : Fin M => src (ix3 b p k) := funext fun k => congrArg src
    (funext fun c => Fin.ext (by match c with | ⟨0, _⟩ => rfl | ⟨1, _⟩ => rfl | ⟨2, _⟩ => rfl))
  exact congrArg (fun f => Finset.fold max (Ideal.ofBits φ acc) f (Finset.univ : Finset (Fin M))) hf

/-- Over the extended reals the sum of a `B × N × M` array along its last axis reads, at `(b, p)`,
    `∑ₖ src (b, p, k)`. -/
theorem lastSum_apply {φ : FTy} (src : FVec Ideal ⟨3, ![B, N, M]⟩ φ) (acc : BitVec φ.bits)
    (h : (⟨3, ![B, N, M]⟩ : Shape).Reduces [2] ⟨2, ![B, N]⟩) (hφ : FKind.Formats φ)
    (hacc : acc = FKind.add.neutral φ hφ) (b : Fin B) (p : Fin N) :
    multiReduction .add [2] ⟨2, ![B, N]⟩ src acc h hφ hacc (ix2 b p) = ∑ k : Fin M, src (ix3 b p k) := by
  refine (Ideal.multiReduction_add_single src acc h hφ hacc (ix2 b p)).trans ?_
  refine Finset.sum_congr rfl fun k _ => congrArg src ?_
  funext c
  apply Fin.ext
  match c with
  | ⟨0, _⟩ => rfl
  | ⟨1, _⟩ => rfl
  | ⟨2, _⟩ => rfl

end Cert.LibLastAxis

end
-- ==== Proof.AttnDots.lean ====
/-
  The two matrix products of an attention block read at an entry, over the extended reals.

  The scores pair query row `p` of head `h` with key row `n` of the same head: the product contracts the last axis
  of both operands, so at `(h, p, n)` it reads `∑ₑ lhs (h, p, e) · rhs (h, n, e)`. The weighted sum pairs the weights
  of query row `p` with column `d` of the values: the product contracts the weights' last axis against the values'
  middle axis, so at `(h, p, d)` it reads `∑ₙ lhs (h, p, n) · rhs (h, n, d)`. Both accumulate into zero. The
  dimension numbers index each sum by the positions of a one-axis contraction shape; the six coordinate facts per
  product are decided on the literal dimension numbers, and the sum is re-indexed by the one contracted coordinate.
-/
import proofs.«168538_j2869038154470_2_alg».proof.Proof.Gen.KernelIdeal
import Idealize.ShloMosaic.Lib.ValueIdx
import Idealize.ShloMosaic.PureOps.Ideal.Laws

noncomputable section

open scoped BigOperators

namespace Cert.KernelIdeal.AttnMath

open Idealize.ShloMosaic Idealize.ShloMosaic.ValueIdx Cert.KernelIdeal Cert.KernelIdeal.Gen

/-- The dimension numbers of the scores' product: batch the heads, contract the last axis of both operands. -/
abbrev scoreDims : DotDims S16x256x64 S16x512x64 S16x256x512 := dot_S16x256x64_S16x512x64_S16x256x512_2_2_1_1_0_0

/-- The dimension numbers of the weighted sum's product: batch the heads, contract the weights' last axis against
    the values' middle axis. -/
abbrev valueDims : DotDims S16x256x512 S16x512x64 S16x256x64 := dot_S16x256x512_S16x512x64_S16x256x64_2_1_1_2_0_0

/-! ## The scores -/

theorem scoreDims_l0 (i : S16x256x512.Idx) (q : scoreDims.contr.Idx) : (scoreDims.lhsIdx i q 0).val = (i 0).val := by
  unfold DotDims.lhsIdx
  rw [dif_pos (show (0 : Fin S16x256x64.rank) ∈ scoreDims.lhsBatch by decide)]
  rfl

theorem scoreDims_l1 (i : S16x256x512.Idx) (q : scoreDims.contr.Idx) : (scoreDims.lhsIdx i q 1).val = (i 1).val := by
  unfold DotDims.lhsIdx
  rw [dif_neg (show ¬(1 : Fin S16x256x64.rank) ∈ scoreDims.lhsBatch by decide),
    dif_pos (show (1 : Fin S16x256x64.rank) ∈ scoreDims.lhsNonContracting by decide)]
  rfl

theorem scoreDims_l2 (i : S16x256x512.Idx) (q : scoreDims.contr.Idx) :
    (scoreDims.lhsIdx i q 2).val = (q ⟨0, by decide⟩).val :=
  scoreDims.lhsIdx_val_of_single rfl i q

theorem scoreDims_r0 (i : S16x256x512.Idx) (q : scoreDims.contr.Idx) : (scoreDims.rhsIdx i q 0).val = (i 0).val := by
  unfold DotDims.rhsIdx
  rw [dif_pos (show (0 : Fin S16x512x64.rank) ∈ scoreDims.rhsBatch by decide)]
  rfl

theorem scoreDims_r1 (i : S16x256x512.Idx) (q : scoreDims.contr.Idx) : (scoreDims.rhsIdx i q 1).val = (i 2).val := by
  unfold DotDims.rhsIdx
  rw [dif_neg (show ¬(1 : Fin S16x512x64.rank) ∈ scoreDims.rhsBatch by decide),
    dif_pos (show (1 : Fin S16x512x64.rank) ∈ scoreDims.rhsNonContracting by decide)]
  rfl

theorem scoreDims_r2 (i : S16x256x512.Idx) (q : scoreDims.contr.Idx) :
    (scoreDims.rhsIdx i q 2).val = (q ⟨0, by decide⟩).val :=
  scoreDims.rhsIdx_val_of_single rfl i q

/-- The scores' product into the zero accumulator, at `(h, p, n)`: `∑ₑ lhs (h, p, e) · rhs (h, n, e)`. -/
theorem scoreDot_apply {φ₁ φ₂ : FTy} (prec : Option ContractPrecision)
    (lhs : FVec Ideal S16x256x64 φ₁) (rhs : FVec Ideal S16x512x64 φ₂) (h : Fin 16) (p : Fin 256) (n : Fin 512) :
    FloatOps.matmul scoreDims prec lhs rhs (constant S16x256x512 .f32 0x00000000#32) (ix3 h p n)
      = ∑ e : Fin 64, (lhs (ix3 h p e) : EReal) * (rhs (ix3 h n e) : EReal) := by
  refine (Ideal.matmul_constant_zero_apply scoreDims prec lhs rhs (ix3 h p n)).trans ?_
  rw [← Equiv.sum_comp (contrEquiv1 scoreDims 64 rfl rfl).symm]
  refine Finset.sum_congr rfl fun k _ => ?_
  have hk := contrEquiv1_symm_val scoreDims 64 rfl rfl k
  have el : scoreDims.lhsIdx (ix3 h p n) ((contrEquiv1 scoreDims 64 rfl rfl).symm k) = ix3 h p k :=
    funext fun a => Fin.ext (by
      match a with
      | ⟨0, _⟩ => exact scoreDims_l0 _ _
      | ⟨1, _⟩ => exact scoreDims_l1 _ _
      | ⟨2, _⟩ => exact (scoreDims_l2 _ _).trans hk)
  have er : scoreDims.rhsIdx (ix3 h p n) ((contrEquiv1 scoreDims 64 rfl rfl).symm k) = ix3 h n k :=
    funext fun a => Fin.ext (by
      match a with
      | ⟨0, _⟩ => exact scoreDims_r0 _ _
      | ⟨1, _⟩ => exact scoreDims_r1 _ _
      | ⟨2, _⟩ => exact (scoreDims_r2 _ _).trans hk)
  rw [el, er]

/-! ## The weighted sum -/

theorem valueDims_l0 (i : S16x256x64.Idx) (q : valueDims.contr.Idx) : (valueDims.lhsIdx i q 0).val = (i 0).val := by
  unfold DotDims.lhsIdx
  rw [dif_pos (show (0 : Fin S16x256x512.rank) ∈ valueDims.lhsBatch by decide)]
  rfl

theorem valueDims_l1 (i : S16x256x64.Idx) (q : valueDims.contr.Idx) : (valueDims.lhsIdx i q 1).val = (i 1).val := by
  unfold DotDims.lhsIdx
  rw [dif_neg (show ¬(1 : Fin S16x256x512.rank) ∈ valueDims.lhsBatch by decide),
    dif_pos (show (1 : Fin S16x256x512.rank) ∈ valueDims.lhsNonContracting by decide)]
  rfl

theorem valueDims_l2 (i : S16x256x64.Idx) (q : valueDims.contr.Idx) :
    (valueDims.lhsIdx i q 2).val = (q ⟨0, by decide⟩).val :=
  valueDims.lhsIdx_val_of_single rfl i q

theorem valueDims_r0 (i : S16x256x64.Idx) (q : valueDims.contr.Idx) : (valueDims.rhsIdx i q 0).val = (i 0).val := by
  unfold DotDims.rhsIdx
  rw [dif_pos (show (0 : Fin S16x512x64.rank) ∈ valueDims.rhsBatch by decide)]
  rfl

theorem valueDims_r1 (i : S16x256x64.Idx) (q : valueDims.contr.Idx) :
    (valueDims.rhsIdx i q 1).val = (q ⟨0, by decide⟩).val :=
  valueDims.rhsIdx_val_of_single rfl i q

theorem valueDims_r2 (i : S16x256x64.Idx) (q : valueDims.contr.Idx) : (valueDims.rhsIdx i q 2).val = (i 2).val := by
  unfold DotDims.rhsIdx
  rw [dif_neg (show ¬(2 : Fin S16x512x64.rank) ∈ valueDims.rhsBatch by decide),
    dif_pos (show (2 : Fin S16x512x64.rank) ∈ valueDims.rhsNonContracting by decide)]
  rfl

/-- The weighted sum's product into the zero accumulator, at `(h, p, d)`: `∑ₙ lhs (h, p, n) · rhs (h, n, d)`. -/
theorem valueDot_apply {φ₁ φ₂ : FTy} (prec : Option ContractPrecision)
    (lhs : FVec Ideal S16x256x512 φ₁) (rhs : FVec Ideal S16x512x64 φ₂) (h : Fin 16) (p : Fin 256) (d : Fin 64) :
    FloatOps.matmul valueDims prec lhs rhs (constant S16x256x64 .f32 0x00000000#32) (ix3 h p d)
      = ∑ n : Fin 512, (lhs (ix3 h p n) : EReal) * (rhs (ix3 h n d) : EReal) := by
  refine (Ideal.matmul_constant_zero_apply valueDims prec lhs rhs (ix3 h p d)).trans ?_
  rw [← Equiv.sum_comp (contrEquiv1 valueDims 512 rfl rfl).symm]
  refine Finset.sum_congr rfl fun k _ => ?_
  have hk := contrEquiv1_symm_val valueDims 512 rfl rfl k
  have el : valueDims.lhsIdx (ix3 h p d) ((contrEquiv1 valueDims 512 rfl rfl).symm k) = ix3 h p k :=
    funext fun a => Fin.ext (by
      match a with
      | ⟨0, _⟩ => exact valueDims_l0 _ _
      | ⟨1, _⟩ => exact valueDims_l1 _ _
      | ⟨2, _⟩ => exact (valueDims_l2 _ _).trans hk)
  have er : valueDims.rhsIdx (ix3 h p d) ((contrEquiv1 valueDims 512 rfl rfl).symm k) = ix3 h k d :=
    funext fun a => Fin.ext (by
      match a with
      | ⟨0, _⟩ => exact valueDims_r0 _ _
      | ⟨1, _⟩ => exact (valueDims_r1 _ _).trans hk
      | ⟨2, _⟩ => exact valueDims_r2 _ _)
  rw [el, er]

end Cert.KernelIdeal.AttnMath

end
-- ==== Proof.AttnPay.lean ====
/-
  The arithmetic of one key block of the attention kernel, read at an index over the extended reals.

  Write `s n` for the score of query row `(h, p)` against key row `n` of the block — the query row scaled by a
  constant, times the key row, summed over the 64 features — and `m'` for the larger of the carried maximum `m` and the
  largest score of the block. Then the body's values read:
    new maximum     `m' = max m (maxₙ s n)`,
    rescaling       `exp (m − m')`,
    weights         `exp (s n − m')`,
    new normaliser  `exp (m − m') · l + ∑ₙ exp (s n − m')`,
    new sum         `a · acc + ∑ₙ w n · v (h, n, d)`   (for a rescaling column `a` and weights `w`),
    output          `acc / l`,
  and the first block starts from the maximum −∞ and the sums 0. Conversions between float formats are the identity on
  the extended reals, and a cast to the same shape is the identity.
-/
import proofs.«168538_j2869038154470_2_alg».proof.Proof.Gen.KernelIdeal.Skeleton
import proofs.«168538_j2869038154470_2_alg».proof.Proof.LibLastAxis
import proofs.«168538_j2869038154470_2_alg».proof.Proof.AttnDots

noncomputable section

open scoped BigOperators

namespace Cert.KernelIdeal.AttnMath

open Cert.LibLastAxis

open Idealize.ShloMosaic Idealize.ShloMosaic.ValueIdx Cert.KernelIdeal Cert.KernelIdeal.Gen

/-- The score of query row `(h, p)` against key row `n` of one key block: the scaled query row times the key row. -/
def blockScore (q : Vec Ideal S16x256x64 .bf16) (kb : Vec Ideal S16x512x64 .bf16) (h : Fin 16) (p : Fin 256)
    (n : Fin 512) : EReal :=
  ∑ e : Fin 64, (q (ix3 h p e) * Ideal.ofBits .bf16 0x3E00#16) * kb (ix3 h n e)

/-- The float −∞ is the bottom of the extended reals. -/
theorem negInf_eq : Ideal.ofBits .f32 0xFF800000#32 = (⊥ : EReal) := by simp [Ideal.ofBits, Ideal.ieee]

/-- The scores of a key block. -/
theorem pay8_apply (q : Vec Ideal S16x256x64 .bf16) (kb : Vec Ideal S16x512x64 .bf16) (h : Fin 16) (p : Fin 256)
    (n : Fin 512) : k1_pay8 (F := Ideal) q kb (ix3 h p n) = blockScore q kb h p n := by
  unfold k1_pay8
  refine (scoreDot_apply none _ _ h p n).trans ?_
  unfold blockScore
  refine Finset.sum_congr rfl fun e _ => ?_
  rw [shapeCast_self, shapeCast_self]
  rfl

/-- The new running maximum: the larger of the carried one and the largest score of the block. -/
theorem pay9_apply (q : Vec Ideal S16x256x64 .bf16) (kb : Vec Ideal S16x512x64 .bf16) (m : Vec Ideal S16x256x1 .f32)
    (h : Fin 16) (p : Fin 256) (z : Fin 1) :
    k1_pay9 (F := Ideal) q kb m (ix3 h p z)
      = max (m (ix3 h p z)) ((Finset.univ : Finset (Fin 512)).fold max ⊥ (fun n => blockScore q kb h p n)) := by
  unfold k1_pay9
  refine congrArg (max (m (ix3 h p z))) ?_
  refine (cast_BN_BN1_apply _ _ h p z).trans ?_
  refine (lastMax_apply _ _ _ _ _ h p).trans ?_
  rw [negInf_eq]
  exact congrArg (fun f => Finset.fold max (⊥ : EReal) f (Finset.univ : Finset (Fin 512)))
    (funext fun n => pay8_apply q kb h p n)

/-- The rescaling factor: `exp (m₀ − m')`. -/
theorem pay10_apply (q : Vec Ideal S16x256x64 .bf16) (kb : Vec Ideal S16x512x64 .bf16)
    (m m₀ : Vec Ideal S16x256x1 .f32) (i : S16x256x1.Idx) :
    k1_pay10 (F := Ideal) q kb m m₀ i = Ideal.exp (m₀ i - k1_pay9 (F := Ideal) q kb m i) := rfl

/-- The weights: `exp (s n − m')`. -/
theorem pay11_apply (q : Vec Ideal S16x256x64 .bf16) (kb : Vec Ideal S16x512x64 .bf16) (m : Vec Ideal S16x256x1 .f32)
    (h : Fin 16) (p : Fin 256) (n : Fin 512) :
    k1_pay11 (F := Ideal) q kb m (ix3 h p n)
      = Ideal.exp (blockScore q kb h p n - k1_pay9 (F := Ideal) q kb m (ix3 h p (0 : Fin 1))) := by
  unfold k1_pay11
  show Ideal.exp (k1_pay8 (F := Ideal) q kb (ix3 h p n)
    - broadcastTo S16x256x512 (k1_pay9 (F := Ideal) q kb m) broadcasts_S16x256x1_S16x256x512 (ix3 h p n)) = _
  rw [pay8_apply, spread_BN1_BNM_apply]

/-- The new normaliser: `exp (m₀ − m') · l + ∑ₙ exp (s n − m')`. -/
theorem pay12_apply (q : Vec Ideal S16x256x64 .bf16) (kb : Vec Ideal S16x512x64 .bf16)
    (m m₀ l : Vec Ideal S16x256x1 .f32) (h : Fin 16) (p : Fin 256) (z : Fin 1) :
    k1_pay12 (F := Ideal) q kb m m₀ l (ix3 h p z)
      = k1_pay10 (F := Ideal) q kb m m₀ (ix3 h p z) * l (ix3 h p z)
        + ∑ n : Fin 512, k1_pay11 (F := Ideal) q kb m (ix3 h p n) := by
  unfold k1_pay12
  rw [shapeCast_self]
  refine congrArg (fun t => k1_pay10 (F := Ideal) q kb m m₀ (ix3 h p z) * l (ix3 h p z) + t) ?_
  refine (cast_BN_BN1_apply _ _ h p z).trans ?_
  exact lastSum_apply _ _ _ _ _ h p

/-- The new weighted sum: `a · acc + ∑ₙ w n · v (h, n, d)`. -/
theorem pay1_apply (v : FVec Ideal S16x512x64 .bf16) (a : FVec Ideal S16x256x1 .f32) (w : FVec Ideal S16x256x512 .f32)
    (acc : Vec Ideal S16x256x64 .f32) (h : Fin 16) (p : Fin 256) (d : Fin 64) :
    k1_pay1 (F := Ideal) v a w acc (ix3 h p d)
      = a (ix3 h p (0 : Fin 1)) * acc (ix3 h p d) + ∑ n : Fin 512, w (ix3 h p n) * v (ix3 h n d) := by
  unfold k1_pay1
  rw [shapeCast_self]
  show broadcastTo S16x256x64 a broadcasts_S16x256x1_S16x256x64 (ix3 h p d) * acc (ix3 h p d)
    + FloatOps.matmul valueDims none (truncf .bf16 w bitsLt_bf16_f32) v (constant S16x256x64 .f32 0x00000000#32) (ix3 h p d) = _
  rw [spread_BN1_BNM_apply, valueDot_apply]
  rfl

/-- The output block: `acc / l`. -/
theorem pay3_apply (acc : Vec Ideal S16x256x64 .f32) (l : Vec Ideal S16x256x1 .f32) (h : Fin 16) (p : Fin 256)
    (d : Fin 64) : k1_pay3 (F := Ideal) acc l (ix3 h p d) = Ideal.div (acc (ix3 h p d)) (l (ix3 h p (0 : Fin 1))) := by
  unfold k1_pay3
  show Ideal.div (acc (ix3 h p d)) (broadcastTo S16x256x64 l broadcasts_S16x256x1_S16x256x64 (ix3 h p d)) = _
  rw [spread_BN1_BNM_apply]

/-- Storing the new maximum changes nothing. -/
theorem pay2_eq (x : FVec Ideal S16x256x1 .f32) : k1_pay2 (F := Ideal) x = x := shapeCast_self _ _

/-- Reading the value block changes nothing. -/
theorem pay7_eq (x : Vec Ideal S16x512x64 .bf16) : k1_pay7 (F := Ideal) x = x := shapeCast_self _ _

/-- Before the first key block the maximum is −∞ … -/
theorem pay4_apply (i : S16x256x1.Idx) : k1_pay4 (F := Ideal) i = (⊥ : EReal) := by
  unfold k1_pay4
  rw [shapeCast_self]
  exact negInf_eq

/-- … the normaliser is zero … -/
theorem pay5_apply (i : S16x256x1.Idx) : k1_pay5 (F := Ideal) i = (0 : EReal) := by
  unfold k1_pay5
  rw [shapeCast_self]
  exact Ideal.ofBits_zero_f32

/-- … and the weighted sum is zero. -/
theorem pay6_apply (i : S16x256x64.Idx) : k1_pay6 (F := Ideal) i = (0 : EReal) := by
  unfold k1_pay6
  rw [shapeCast_self]
  exact Ideal.ofBits_zero_f32

end Cert.KernelIdeal.AttnMath

end
-- ==== Proof.LibOnlineSoftmax.lean ====
/-
  The online form of a row softmax, as a recurrence on the extended reals.

  A row of `N` scores `L` with values `V` is visited in consecutive blocks of `bs` keys; `e j k` is the `k`-th key of block
  `j`.  Three running quantities are carried from block to block: the largest score seen so far `mAt`, the normaliser
  `lAt` and the weighted sum `accAt`, both taken relative to the current `mAt`.  On entering a new block the old
  normaliser and sum are rescaled by `exp (old maximum − new maximum)` (`aAt`).  Before the first block the maximum is −∞
  and the two sums are zero.  General in the row length `N` and the block size `bs`.
-/
import Idealize.ShloMosaic.PureOps.Ideal

noncomputable section

open scoped BigOperators

namespace Cert.OnlineSoftmax

open Idealize.ShloMosaic

variable {N bs : ℕ} (L V : Fin N → EReal) (e : ℕ → Fin bs → Fin N)

/-- The largest score of block `j`, folded from −∞. -/
def blockMax (j : ℕ) : EReal := (Finset.univ : Finset (Fin bs)).fold max ⊥ (fun k => L (e j k))

/-- The running maximum after block `j`. -/
def mAt : ℕ → EReal
  | 0 => max ⊥ (blockMax L e 0)
  | j + 1 => max (mAt j) (blockMax L e (j + 1))

/-- The factor by which the old sums are rescaled on entering block `j`. -/
def aAt : ℕ → EReal
  | 0 => Ideal.exp (⊥ - mAt L e 0)
  | j + 1 => Ideal.exp (mAt L e j - mAt L e (j + 1))

/-- The weight of the `k`-th key of block `j` relative to the running maximum after that block. -/
def pAt (j : ℕ) (k : Fin bs) : EReal := Ideal.exp (L (e j k) - mAt L e j)

/-- The running normaliser after block `j`. -/
def lAt : ℕ → EReal
  | 0 => aAt L e 0 * 0 + ∑ k : Fin bs, pAt L e 0 k
  | j + 1 => aAt L e (j + 1) * lAt j + ∑ k : Fin bs, pAt L e (j + 1) k

/-- The running weighted sum of the values after block `j`. -/
def accAt : ℕ → EReal
  | 0 => aAt L e 0 * 0 + ∑ k : Fin bs, pAt L e 0 k * V (e 0 k)
  | j + 1 => aAt L e (j + 1) * accAt j + ∑ k : Fin bs, pAt L e (j + 1) k * V (e (j + 1) k)

end Cert.OnlineSoftmax

end
-- ==== Proof.AttnRec.lean ====
/-
  One query row of the attention kernel runs the online softmax recurrence.

  Fix a head `h`, a query row `p` and a value column `d`. The 8 key blocks of 512 rows are the 4096 keys of the row:
  key `n` sits in block `n / 512` at row `n % 512`, and key `k` of block `j` is key `512 · j + k`. Read at `(h, p)` —
  and at `(h, p, d)` for the weighted sum — one step of the kernel replaces the carried maximum `m`, normaliser `l` and
  sum `acc` by

      m' = max m (largest score of the block),
      l' = exp (m − m') · l + ∑ₖ exp (s k − m'),
      acc' = exp (m − m') · acc + ∑ₖ exp (s k − m') · v k,

  which is the step of the online softmax over the row's scores and values; the first block starts from −∞, 0, 0.
  So after block `j` the three carried entries are that recurrence's running maximum, normaliser and weighted sum.
-/
import proofs.«168538_j2869038154470_2_alg».proof.Proof.AttnStepsI
import proofs.«168538_j2869038154470_2_alg».proof.Proof.AttnPay
import proofs.«168538_j2869038154470_2_alg».proof.Proof.LibOnlineSoftmax

noncomputable section

open scoped BigOperators

namespace Cert.KernelIdeal.AttnMath

open Idealize.ShloMosaic Idealize.ShloMosaic.ValueIdx Cert.KernelIdeal Cert.KernelIdeal.Gen Cert.KernelIdeal.Attn
open Cert.OnlineSoftmax

/-- The 4096 scores of row `(h, p)`: key `n` sits in block `n / 512` at row `n % 512`. -/
def rowScore (q : Vec Ideal S16x256x64 .bf16) (ks : ℕ → Vec Ideal S16x512x64 .bf16) (h : Fin 16) (p : Fin 256)
    (n : Fin 4096) : EReal :=
  blockScore q (ks (n.val / 512)) h p ⟨n.val % 512, Nat.mod_lt _ (by norm_num)⟩

/-- The 4096 values of head `h`, column `d`. -/
def rowValue (vs : ℕ → Vec Ideal S16x512x64 .bf16) (h : Fin 16) (d : Fin 64) (n : Fin 4096) : EReal :=
  vs (n.val / 512) (ix3 h ⟨n.val % 512, Nat.mod_lt _ (by norm_num)⟩ d)

/-- Key `k` of block `j` among the 4096 keys of a row. -/
def keyAt (j : ℕ) (k : Fin 512) : Fin 4096 := ⟨(512 * j + k.val) % 4096, Nat.mod_lt _ (by norm_num)⟩

/-- For the 8 blocks of a row, key `k` of block `j` is key `512 · j + k`. -/
theorem keyAt_val (j : ℕ) (hj : j ≤ 7) (k : Fin 512) : (keyAt j k).val = 512 * j + k.val := by
  show (512 * j + k.val) % 4096 = 512 * j + k.val
  have := k.isLt
  omega

/-- The row's score at key `k` of block `j` is the block's score at `k`. -/
theorem rowScore_keyAt (q : Vec Ideal S16x256x64 .bf16) (ks : ℕ → Vec Ideal S16x512x64 .bf16) (h : Fin 16)
    (p : Fin 256) (j : ℕ) (hj : j ≤ 7) (k : Fin 512) :
    rowScore q ks h p (keyAt j k) = blockScore q (ks j) h p k := by
  have hv := keyAt_val j hj k
  have hk := k.isLt
  have h1 : (keyAt j k).val / 512 = j := by rw [hv]; omega
  have h2 : (⟨(keyAt j k).val % 512, Nat.mod_lt _ (by norm_num)⟩ : Fin 512) = k := Fin.ext (by
    show (keyAt j k).val % 512 = k.val
    rw [hv]; omega)
  unfold rowScore
  rw [h1, h2]

/-- The row's value at key `k` of block `j` is the block's value at row `k`. -/
theorem rowValue_keyAt (vs : ℕ → Vec Ideal S16x512x64 .bf16) (h : Fin 16) (d : Fin 64) (j : ℕ) (hj : j ≤ 7)
    (k : Fin 512) : rowValue vs h d (keyAt j k) = vs j (ix3 h k d) := by
  have hv := keyAt_val j hj k
  have hk := k.isLt
  have h1 : (keyAt j k).val / 512 = j := by rw [hv]; omega
  have h2 : (⟨(keyAt j k).val % 512, Nat.mod_lt _ (by norm_num)⟩ : Fin 512) = k := Fin.ext (by
    show (keyAt j k).val % 512 = k.val
    rw [hv]; omega)
  unfold rowValue
  rw [h1, h2]

/-- The largest score of block `j` of the row is the largest score of key block `j`. -/
theorem blockMax_rowScore (q : Vec Ideal S16x256x64 .bf16) (ks : ℕ → Vec Ideal S16x512x64 .bf16) (h : Fin 16)
    (p : Fin 256) (j : ℕ) (hj : j ≤ 7) :
    blockMax (rowScore q ks h p) keyAt j
      = (Finset.univ : Finset (Fin 512)).fold max ⊥ (fun n => blockScore q (ks j) h p n) := by
  unfold blockMax
  exact congrArg (fun f => Finset.fold max (⊥ : EReal) f (Finset.univ : Finset (Fin 512)))
    (funext fun k => rowScore_keyAt q ks h p j hj k)

/-! ## One step of the kernel at a row -/

/-- The new maximum at row `(h, p)`. -/
theorem step_m (q : Vec Ideal S16x256x64 .bf16) (k v : Vec Ideal S16x512x64 .bf16) (s : St Ideal) (h : Fin 16)
    (p : Fin 256) :
    (St.step q k v s).m (ix3 h p (0 : Fin 1))
      = max (s.m (ix3 h p (0 : Fin 1))) ((Finset.univ : Finset (Fin 512)).fold max ⊥ (fun n => blockScore q k h p n)) := by
  show k1_pay2 (F := Ideal) (k1_pay9 (F := Ideal) q k s.m) (ix3 h p (0 : Fin 1)) = _
  rw [pay2_eq, pay9_apply]

/-- The new normaliser at row `(h, p)`, relative to the new maximum `m'`. -/
theorem step_l (q : Vec Ideal S16x256x64 .bf16) (k v : Vec Ideal S16x512x64 .bf16) (s : St Ideal) (h : Fin 16)
    (p : Fin 256) (m' : EReal) (hm' : (St.step q k v s).m (ix3 h p (0 : Fin 1)) = m') :
    (St.step q k v s).l (ix3 h p (0 : Fin 1))
      = Ideal.exp (s.m (ix3 h p (0 : Fin 1)) - m') * s.l (ix3 h p (0 : Fin 1))
        + ∑ n : Fin 512, Ideal.exp (blockScore q k h p n - m') := by
  have h9 : k1_pay9 (F := Ideal) q k s.m (ix3 h p (0 : Fin 1)) = m' := by
    rw [← hm']
    show _ = k1_pay2 (F := Ideal) (k1_pay9 (F := Ideal) q k s.m) (ix3 h p (0 : Fin 1))
    rw [pay2_eq]
  show k1_pay12 (F := Ideal) q k s.m s.m s.l (ix3 h p (0 : Fin 1)) = _
  rw [pay12_apply, pay10_apply, h9]
  refine congrArg (HAdd.hAdd _) (Finset.sum_congr rfl fun n _ => ?_)
  rw [pay11_apply, h9]

/-- The new weighted sum at `(h, p, d)`, relative to the new maximum `m'`. -/
theorem step_acc (q : Vec Ideal S16x256x64 .bf16) (k v : Vec Ideal S16x512x64 .bf16) (s : St Ideal) (h : Fin 16)
    (p : Fin 256) (d : Fin 64) (m' : EReal) (hm' : (St.step q k v s).m (ix3 h p (0 : Fin 1)) = m') :
    (St.step q k v s).acc (ix3 h p d)
      = Ideal.exp (s.m (ix3 h p (0 : Fin 1)) - m') * s.acc (ix3 h p d)
        + ∑ n : Fin 512, Ideal.exp (blockScore q k h p n - m') * v (ix3 h n d) := by
  have h9 : k1_pay9 (F := Ideal) q k s.m (ix3 h p (0 : Fin 1)) = m' := by
    rw [← hm']
    show _ = k1_pay2 (F := Ideal) (k1_pay9 (F := Ideal) q k s.m) (ix3 h p (0 : Fin 1))
    rw [pay2_eq]
  show k1_pay1 (F := Ideal) (k1_pay7 (F := Ideal) v) (k1_pay10 (F := Ideal) q k s.m s.m)
    (k1_pay11 (F := Ideal) q k s.m) s.acc (ix3 h p d) = _
  rw [pay1_apply, pay7_eq, pay10_apply, h9]
  refine congrArg (HAdd.hAdd _) (Finset.sum_congr rfl fun n _ => ?_)
  rw [pay11_apply, h9]

/-! ## The carried entries are the recurrence's -/

/-- After key block `j` the carried maximum, normaliser and weighted sum of row `(h, p)`, column `d`, are the online
    softmax recurrence's over the row's 4096 scores and values. -/
theorem after_eq (q : Vec Ideal S16x256x64 .bf16) (ks vs : ℕ → Vec Ideal S16x512x64 .bf16) (h : Fin 16) (p : Fin 256)
    (d : Fin 64) (j : ℕ) (hj : j ≤ 7) :
    (St.after q ks vs j).m (ix3 h p (0 : Fin 1)) = mAt (rowScore q ks h p) keyAt j
      ∧ (St.after q ks vs j).l (ix3 h p (0 : Fin 1)) = lAt (rowScore q ks h p) keyAt j
      ∧ (St.after q ks vs j).acc (ix3 h p d) = accAt (rowScore q ks h p) (rowValue vs h d) keyAt j := by
  induction j with
  | zero =>
    have e0 : St.after q ks vs 0 = St.step q (ks 0) (vs 0) St.init := rfl
    have i_m : (St.init (F := Ideal)).m (ix3 h p (0 : Fin 1)) = (⊥ : EReal) := pay4_apply (ix3 h p (0 : Fin 1))
    have i_l : (St.init (F := Ideal)).l (ix3 h p (0 : Fin 1)) = (0 : EReal) := pay5_apply (ix3 h p (0 : Fin 1))
    have i_a : (St.init (F := Ideal)).acc (ix3 h p d) = (0 : EReal) := pay6_apply (ix3 h p d)
    have hm : (St.after q ks vs 0).m (ix3 h p (0 : Fin 1)) = mAt (rowScore q ks h p) keyAt 0 := by
      rw [e0, step_m, i_m, mAt, blockMax_rowScore q ks h p 0 hj]
    refine ⟨hm, ?_, ?_⟩
    · rw [e0] at hm ⊢
      rw [step_l q (ks 0) (vs 0) St.init h p _ hm, i_m, i_l, lAt, aAt]
      refine congrArg (HAdd.hAdd _) (Finset.sum_congr rfl fun k _ => ?_)
      rw [pAt, rowScore_keyAt q ks h p 0 hj k]
    · rw [e0] at hm ⊢
      rw [step_acc q (ks 0) (vs 0) St.init h p d _ hm, i_m, i_a, accAt, aAt]
      refine congrArg (HAdd.hAdd _) (Finset.sum_congr rfl fun k _ => ?_)
      rw [pAt, rowScore_keyAt q ks h p 0 hj k, rowValue_keyAt vs h d 0 hj k]
  | succ j ih =>
    obtain ⟨ihm, ihl, iha⟩ := ih (Nat.le_of_succ_le hj)
    have e1 : St.after q ks vs (j + 1) = St.step q (ks (j + 1)) (vs (j + 1)) (St.after q ks vs j) := rfl
    have hm : (St.after q ks vs (j + 1)).m (ix3 h p (0 : Fin 1)) = mAt (rowScore q ks h p) keyAt (j + 1) := by
      rw [e1, step_m, ihm, mAt, blockMax_rowScore q ks h p (j + 1) hj]
    refine ⟨hm, ?_, ?_⟩
    · rw [e1] at hm ⊢
      rw [step_l q (ks (j + 1)) (vs (j + 1)) _ h p _ hm, ihm, ihl, lAt, aAt]
      refine congrArg (HAdd.hAdd _) (Finset.sum_congr rfl fun k _ => ?_)
      rw [pAt, rowScore_keyAt q ks h p (j + 1) hj k]
    · rw [e1] at hm ⊢
      rw [step_acc q (ks (j + 1)) (vs (j + 1)) _ h p d _ hm, ihm, iha, accAt, aAt]
      refine congrArg (HAdd.hAdd _) (Finset.sum_congr rfl fun k _ => ?_)
      rw [pAt, rowScore_keyAt q ks h p (j + 1) hj k, rowValue_keyAt vs h d (j + 1) hj k]

end Cert.KernelIdeal.AttnMath

end
-- ==== Proof.LibChunkMax.lean ====
/-
  The maximum of a long row taken block by block.

  A row of `N` entries is cut into consecutive blocks of `bs` entries.  A running maximum starts at `i` and, block after
  block, becomes the larger of itself and the block's own maximum (itself folded from `i`).  Stated by upper bounds: the
  running maximum before block `k` is below `c` exactly when `i` is and so is every entry before position `bs · k`.
  After the last block this is the bound characterising the maximum of the whole row folded from `i`, so the two are
  equal.  Only that `max` is the least upper bound of two elements is used.
-/
import Mathlib.Data.Finset.Fold
import Mathlib.Order.Basic
import Mathlib.Tactic

namespace Cert.LibChunkMax

variable {β : Type*} [LinearOrder β] {N bs : ℕ}

/-- Before the first block nothing has been seen. -/
theorem bound_zero (f : Fin N → β) (i : β) (c : β) :
    i ≤ c ↔ i ≤ c ∧ ∀ n : Fin N, n.val < bs * 0 → f n ≤ c :=
  ⟨fun h => ⟨h, fun n hn => absurd hn (by simp)⟩, fun h => h.1⟩

/-- One more block: the bound moves `bs` positions on. -/
theorem bound_step (f : Fin N → β) (i acc blk : β) (k : ℕ) (e : Fin bs → Fin N)
    (he : ∀ j, (e j).val = bs * k + j.val)
    (hacc : ∀ c, acc ≤ c ↔ i ≤ c ∧ ∀ n : Fin N, n.val < bs * k → f n ≤ c)
    (hblk : blk = (Finset.univ : Finset (Fin bs)).fold max i (fun j => f (e j))) (c : β) :
    max acc blk ≤ c ↔ i ≤ c ∧ ∀ n : Fin N, n.val < bs * (k + 1) → f n ≤ c := by
  rw [max_le_iff, hacc, hblk, Finset.fold_max_le, Nat.mul_succ]
  constructor
  · rintro ⟨⟨hi, h1⟩, _, h2⟩
    refine ⟨hi, fun n hn => ?_⟩
    by_cases hlt : n.val < bs * k
    · exact h1 n hlt
    · have hj : n.val - bs * k < bs := by omega
      have hn' : n = e ⟨n.val - bs * k, hj⟩ := Fin.ext (by rw [he]; show n.val = bs * k + (n.val - bs * k); omega)
      rw [hn']
      exact h2 _ (Finset.mem_univ _)
  · rintro ⟨hi, h⟩
    refine ⟨⟨hi, fun n hn => h n (by omega)⟩, hi, fun j _ => h (e j) ?_⟩
    rw [he]
    have := j.isLt
    omega

/-- After the last block the running maximum is the maximum of the whole row. -/
theorem eq_fold_of_bound (f : Fin N → β) (i acc : β) (k : ℕ) (hk : bs * k = N)
    (hacc : ∀ c, acc ≤ c ↔ i ≤ c ∧ ∀ n : Fin N, n.val < bs * k → f n ≤ c) :
    acc = (Finset.univ : Finset (Fin N)).fold max i f := by
  refine eq_of_forall_ge_iff fun c => ?_
  rw [hacc, Finset.fold_max_le]
  constructor
  · rintro ⟨hi, h⟩
    exact ⟨hi, fun n _ => h n (by rw [hk]; exact n.isLt)⟩
  · rintro ⟨hi, h⟩
    exact ⟨hi, fun n _ => h n (Finset.mem_univ _)⟩

end Cert.LibChunkMax
-- ==== Proof.LibDivSum.lean ====
/-
  Dividing a finite sum of products by a real number, on the extended reals — general in the index type.

  On the extended reals a quotient by a real number that is not zero is the product with its reciprocal. When the
  factors are real numbers the sums are sums of reals, and `(∑ₖ aₖ wₖ) / c = ∑ₖ (aₖ / c) · wₖ` by distributivity in the
  reals. Beside it: the coercion from the reals commutes with a finite sum, and the larger of the float 1.0 and a real
  number is a real number that is not zero (a clipped degree or count is a legitimate divisor).
-/
import Idealize.ShloMosaic.PureOps.Ideal
import Idealize.ShloMosaic.PureOps.Ideal.Laws
import Idealize.ShloMosaic.Lib.IdealHost

noncomputable section

open scoped BigOperators

namespace Cert.LibDivSum

open Idealize.ShloMosaic

/-- The coercion from the reals to the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The larger of the float 1.0 and a real number is a real number that is not zero. -/
theorem clip_real (s : ℝ) : ∃ c : ℝ, max (Ideal.ofBits .f32 0x3F800000#32) (s : EReal) = (c : EReal) ∧ c ≠ 0 := by
  refine ⟨max 1 s, ?_, ?_⟩
  · rw [Ideal.ofBits_one_f32, show (1 : EReal) = ((1 : ℝ) : EReal) by norm_cast]
    exact (Monotone.map_max (fun _ _ h => EReal.coe_le_coe_iff.mpr h)).symm
  · have : (1 : ℝ) ≤ max 1 s := le_max_left _ _
    intro h; rw [h] at this; norm_num at this

/-- Real entries, a real divisor that is not zero: dividing the sum of products is the sum of products of the
    divided weights. -/
theorem div_sum_eq {ι : Type*} [Fintype ι] (a w : ι → EReal) (c : ℝ) (hc : c ≠ 0)
    (ha : ∀ k, ∃ r : ℝ, a k = (r : EReal)) (hw : ∀ k, ∃ r : ℝ, w k = (r : EReal)) :
    Ideal.div (∑ k, a k * w k) (c : EReal) = ∑ k, Ideal.div (a k) (c : EReal) * w k := by
  choose ar har using ha
  choose wr hwr using hw
  have hl : ∑ k, a k * w k = ((∑ k, ar k * wr k : ℝ) : EReal) := by
    rw [coe_sum]
    exact Finset.sum_congr rfl fun k _ => by rw [har, hwr, EReal.coe_mul]
  have hr : ∑ k, Ideal.div (a k) (c : EReal) * w k = ((∑ k, ar k * (1 / c) * wr k : ℝ) : EReal) := by
    rw [coe_sum]
    exact Finset.sum_congr rfl fun k _ => by
      rw [Ideal.div_coe hc, har, hwr, ← EReal.coe_mul, ← EReal.coe_mul]
  rw [Ideal.div_coe hc, hl, hr, ← EReal.coe_mul, Finset.sum_mul]
  refine congrArg (fun t : ℝ => (t : EReal)) (Finset.sum_congr rfl fun k _ => ?_)
  ring

end Cert.LibDivSum

end
-- ==== Proof.LibOnlineSoftmaxLaw.lean ====
/-
  The online row softmax is the softmax of the whole row — general in the row length, the block size and the number of blocks.

  A row of `N = bs · (nb + 1)` real scores `L` with real values `V` is visited in `nb + 1` consecutive blocks of `bs`
  keys.  Write `m_j` for the running maximum after block `j`; it is a real number, the largest score among the keys
  before position `bs · (j + 1)`.  The invariant carried from block to block is

    running weighted sum after block j  =  Σ_{n < bs · (j + 1)} exp (L n − m_j) · V n        (a sum of reals),

  and the running normaliser is the same with every value equal to 1.  On entering block `j + 1` the old sum is
  multiplied by `exp (m_j − m_{j+1})`, and `exp (m_j − m_{j+1}) · exp (L n − m_j) = exp (L n − m_{j+1})`, so the old
  terms become terms relative to the new maximum; the new block contributes its own terms.  Before the first block the
  maximum is −∞, the rescaling factor is `exp (−∞) = 0` and both sums are `0`.  After the last block the maximum is the
  maximum `m` of the whole row, the normaliser `Z = Σ_n exp (L n − m)` is a sum of positive reals, so it is not zero,
  and `(Σ_n exp (L n − m) · V n) / Z = Σ_n (exp (L n − m) / Z) · V n` by distributivity in the reals.

  Sums over the keys before a position are written as sums over a range of naturals of the row extended by zero, so
  that one more block is one more stretch of the range.
-/
import proofs.«168538_j2869038154470_2_alg».proof.Proof.LibOnlineSoftmax
import proofs.«168538_j2869038154470_2_alg».proof.Proof.LibChunkMax
import proofs.«168538_j2869038154470_2_alg».proof.Proof.LibDivSum
import Mathlib.Algebra.BigOperators.Fin
import Mathlib.Algebra.BigOperators.Intervals
import Mathlib.Tactic

noncomputable section

open scoped BigOperators

namespace Cert.OnlineSoftmax

open Idealize.ShloMosaic

variable {N bs : ℕ}

/-! ## Sums over the keys before a position -/

/-- A row of reals extended by zero to all naturals. -/
def extZ (g : Fin N → ℝ) (i : ℕ) : ℝ := if h : i < N then g ⟨i, h⟩ else 0

/-- At the position of a key the extension is the row at that key. -/
theorem extZ_val (g : Fin N → ℝ) (n : Fin N) : extZ g n.val = g n := by
  unfold extZ
  rw [dif_pos n.isLt]

/-- One more block: the sum over the positions before `bs · (j + 1)` is the sum over those before `bs · j` plus the
    terms of block `j`. -/
theorem sum_range_block (g : Fin N → ℝ) (j : ℕ) (ej : Fin bs → Fin N) (hej : ∀ k, (ej k).val = bs * j + k.val) :
    ∑ i ∈ Finset.range (bs * (j + 1)), extZ g i
      = ∑ i ∈ Finset.range (bs * j), extZ g i + ∑ k : Fin bs, g (ej k) := by
  rw [Nat.mul_succ, Finset.sum_range_add]
  congr 1
  exact (Fin.sum_univ_eq_sum_range (fun x => extZ g (bs * j + x)) bs).symm.trans
    (Finset.sum_congr rfl fun k _ => by rw [← hej k, extZ_val])

/-- The sum over all positions is the sum over the row. -/
theorem sum_range_all (g : Fin N → ℝ) : ∑ i ∈ Finset.range N, extZ g i = ∑ n : Fin N, g n := by
  rw [← Fin.sum_univ_eq_sum_range (extZ g) N]
  exact Finset.sum_congr rfl fun n _ => extZ_val g n

/-- Moving to a new maximum: `exp (m − m') · Σ exp (L n − m) · w n = Σ exp (L n − m') · w n`. -/
theorem rescale_sum (Lr w : Fin N → ℝ) (m m' : ℝ) (s : Finset ℕ) :
    Real.exp (m - m') * ∑ i ∈ s, extZ (fun n => Real.exp (Lr n - m) * w n) i
      = ∑ i ∈ s, extZ (fun n => Real.exp (Lr n - m') * w n) i := by
  rw [Finset.mul_sum]
  refine Finset.sum_congr rfl fun i _ => ?_
  unfold extZ
  split_ifs with h
  · rw [← mul_assoc, ← Real.exp_add]
    congr 2
    ring
  · exact mul_zero _

/-! ## The running maximum is a real number, and at the end the maximum of the whole row -/

/-- A maximum of real numbers folded from −∞ is −∞ or a real number. -/
theorem fold_max_real {ι : Type*} (s : Finset ι) (F : ι → EReal) (hF : ∀ i, ∃ r : ℝ, F i = (r : EReal)) :
    s.fold max ⊥ F = ⊥ ∨ ∃ r : ℝ, s.fold max ⊥ F = (r : EReal) := by
  classical
  induction s using Finset.induction_on with
  | empty => exact Or.inl Finset.fold_empty
  | insert a s ha ih =>
    obtain ⟨r, hr⟩ := hF a
    rw [Finset.fold_insert ha, hr]
    rcases ih with h | ⟨q, hq⟩
    · exact Or.inr ⟨r, by rw [h, max_eq_left bot_le]⟩
    · exact Or.inr ⟨max r q, by
        rw [hq]
        exact (Monotone.map_max (fun _ _ h => EReal.coe_le_coe_iff.mpr h)).symm⟩

/-- The largest score of a block that is not empty is a real number. -/
theorem blockMax_real (hbs : 0 < bs) (L : Fin N → EReal) (e : ℕ → Fin bs → Fin N)
    (hL : ∀ n, ∃ r : ℝ, L n = (r : EReal)) (j : ℕ) : ∃ b : ℝ, blockMax L e j = (b : EReal) := by
  rcases fold_max_real Finset.univ (fun k => L (e j k)) (fun k => hL _) with h | h
  · exfalso
    obtain ⟨r, hr⟩ := hL (e j ⟨0, hbs⟩)
    have hle : L (e j ⟨0, hbs⟩) ≤ (Finset.univ : Finset (Fin bs)).fold max ⊥ (fun k => L (e j k)) :=
      ((Finset.fold_max_le (f := fun k : Fin bs => L (e j k)) (b := ⊥) (s := Finset.univ) _).mp le_rfl).2
        (⟨0, hbs⟩ : Fin bs) (Finset.mem_univ _)
    rw [h, hr] at hle
    exact EReal.coe_ne_bot r (le_bot_iff.mp hle)
  · exact h

/-- The running maximum is a real number after every block. -/
theorem mAt_real (hbs : 0 < bs) (L : Fin N → EReal) (e : ℕ → Fin bs → Fin N)
    (hL : ∀ n, ∃ r : ℝ, L n = (r : EReal)) (j : ℕ) : ∃ m : ℝ, mAt L e j = (m : EReal) := by
  induction j with
  | zero =>
    obtain ⟨b, hb⟩ := blockMax_real hbs L e hL 0
    exact ⟨b, by rw [mAt, hb, max_eq_right bot_le]⟩
  | succ j ih =>
    obtain ⟨m, hm⟩ := ih
    obtain ⟨b, hb⟩ := blockMax_real hbs L e hL (j + 1)
    exact ⟨max m b, by
      rw [mAt, hm, hb]
      exact (Monotone.map_max (fun _ _ h => EReal.coe_le_coe_iff.mpr h)).symm⟩

/-- The running maximum after block `j` is below `c` exactly when every score before position `bs · (j + 1)` is. -/
theorem mAt_bound (nb : ℕ) (L : Fin N → EReal) (e : ℕ → Fin bs → Fin N)
    (he : ∀ j, j ≤ nb → ∀ k : Fin bs, (e j k).val = bs * j + k.val) (j : ℕ) (hj : j ≤ nb) (c : EReal) :
    mAt L e j ≤ c ↔ (⊥ : EReal) ≤ c ∧ ∀ n : Fin N, n.val < bs * (j + 1) → L n ≤ c := by
  induction j generalizing c with
  | zero =>
    rw [mAt]
    exact LibChunkMax.bound_step L ⊥ ⊥ (blockMax L e 0) 0 (e 0) (he 0 hj)
      (fun c => LibChunkMax.bound_zero L ⊥ c) rfl c
  | succ j ih =>
    rw [mAt]
    exact LibChunkMax.bound_step L ⊥ (mAt L e j) (blockMax L e (j + 1)) (j + 1) (e (j + 1)) (he (j + 1) hj)
      (fun c => ih (Nat.le_of_succ_le hj) c) rfl c

/-! ## The invariant -/

/-- The normaliser is the weighted sum of the constant values 1. -/
theorem lAt_eq_accAt_one (L : Fin N → EReal) (e : ℕ → Fin bs → Fin N) (j : ℕ) :
    lAt L e j = accAt L (fun _ => 1) e j := by
  induction j with
  | zero => simp only [lAt, accAt, mul_one]
  | succ j ih => simp only [lAt, accAt, mul_one, ih]

/-- After block `j` the running weighted sum is the sum, over the keys before position `bs · (j + 1)`, of
    `exp (L n − m) · V n` with `m` the running maximum after that block. -/
theorem accAt_eq (nb : ℕ) (L V : Fin N → EReal) (e : ℕ → Fin bs → Fin N)
    (he : ∀ j, j ≤ nb → ∀ k : Fin bs, (e j k).val = bs * j + k.val)
    (Lr Vr : Fin N → ℝ) (hLr : ∀ n, L n = (Lr n : EReal)) (hVr : ∀ n, V n = (Vr n : EReal))
    (hmr : ∀ j, ∃ m : ℝ, mAt L e j = (m : EReal)) (j : ℕ) (hj : j ≤ nb) (m : ℝ) (hm : mAt L e j = (m : EReal)) :
    accAt L V e j
      = ((∑ i ∈ Finset.range (bs * (j + 1)), extZ (fun n => Real.exp (Lr n - m) * Vr n) i : ℝ) : EReal) := by
  induction j generalizing m with
  | zero =>
    have hp : ∀ k : Fin bs,
        pAt L e 0 k * V (e 0 k) = ((Real.exp (Lr (e 0 k) - m) * Vr (e 0 k) : ℝ) : EReal) := fun k => by
      rw [pAt, hm, hLr, hVr, ← EReal.coe_sub, Ideal.exp_coe, ← EReal.coe_mul]
    rw [accAt, mul_zero, zero_add, Finset.sum_congr rfl fun k _ => hp k, ← LibDivSum.coe_sum,
      sum_range_block _ 0 (e 0) (he 0 hj), Nat.mul_zero, Finset.range_zero, Finset.sum_empty, zero_add]
  | succ j ih =>
    obtain ⟨m0, hm0⟩ := hmr j
    have hp : ∀ k : Fin bs, pAt L e (j + 1) k * V (e (j + 1) k)
        = ((Real.exp (Lr (e (j + 1) k) - m) * Vr (e (j + 1) k) : ℝ) : EReal) := fun k => by
      rw [pAt, hm, hLr, hVr, ← EReal.coe_sub, Ideal.exp_coe, ← EReal.coe_mul]
    have ha : aAt L e (j + 1) = ((Real.exp (m0 - m) : ℝ) : EReal) := by
      rw [aAt, hm0, hm, ← EReal.coe_sub, Ideal.exp_coe]
    rw [accAt, ha, ih (Nat.le_of_succ_le hj) m0 hm0, Finset.sum_congr rfl fun k _ => hp k, ← LibDivSum.coe_sum,
      ← EReal.coe_mul, ← EReal.coe_add, rescale_sum, sum_range_block _ (j + 1) (e (j + 1)) (he (j + 1) hj)]

/-! ## The online softmax is the softmax -/

theorem online_eq_softmax {N bs : ℕ} (nb : ℕ) (hN : bs * (nb + 1) = N) (hbs : 0 < bs) (L V : Fin N → EReal)
    (e : ℕ → Fin bs → Fin N)
    (he : ∀ j, j ≤ nb → ∀ k : Fin bs, (e j k).val = bs * j + k.val)
    (hL : ∀ n, ∃ r : ℝ, L n = (r : EReal)) (hV : ∀ n, ∃ r : ℝ, V n = (r : EReal)) :
    Ideal.div (accAt L V e nb) (lAt L e nb)
      = ∑ n : Fin N, Ideal.div (Ideal.exp (L n - (Finset.univ : Finset (Fin N)).fold max ⊥ L)) (∑ n' : Fin N, Ideal.exp (L n' - (Finset.univ : Finset (Fin N)).fold max ⊥ L)) * V n := by
  have hmr := mAt_real hbs L e hL
  obtain ⟨m, hm⟩ := hmr nb
  -- the running maximum after the last block is the maximum of the whole row
  have hfold : (Finset.univ : Finset (Fin N)).fold max ⊥ L = (m : EReal) := by
    rw [← hm]
    exact (LibChunkMax.eq_fold_of_bound L ⊥ (mAt L e nb) (nb + 1) hN
      (fun c => mAt_bound nb L e he nb le_rfl c)).symm
  choose Lr hLr using hL
  choose Vr hVr using hV
  -- the two running sums after the last block, as sums of reals over the whole row
  have hacc := accAt_eq nb L V e he Lr Vr hLr hVr hmr nb le_rfl m hm
  have hl : lAt L e nb
      = ((∑ i ∈ Finset.range (bs * (nb + 1)), extZ (fun n => Real.exp (Lr n - m) * 1) i : ℝ) : EReal) := by
    rw [lAt_eq_accAt_one]
    exact accAt_eq nb L (fun _ => 1) e he Lr (fun _ => 1) hLr (fun _ => EReal.coe_one.symm) hmr nb le_rfl m hm
  rw [hN, sum_range_all] at hacc hl
  simp only [mul_one] at hl
  -- the normaliser is a sum of positive reals over a row that is not empty
  have hNpos : 0 < N := by
    rw [← hN]
    exact Nat.mul_pos hbs (Nat.succ_pos nb)
  have hZ : (∑ n : Fin N, Real.exp (Lr n - m)) ≠ 0 :=
    (Finset.sum_pos (fun n _ => Real.exp_pos _) ⟨⟨0, hNpos⟩, Finset.mem_univ _⟩).ne'
  have hexp : ∀ n, Ideal.exp (L n - (m : EReal)) = ((Real.exp (Lr n - m) : ℝ) : EReal) := fun n => by
    rw [hLr, ← EReal.coe_sub, Ideal.exp_coe]
  have hsum : ∑ n : Fin N, ((Real.exp (Lr n - m) : ℝ) : EReal) * V n
      = ((∑ n : Fin N, Real.exp (Lr n - m) * Vr n : ℝ) : EReal) := by
    rw [LibDivSum.coe_sum]
    exact Finset.sum_congr rfl fun n _ => by rw [EReal.coe_mul, hVr]
  rw [hacc, hl, hfold]
  simp only [hexp]
  rw [← LibDivSum.coe_sum, ← hsum]
  exact LibDivSum.div_sum_eq (fun n => ((Real.exp (Lr n - m) : ℝ) : EReal)) V _ hZ (fun n => ⟨_, rfl⟩)
    (fun n => ⟨Vr n, hVr n⟩)

end Cert.OnlineSoftmax

end
-- ==== Proof.AttnLaw.lean ====
/-
  One query block of the attention kernel computes the softmax-weighted average of the values.

  Under the hypothesis that every entry of the query block and of the 8 key and value blocks is a real number, the
  4096 scores of a query row are real numbers (finite sums of products of reals; the query scale is the real 1/8), so
  the online softmax recurrence the kernel runs along the row ends, after the 8th block, at the softmax of the whole row:
  with `M` the largest score, the output entry `(h, p, d)` is

      ∑ₙ (exp (s n − M) / ∑ₙ' exp (s n' − M)) · v n d        (n, n' over the 4096 keys).
-/
import proofs.«168538_j2869038154470_2_alg».proof.Proof.AttnRec
import proofs.«168538_j2869038154470_2_alg».proof.Proof.LibOnlineSoftmaxLaw
import proofs.«168538_j2869038154470_2_alg».proof.Proof.LibDivSum

noncomputable section

open scoped BigOperators

namespace Cert.KernelIdeal.AttnMath

open Idealize.ShloMosaic Idealize.ShloMosaic.ValueIdx Cert.KernelIdeal Cert.KernelIdeal.Gen Cert.KernelIdeal.Attn
open Cert.OnlineSoftmax

/-- The query scale is the real number 1/8. -/
theorem scale_eq : Ideal.ofBits .bf16 0x3E00#16 = (((1 : ℝ) / 8 : ℝ) : EReal) := by
  simp [Ideal.ofBits, Ideal.ieee, -EReal.coe_mul]
  norm_num

/-- Real queries and keys give real scores. -/
theorem blockScore_real (q : Vec Ideal S16x256x64 .bf16) (kb : Vec Ideal S16x512x64 .bf16)
    (hq : ∀ i, ∃ r : ℝ, q i = (r : EReal)) (hk : ∀ i, ∃ r : ℝ, kb i = (r : EReal)) (h : Fin 16) (p : Fin 256)
    (n : Fin 512) : ∃ r : ℝ, blockScore q kb h p n = (r : EReal) := by
  choose qr hqr using hq
  choose kr hkr using hk
  refine ⟨∑ e : Fin 64, qr (ix3 h p e) * (1 / 8) * kr (ix3 h n e), ?_⟩
  unfold blockScore
  rw [LibDivSum.coe_sum]
  refine Finset.sum_congr rfl fun e _ => ?_
  rw [hqr, hkr, scale_eq, ← EReal.coe_mul, ← EReal.coe_mul]

/-- After the last key block the output block holds, at `(h, p, d)`, the softmax of the row's 4096 scores applied to
    the 4096 values of column `d`. -/
theorem out_eq_softmax (q : Vec Ideal S16x256x64 .bf16) (ks vs : ℕ → Vec Ideal S16x512x64 .bf16)
    (hq : ∀ i, ∃ r : ℝ, q i = (r : EReal))
    (hk : ∀ j, j < 8 → ∀ i, ∃ r : ℝ, ks j i = (r : EReal))
    (hv : ∀ j, j < 8 → ∀ i, ∃ r : ℝ, vs j i = (r : EReal))
    (h : Fin 16) (p : Fin 256) (d : Fin 64) :
    (St.after q ks vs 7).out (ix3 h p d)
      = ∑ n : Fin 4096,
          Ideal.div (Ideal.exp (rowScore q ks h p n - (Finset.univ : Finset (Fin 4096)).fold max ⊥ (rowScore q ks h p)))
              (∑ n' : Fin 4096,
                Ideal.exp (rowScore q ks h p n' - (Finset.univ : Finset (Fin 4096)).fold max ⊥ (rowScore q ks h p)))
            * rowValue vs h d n := by
  obtain ⟨_, hl, ha⟩ := after_eq q ks vs h p d 7 le_rfl
  have ho : (St.after q ks vs 7).out (ix3 h p d)
      = Ideal.div ((St.after q ks vs 7).acc (ix3 h p d)) ((St.after q ks vs 7).l (ix3 h p (0 : Fin 1))) :=
    pay3_apply _ _ h p d
  have hL : ∀ n : Fin 4096, ∃ r : ℝ, rowScore q ks h p n = (r : EReal) := fun n =>
    blockScore_real q (ks (n.val / 512)) hq (hk (n.val / 512) (by have := n.isLt; omega)) h p _
  have hV : ∀ n : Fin 4096, ∃ r : ℝ, rowValue vs h d n = (r : EReal) := fun n =>
    hv (n.val / 512) (by have := n.isLt; omega) _
  rw [ho, hl, ha]
  exact online_eq_softmax 7 (by norm_num) (by norm_num) (rowScore q ks h p) (rowValue vs h d) keyAt
    (fun j hj k => keyAt_val j hj k) hL hV

end Cert.KernelIdeal.AttnMath

end
-- ==== Proof.LibRealSplit.lean ====
/-
  Real numbers inside the extended reals: finite sums, a square root, and an inner product taken over leading parts and
  residuals.

  A finite sum of real numbers taken in the extended reals is a real number (nonnegative if the terms are); the root of
  a nonnegative real is the real root; and when two vectors `u`, `v` have real entries, writing each as a leading part
  (itself) plus a residual (itself minus itself, which is `0` exactly because the entry is finite: `⊤ − ⊤ = ⊥`) and
  summing leading·leading + leading·residual + residual·leading gives the plain inner product `∑ u·v`. The last is
  what remains, on the extended reals, of computing a product of two high-precision matrices as three products of their
  low-precision leading parts and residuals.
-/
import Idealize.ShloMosaic.PureOps.Ideal
import Idealize.ShloMosaic.PureOps.Ideal.Laws

noncomputable section

open scoped BigOperators

namespace Cert.LibRealSplit

open Idealize.ShloMosaic

/-! ## Finite sums of reals -/

/-- A finite sum of real numbers, taken in the extended reals, is a real number. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

/-- A finite sum of nonnegative real numbers is a nonnegative real number. -/
theorem nonneg_real_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by rw [Finset.sum_empty, EReal.coe_zero]⟩
  | insert a s ha ih =>
    obtain ⟨r, hr0, hr⟩ := h a (Finset.mem_insert_self a s)
    obtain ⟨q, hq0, hq⟩ := ih fun i hi => h i (Finset.mem_insert_of_mem hi)
    exact ⟨r + q, add_nonneg hr0 hq0, by rw [Finset.sum_insert ha, hr, hq, EReal.coe_add]⟩

/-- The root of a nonnegative real is the real root. -/
theorem sqrt_coe {r : ℝ} (h : 0 ≤ r) : Ideal.sqrt (r : EReal) = ((Real.sqrt r : ℝ) : EReal) := by
  show (if r < 0 then ⊥ else (Real.sqrt r : EReal)) = _
  rw [if_neg (not_lt.2 h)]

/-! ## The residual products vanish -/

/-- For vectors with real entries the leading-part-and-residual inner product is the plain inner product. -/
theorem split_sum_eq {M : ℕ} (pq pk : Fin M → EReal) (hq : ∀ j, ∃ r : ℝ, pq j = (r : EReal))
    (hk : ∀ j, ∃ r : ℝ, pk j = (r : EReal)) :
    (∑ j, pq j * pk j) + (∑ j, pq j * (pk j - pk j)) + (∑ j, (pq j - pq j) * pk j) = ∑ j, pq j * pk j := by
  have h0 : ∀ z : EReal, (∃ r : ℝ, z = (r : EReal)) → z - z = 0 := by
    rintro z ⟨r, rfl⟩
    rw [← EReal.coe_sub, sub_self, EReal.coe_zero]
  have eq : ∀ j, pq j - pq j = 0 := fun j => h0 _ (hq j)
  have ek : ∀ j, pk j - pk j = 0 := fun j => h0 _ (hk j)
  simp only [eq, ek, mul_zero, zero_mul, Finset.sum_const_zero, add_zero]

end Cert.LibRealSplit

end
-- ==== Proof.AttnBridge.lean ====
/-
  Two spellings of one head's attention row agree on real numbers.

  One spelling multiplies every query coordinate by the word of 1/8 before the dot product, starts the largest score
  from −∞ written as the bottom element, and divides each exponential by the bare sum of the exponentials. The other
  (RefSpec) multiplies the finished dot product by 1 / sqrt 64, starts from the word of −∞, takes the largest once more
  with −∞ and starts the sum from the word of 0. The word of 1/8 and 1 / sqrt 64 are the same number 1/8; in the
  extended reals (q · c) · k = (q · k) · c always, and a real constant comes out of a sum of real numbers; the word of
  −∞ is the bottom element. So for real queries and keys the two score rows are equal, and then the two rows of
  weights are the same term. Beside it: a linear layer of real numbers is a real number.
-/
import proofs.«168538_j2869038154470_2_alg».proof.Proof.RefSpec
import proofs.«168538_j2869038154470_2_alg».proof.Proof.LibDivSum
import proofs.«168538_j2869038154470_2_alg».proof.Proof.LibRealSplit
import Idealize.ShloMosaic.Lib.IdealHost

noncomputable section

open scoped BigOperators

namespace Cert.RefSide

open Idealize.ShloMosaic Idealize.ShloMosaic.ValueIdx

/-- The bf16 word 0x3E00 is 1/8. -/
theorem ofBits_eighth_bf16 : Ideal.ofBits .bf16 0x3E00#16 = (((1 : ℝ) / 8 : ℝ) : EReal) := by
  simp [Ideal.ofBits, Ideal.ieee, -EReal.coe_mul]; norm_num

/-- The f32 word 0x42800000 is 64. -/
theorem ofBits_sixtyfour_f32 : Ideal.ofBits .f32 0x42800000#32 = ((64 : ℝ) : EReal) := by
  simp [Ideal.ofBits, Ideal.ieee, -EReal.coe_mul]; norm_num

/-- The word of −∞ is the bottom element. -/
theorem negInf_eq_bot : negInf = (⊥ : EReal) := by
  simp [negInf, Ideal.ofBits, Ideal.ieee]

/-- The scale 1 / sqrt 64 is 1/8. -/
theorem scale_eq_eighth : scale = (((1 : ℝ) / 8 : ℝ) : EReal) := by
  have h8 : Real.sqrt 64 = 8 := by
    rw [show (64 : ℝ) = 8 ^ 2 by norm_num, Real.sqrt_sq (by norm_num)]
  unfold scale
  rw [ofBits_sixtyfour_f32, Cert.LibRealSplit.sqrt_coe (by norm_num), h8, Ideal.ofBits_one_f32,
    Ideal.div_coe (by norm_num), one_mul]

/-- A real constant comes out of a finite sum of real numbers. -/
theorem sum_mul_real {ι : Type} [Fintype ι] (f : ι → EReal) (hf : ∀ i, ∃ r : ℝ, f i = (r : EReal)) (c : ℝ) :
    ∑ i, f i * (c : EReal) = (∑ i, f i) * (c : EReal) := by
  choose fr hfr using hf
  have hl : ∑ i, f i * (c : EReal) = ((∑ i, fr i * c : ℝ) : EReal) := by
    rw [Cert.LibDivSum.coe_sum]
    exact Finset.sum_congr rfl fun i _ => by rw [hfr, EReal.coe_mul]
  have hr : ∑ i, f i = ((∑ i, fr i : ℝ) : EReal) := by
    rw [Cert.LibDivSum.coe_sum]
    exact Finset.sum_congr rfl fun i _ => hfr i
  rw [hl, hr, ← EReal.coe_mul, Finset.sum_mul]

/-- For real queries and keys, scaling the query coordinates by the word of 1/8 before the dot product gives the
    scaled score. -/
theorem prescaled_eq_score (Q K : Fin 4096 → Fin 1024 → EReal)
    (hQ : ∀ p c, ∃ r : ℝ, Q p c = (r : EReal)) (hK : ∀ p c, ∃ r : ℝ, K p c = (r : EReal))
    (h : Fin 16) (n m : Fin 4096) :
    ∑ e : Fin 64, (Q n (hcol h e) * Ideal.ofBits .bf16 0x3E00#16) * K m (hcol h e) = score Q K h n m := by
  unfold score
  rw [scale_eq_eighth, ofBits_eighth_bf16,
    ← sum_mul_real (fun e : Fin 64 => Q n (hcol h e) * K m (hcol h e)) (fun e => by
      obtain ⟨a, ha⟩ := hQ n (hcol h e)
      obtain ⟨b, hb⟩ := hK m (hcol h e)
      exact ⟨a * b, by show Q n (hcol h e) * K m (hcol h e) = _; rw [ha, hb, EReal.coe_mul]⟩)]
  exact Finset.sum_congr rfl fun e _ => mul_right_comm _ _ _

/-- One head's attention row: for real queries and keys, the row written with a score row sk that scales the query
    first, the largest score folded from the bottom element and the bare sum of exponentials is the row of RefSpec. -/
theorem att_bridge (Q K V : Fin 4096 → Fin 1024 → EReal)
    (hQ : ∀ p c, ∃ r : ℝ, Q p c = (r : EReal)) (hK : ∀ p c, ∃ r : ℝ, K p c = (r : EReal))
    (h : Fin 16) (n : Fin 4096) (d : Fin 64) (sk : Fin 4096 → EReal)
    (hsk : ∀ m, sk m = ∑ e : Fin 64, (Q n (hcol h e) * Ideal.ofBits .bf16 0x3E00#16) * K m (hcol h e)) :
    (∑ m : Fin 4096, Ideal.div (Ideal.exp (sk m - (Finset.univ : Finset (Fin 4096)).fold max ⊥ sk))
        (∑ m' : Fin 4096, Ideal.exp (sk m' - (Finset.univ : Finset (Fin 4096)).fold max ⊥ sk)) * V m (hcol h d))
      = att Q K V h n d := by
  have e : sk = fun m' => score Q K h n m' := funext fun m => (hsk m).trans (prescaled_eq_score Q K hQ hK h n m)
  rw [att_eq_weight, negInf_eq_bot, e]
  rfl

/-- The same with the score row written out. -/
theorem att_bridge' (Q K V : Fin 4096 → Fin 1024 → EReal)
    (hQ : ∀ p c, ∃ r : ℝ, Q p c = (r : EReal)) (hK : ∀ p c, ∃ r : ℝ, K p c = (r : EReal))
    (h : Fin 16) (n : Fin 4096) (d : Fin 64) :
    (∑ m : Fin 4096, Ideal.div
        (Ideal.exp ((∑ e : Fin 64, (Q n (hcol h e) * Ideal.ofBits .bf16 0x3E00#16) * K m (hcol h e))
          - (Finset.univ : Finset (Fin 4096)).fold max ⊥
              (fun m'' => ∑ e : Fin 64, (Q n (hcol h e) * Ideal.ofBits .bf16 0x3E00#16) * K m'' (hcol h e))))
        (∑ m' : Fin 4096, Ideal.exp ((∑ e : Fin 64, (Q n (hcol h e) * Ideal.ofBits .bf16 0x3E00#16) * K m' (hcol h e))
          - (Finset.univ : Finset (Fin 4096)).fold max ⊥
              (fun m'' => ∑ e : Fin 64, (Q n (hcol h e) * Ideal.ofBits .bf16 0x3E00#16) * K m'' (hcol h e))))
        * V m (hcol h d))
      = att Q K V h n d :=
  att_bridge Q K V hQ hK h n d
    (fun m'' => ∑ e : Fin 64, (Q n (hcol h e) * Ideal.ofBits .bf16 0x3E00#16) * K m'' (hcol h e)) (fun _ => rfl)

/-- A linear layer of real numbers is a real number. -/
theorem dense_real (x : (⟨2, ![4096, 1024]⟩ : Shape).Idx → EReal) (w : (⟨2, ![1024, 1024]⟩ : Shape).Idx → EReal)
    (b : (⟨1, ![1024]⟩ : Shape).Idx → EReal)
    (hx : ∀ i, ∃ r : ℝ, x i = (r : EReal)) (hw : ∀ i, ∃ r : ℝ, w i = (r : EReal)) (hb : ∀ i, ∃ r : ℝ, b i = (r : EReal))
    (p : Fin 4096) (c : Fin 1024) : ∃ r : ℝ, denseAt x w b p c = (r : EReal) := by
  unfold denseAt
  obtain ⟨s, hs⟩ := Cert.LibRealSplit.real_sum Finset.univ (fun k : Fin 1024 => x (ix2 p k) * w (ix2 c k)) (fun k _ => by
    obtain ⟨u, hu⟩ := hx (ix2 p k)
    obtain ⟨v, hv⟩ := hw (ix2 c k)
    exact ⟨u * v, by show x (ix2 p k) * w (ix2 c k) = _; rw [hu, hv, EReal.coe_mul]⟩)
  obtain ⟨t, ht⟩ := hb (ix1 c)
  exact ⟨s + t, by rw [hs, ht, EReal.coe_add]⟩

end Cert.RefSide

end
-- ==== Proof.Bridge2.lean ====
/-
  The attention region's rows against the specification, and the whole result. For real launch arrays the projected
  query, key and value entries are real, so row (h, n) of the attention region's result — the recurrence over the row's
  8 key blocks — is the softmax average of the values with the scores `∑ e, (q e · 1/8) · k e`, which is the
  specification's attention row; merged and projected, the result array is the specification.
-/
import proofs.«168538_j2869038154470_2_alg».proof.Proof.Bridge1
import proofs.«168538_j2869038154470_2_alg».proof.Proof.FinalAtt
import proofs.«168538_j2869038154470_2_alg».proof.Proof.AttnLaw
import proofs.«168538_j2869038154470_2_alg».proof.Proof.AttnBridge

set_option maxRecDepth 16384

noncomputable section

open scoped BigOperators

namespace Cert.KernelIdeal.Bridge

open Idealize.ShloMosaic Idealize.ShloMosaic.TcCoe Idealize.ShloMosaic.ValueIdx
open Idealize.SL Idealize.SL.Sem
open Cert.KernelIdeal Cert.KernelIdeal.Gen Cert.KernelIdeal.Run Cert.KernelIdeal.HostReads Cert.RefSide
open Cert.KernelIdeal.Attn Cert.KernelIdeal.AttnMath Cert.KernelIdeal.FinalAtt

variable (m : (ℓ : Loc nD τ sig) → Buf (Elt Ideal) ℓ) (c : Dev nD)

/-- The projected query, key and value entries, as the specification names them. -/
abbrev Qf : Fin 4096 → Fin 1024 → EReal := denseAt (aX m c) (aWq m c) (aBq m c)
abbrev Kf : Fin 4096 → Fin 1024 → EReal := denseAt (aX m c) (aWk m c) (aBk m c)
abbrev Vf : Fin 4096 → Fin 1024 → EReal := denseAt (aX m c) (aWv m c) (aBv m c)

/-- The head-split arrays at any index. -/
theorem qh_idx (j : S16x4096x64.Idx) : FinalAtt.aQ (V3 m) c j = Qf m c (j 1) (hcol (j 0) (j 2)) := by
  rw [eq_ix3 j]; exact qh_at m c (j 0) (j 1) (j 2)
theorem kh_idx (j : S16x4096x64.Idx) : FinalAtt.aK (V3 m) c j = Kf m c (j 1) (hcol (j 0) (j 2)) := by
  rw [eq_ix3 j]; exact kh_at m c (j 0) (j 1) (j 2)
theorem vh_idx (j : S16x4096x64.Idx) : FinalAtt.aV (V3 m) c j = Vf m c (j 1) (hcol (j 0) (j 2)) := by
  rw [eq_ix3 j]; exact vh_at m c (j 0) (j 1) (j 2)

section Real

variable (hQ : ∀ p q, ∃ r : ℝ, Qf m c p q = (r : EReal)) (hK : ∀ p q, ∃ r : ℝ, Kf m c p q = (r : EReal))
  (hV : ∀ p q, ∃ r : ℝ, Vf m c p q = (r : EReal))

include hQ hK hV in
/-- Row (h, n) of the attention region's result is the specification's attention row. -/
theorem att_at (h : Fin 16) (n : Fin 4096) (d : Fin 64) :
    aAtt m c (ix3 h n d) = att (Qf m c) (Kf m c) (Vf m c) h n d := by
  have hA : aAtt m c = attG (FinalAtt.aQ (V3 m) c) (FinalAtt.aK (V3 m) c) (FinalAtt.aV (V3 m) c) :=
    (W4_arr m c 3).trans (FinalAtt.final (V3 m) c)
  have hn : n.val < 4096 := n.isLt
  rw [hA, attG_apply]
  rw [out_eq_softmax _ _ _
    (fun i => by unfold rows256; rw [qh_idx]; exact hQ _ _)
    (fun j _ i => by unfold rows512; rw [kh_idx]; exact hK _ _)
    (fun j _ i => by unfold rows512; rw [vh_idx]; exact hV _ _) h ⟨n.val % 256, Nat.mod_lt _ (by norm_num)⟩ d]
  have hval : ∀ n' : Fin 4096, rowValue (rows512 (FinalAtt.aV (V3 m) c)) h d n' = Vf m c n' (hcol h d) := fun n' => by
    have hn' : n'.val < 4096 := n'.isLt
    unfold rowValue rows512
    rw [vh_idx]
    refine congrArg₂ (Vf m c) (Fin.ext ?_) rfl
    show (512 * (n'.val / 512) + n'.val % 512) % 4096 = n'.val
    omega
  have hsc : ∀ n' : Fin 4096, rowScore (rows256 (FinalAtt.aQ (V3 m) c) (n.val / 256)) (rows512 (FinalAtt.aK (V3 m) c)) h ⟨n.val % 256, Nat.mod_lt _ (by norm_num)⟩ n'
      = ∑ e : Fin 64, (Qf m c n (hcol h e) * Ideal.ofBits .bf16 0x3E00#16) * Kf m c n' (hcol h e) := fun n' => by
    have hn' : n'.val < 4096 := n'.isLt
    unfold rowScore blockScore rows256 rows512
    refine Finset.sum_congr rfl fun e _ => ?_
    rw [qh_idx, kh_idx]
    refine congrArg₂ (· * ·) (congrArg₂ (· * ·) (congrArg₂ (Qf m c) (Fin.ext ?_) rfl) rfl) (congrArg₂ (Kf m c) (Fin.ext ?_) rfl)
    · show (256 * (n.val / 256) + n.val % 256) % 4096 = n.val
      omega
    · show (512 * (n'.val / 512) + n'.val % 512) % 4096 = n'.val
      omega
  simp only [hval]
  exact att_bridge (Qf m c) (Kf m c) (Vf m c) hQ hK h n d _ hsc

include hQ hK hV in
/-- The result array is the specification of the launch arrays. -/
theorem result_eq :
    ((Reg2.dat2 (V5 m) c).arrAt 3 cfg2.N : S4096x1024.Idx → EReal)
      = refSpec (aX m c) (aWq m c) (aBq m c) (aWk m c) (aBk m c) (aWv m c) (aBv m c) (aWo m c) (aBo m c) := by
  funext i
  obtain ⟨p, cc, rfl⟩ : ∃ (p : Fin 4096) (cc : Fin 1024), i = ix2 p cc := ⟨i 0, i 1, eq_ix2 i⟩
  rw [result_at, refSpec_apply]
  unfold outAt
  refine congrArg₂ (· + ·) (Finset.sum_congr rfl fun k _ => ?_) rfl
  rw [merged_at, att_at m c hQ hK hV]
  rfl

end Real

end Cert.KernelIdeal.Bridge

end
-- ==== Proof.FiniteArgs.lean ====
/-
  The nine argument arrays hold real numbers.

  The precondition tests every entry of every array: its absolute value, the larger of the entry and its negative,
  is compared with the word of +∞, the comparisons of an array are folded by "and" from 1 into one bit, and the nine
  bits are joined by "and". When the joined bit is 1 every fold is 1, so every comparison is 1, so the larger of an
  entry and its negative is below +∞: the entry is neither +∞ nor −∞, hence a real number.
-/
import proofs.«168538_j2869038154470_2_alg».proof.Defs
import Idealize.ShloMosaic.Lib.ReduceAll
import Idealize.ShloMosaic.Lib.ValueIdx
import Idealize.ShloMosaic.PureOps.Ideal.Laws

noncomputable section

namespace Cert.RefSide

open Idealize.ShloMosaic Idealize.ShloMosaic.ValueIdx Idealize.SL.Sem Cert.Pre_finite_inputs

/-- The scalar shape has one index. -/
instance scalarIdx_subsingleton : Subsingleton Cert.Pre_finite_inputs.S_.Idx := ⟨fun a b => funext fun d => d.elim0⟩

/-- The word 0x7F800000 is +∞. -/
theorem ofBits_posInf : Ideal.ofBits .f32 0x7F800000#32 = (⊤ : EReal) := by simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_posInf] at h
  have hlt : max x (-x) < (⊤ : EReal) := by
    by_contra hn
    simp [Ideal.cmp, hn] at h
  induction x using EReal.rec with
  | bot => simp at hlt
  | coe r => exact ⟨r, rfl⟩
  | top => simp at hlt

/-- One array's test: when the fold by "and" of the comparisons of the absolute values with +∞ is 1, every entry is a
    real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr hu ix0 = 1#1) :
    ∀ i : s.Idx, ∃ r : ℝ, a i = (r : EReal) := fun i =>
  real_of_abs_lt (a i) (Host.reduce_andi_all _ _ hr hu ix0 e i)

variable [Cert.Pre_finite_inputs.Facts]

/-- A joined bit that is 1 at the one index: both bits are. -/
theorem andi_at {A B : IVec Cert.Pre_finite_inputs.S_ 1} (e : andi A B ix0 = 1#1) : A ix0 = 1#1 ∧ B ix0 = 1#1 :=
  IntOp.andi_eq_one.1 e

/-- When the precondition's bit is 1, every entry of the nine arrays is a real number. -/
theorem real_of_fn (a0 : FVec Ideal S4096x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32) (a7 : FVec Ideal S1024x1024 .f32) (a8 : FVec Ideal S1024 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have h0 := congrFun h ix0
  dsimp only [Cert.Pre_finite_inputs.fn, Cert.Pre_finite_inputs.fn_part1, Cert.Pre_finite_inputs.fn_part2] at h0
  obtain ⟨h0, e8⟩ := andi_at h0
  obtain ⟨h0, e7⟩ := andi_at h0
  obtain ⟨h0, e6⟩ := andi_at h0
  obtain ⟨h0, e5⟩ := andi_at h0
  obtain ⟨h0, e4⟩ := andi_at h0
  obtain ⟨h0, e3⟩ := andi_at h0
  obtain ⟨h0, e2⟩ := andi_at h0
  obtain ⟨e0, e1⟩ := andi_at h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8⟩

/-- Under the kernel's precondition, on every core, every entry of the nine argument arrays is a real number. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0) : FVec Ideal S4096x1024 .f32) i = (r : EReal))
      ∧ (∀ i, ∃ r : ℝ, (m ((c.tc : Thread Cert.KernelIdeal.nD Cert.KernelIdeal.τ).loc Cert.KernelIdeal.main_arg1) : FVec Ideal S1024x1024 .f32) i = (r : EReal))
      ∧ (∀ i, ∃ r : ℝ, (m ((c.tc : Thread Cert.KernelIdeal.nD Cert.KernelIdeal.τ).loc Cert.KernelIdeal.main_arg2) : FVec Ideal S1024 .f32) i = (r : EReal))
      ∧ (∀ i, ∃ r : ℝ, (m ((c.tc : Thread Cert.KernelIdeal.nD Cert.KernelIdeal.τ).loc Cert.KernelIdeal.main_arg3) : FVec Ideal S1024x1024 .f32) i = (r : EReal))
      ∧ (∀ i, ∃ r : ℝ, (m ((c.tc : Thread Cert.KernelIdeal.nD Cert.KernelIdeal.τ).loc Cert.KernelIdeal.main_arg4) : FVec Ideal S1024 .f32) i = (r : EReal))
      ∧ (∀ i, ∃ r : ℝ, (m ((c.tc : Thread Cert.KernelIdeal.nD Cert.KernelIdeal.τ).loc Cert.KernelIdeal.main_arg5) : FVec Ideal S1024x1024 .f32) i = (r : EReal))
      ∧ (∀ i, ∃ r : ℝ, (m ((c.tc : Thread Cert.KernelIdeal.nD Cert.KernelIdeal.τ).loc Cert.KernelIdeal.main_arg6) : FVec Ideal S1024 .f32) i = (r : EReal))
      ∧ (∀ i, ∃ r : ℝ, (m ((c.tc : Thread Cert.KernelIdeal.nD Cert.KernelIdeal.τ).loc Cert.KernelIdeal.main_arg7) : FVec Ideal S1024x1024 .f32) i = (r : EReal))
      ∧ (∀ i, ∃ r : ℝ, (m ((c.tc : Thread Cert.KernelIdeal.nD Cert.KernelIdeal.τ).loc Cert.KernelIdeal.main_arg8) : FVec Ideal S1024 .f32) i = (r : EReal)) :=
  real_of_fn _ _ _ _ _ _ _ _ _ (hpre c)

end Cert.RefSide

end
-- ==== Proof.RefRead.lean ====
/-
  The reference program's run, read one operation at a time: this module only gathers the generated run and its
  read-at-an-index lemmas under one import for the modules that state what the reference computes.
-/
import proofs.«168538_j2869038154470_2_alg».proof.Proof.Gen.ReferenceIdeal.Read
-- ==== Proof.RefIsSpec.lean ====
/-
  The reference program computes the attention layer of RefSpec, entry by entry.

  The program is read one operation at a time. A projection is a product with the transposed weight matrix plus a
  bias row spread over the rows: at (p, c) that is row p of the input against row c of the weights, plus the bias at
  c. Cutting the 1024 columns into 16 groups of 64 and exchanging the first two axes puts column 64·h + d of row n at
  (h, n, d), because ((n·16 + h)·64 + d) = n·1024 + (64·h + d). The scores are the batched product of the heads'
  rows with rows, times the spread constant; the largest score of a row is the host's fold of the maximum along the
  last axis, the exponentials and their sum and the quotient follow entry by entry, the weighted sum is a batched
  product, and undoing the cut reads column c of row p at (c / 64, p, c % 64), because
  (p·1024 + c) / 64 % 16 = c / 64 and (p·1024 + c) % 64 = c % 64. One more projection finishes.
-/
import proofs.«168538_j2869038154470_2_alg».proof.Proof.RefRead
import proofs.«168538_j2869038154470_2_alg».proof.Proof.RefSpec
import proofs.«168538_j2869038154470_2_alg».proof.Proof.LibHostLastMax

noncomputable section

open scoped BigOperators

namespace Cert.RefSide

open Cert.ReferenceIdeal Cert.ReferenceIdeal.Gen Cert.ReferenceIdeal.Read Idealize.ShloMosaic Idealize.ShloMosaic.ValueIdx

/-- The query projection at (p, c): row p of the input against row c of the weight matrix, plus the bias at c. -/
theorem q_at (x0 : (⟨S4096x1024, .f32⟩ : BufTy).Contents (Elt Ideal)) (x1 : (⟨S1024x1024, .f32⟩ : BufTy).Contents (Elt Ideal)) (x2 : (⟨S1024, .f32⟩ : BufTy).Contents (Elt Ideal)) (p : Fin 4096) (c : Fin 1024) :
    val_main_v4 (F := Ideal) x0 x1 x2 (ix2 p c) = denseAt x0 x1 x2 p c := by
  rw [val_main_v4_apply, val_main_v1_apply, val_main_v3_apply, val_main_v2_apply, Ideal.addf_def]
  unfold denseAt
  refine congrArg₂ (fun u v : EReal => u + v) (Finset.sum_congr rfl fun k _ => ?_) (congrArg x2 ?_)
  · rw [val_main_v0_apply]
    exact congrArg₂ (fun u v : EReal => u * v) (congrArg x0 (funext fun a => Fin.ext (by match a with | ⟨0, _⟩ => rfl | ⟨1, _⟩ => rfl))) (congrArg x1 (funext fun a => Fin.ext (by match a with | ⟨0, _⟩ => rfl | ⟨1, _⟩ => rfl)))
  · exact funext fun a => Fin.ext (by match a with | ⟨0, _⟩ => rfl)

/-- The key projection at (p, c): row p of the input against row c of the weight matrix, plus the bias at c. -/
theorem k_at (x0 : (⟨S4096x1024, .f32⟩ : BufTy).Contents (Elt Ideal)) (x3 : (⟨S1024x1024, .f32⟩ : BufTy).Contents (Elt Ideal)) (x4 : (⟨S1024, .f32⟩ : BufTy).Contents (Elt Ideal)) (p : Fin 4096) (c : Fin 1024) :
    val_main_v9 (F := Ideal) x0 x3 x4 (ix2 p c) = denseAt x0 x3 x4 p c := by
  rw [val_main_v9_apply, val_main_v6_apply, val_main_v8_apply, val_main_v7_apply, Ideal.addf_def]
  unfold denseAt
  refine congrArg₂ (fun u v : EReal => u + v) (Finset.sum_congr rfl fun k _ => ?_) (congrArg x4 ?_)
  · rw [val_main_v5_apply]
    exact congrArg₂ (fun u v : EReal => u * v) (congrArg x0 (funext fun a => Fin.ext (by match a with | ⟨0, _⟩ => rfl | ⟨1, _⟩ => rfl))) (congrArg x3 (funext fun a => Fin.ext (by match a with | ⟨0, _⟩ => rfl | ⟨1, _⟩ => rfl)))
  · exact funext fun a => Fin.ext (by match a with | ⟨0, _⟩ => rfl)

/-- The value projection at (p, c): row p of the input against row c of the weight matrix, plus the bias at c. -/
theorem v_at (x0 : (⟨S4096x1024, .f32⟩ : BufTy).Contents (Elt Ideal)) (x5 : (⟨S1024x1024, .f32⟩ : BufTy).Contents (Elt Ideal)) (x6 : (⟨S1024, .f32⟩ : BufTy).Contents (Elt Ideal)) (p : Fin 4096) (c : Fin 1024) :
    val_main_v14 (F := Ideal) x0 x5 x6 (ix2 p c) = denseAt x0 x5 x6 p c := by
  rw [val_main_v14_apply, val_main_v11_apply, val_main_v13_apply, val_main_v12_apply, Ideal.addf_def]
  unfold denseAt
  refine congrArg₂ (fun u v : EReal => u + v) (Finset.sum_congr rfl fun k _ => ?_) (congrArg x6 ?_)
  · rw [val_main_v10_apply]
    exact congrArg₂ (fun u v : EReal => u * v) (congrArg x0 (funext fun a => Fin.ext (by match a with | ⟨0, _⟩ => rfl | ⟨1, _⟩ => rfl))) (congrArg x5 (funext fun a => Fin.ext (by match a with | ⟨0, _⟩ => rfl | ⟨1, _⟩ => rfl)))
  · exact funext fun a => Fin.ext (by match a with | ⟨0, _⟩ => rfl)

/-- The queries of head h at row n, coordinate d: the projection's row n, column 64·h + d. -/
theorem qh_at (x0 : (⟨S4096x1024, .f32⟩ : BufTy).Contents (Elt Ideal)) (x1 : (⟨S1024x1024, .f32⟩ : BufTy).Contents (Elt Ideal)) (x2 : (⟨S1024, .f32⟩ : BufTy).Contents (Elt Ideal)) (h : Fin 16) (n : Fin 4096) (d : Fin 64) :
    val_main_v16 (F := Ideal) x0 x1 x2 (ix3 h n d) = denseAt x0 x1 x2 n (hcol h d) := by
  rw [val_main_v16_apply, val_main_v15_apply]
  have e : idx_main_v15 (idx_main_v16 (ix3 h n d)) = ix2 n (hcol h d) := funext fun a => Fin.ext (by
    have hh := h.isLt; have hn := n.isLt; have hd := d.isLt
    match a with
    | ⟨0, _⟩ => show ((n.val * 16 + h.val) * 64 + d.val) / 1024 = n.val; omega
    | ⟨1, _⟩ => show ((n.val * 16 + h.val) * 64 + d.val) % 1024 = 64 * h.val + d.val; omega)
  rw [e, q_at]

/-- The keys of head h at row n, coordinate d: the projection's row n, column 64·h + d. -/
theorem kh_at (x0 : (⟨S4096x1024, .f32⟩ : BufTy).Contents (Elt Ideal)) (x3 : (⟨S1024x1024, .f32⟩ : BufTy).Contents (Elt Ideal)) (x4 : (⟨S1024, .f32⟩ : BufTy).Contents (Elt Ideal)) (h : Fin 16) (n : Fin 4096) (d : Fin 64) :
    val_main_v18 (F := Ideal) x0 x3 x4 (ix3 h n d) = denseAt x0 x3 x4 n (hcol h d) := by
  rw [val_main_v18_apply, val_main_v17_apply]
  have e : idx_main_v17 (idx_main_v18 (ix3 h n d)) = ix2 n (hcol h d) := funext fun a => Fin.ext (by
    have hh := h.isLt; have hn := n.isLt; have hd := d.isLt
    match a with
    | ⟨0, _⟩ => show ((n.val * 16 + h.val) * 64 + d.val) / 1024 = n.val; omega
    | ⟨1, _⟩ => show ((n.val * 16 + h.val) * 64 + d.val) % 1024 = 64 * h.val + d.val; omega)
  rw [e, k_at]

/-- The values of head h at row n, coordinate d: the projection's row n, column 64·h + d. -/
theorem vh_at (x0 : (⟨S4096x1024, .f32⟩ : BufTy).Contents (Elt Ideal)) (x5 : (⟨S1024x1024, .f32⟩ : BufTy).Contents (Elt Ideal)) (x6 : (⟨S1024, .f32⟩ : BufTy).Contents (Elt Ideal)) (h : Fin 16) (n : Fin 4096) (d : Fin 64) :
    val_main_v20 (F := Ideal) x0 x5 x6 (ix3 h n d) = denseAt x0 x5 x6 n (hcol h d) := by
  rw [val_main_v20_apply, val_main_v19_apply]
  have e : idx_main_v19 (idx_main_v20 (ix3 h n d)) = ix2 n (hcol h d) := funext fun a => Fin.ext (by
    have hh := h.isLt; have hn := n.isLt; have hd := d.isLt
    match a with
    | ⟨0, _⟩ => show ((n.val * 16 + h.val) * 64 + d.val) / 1024 = n.val; omega
    | ⟨1, _⟩ => show ((n.val * 16 + h.val) * 64 + d.val) % 1024 = 64 * h.val + d.val; omega)
  rw [e, v_at]

/-- The scaled score of query row n against key row m in head h. -/
theorem s_at (x0 : (⟨S4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (h : Fin 16) (n m : Fin 4096) :
    val_main_v25 (F := Ideal) x0 x1 x2 x3 x4 (ix3 h n m) = score (denseAt x0 x1 x2) (denseAt x0 x3 x4) h n m := by
  rw [val_main_v25_apply, val_main_v23_apply, val_main_v24_apply, val_main_v22_apply, val_main_v21_apply,
    val_main_cst_apply, val_main_cst_0_apply]
  simp only [Ideal.mulf_def, Ideal.hostDivf_def, Ideal.hostUnary_sqrt_def, Ideal.ofBits_def]
  unfold score scale
  refine congrArg (fun u : EReal => u * _) (Finset.sum_congr rfl fun k _ => ?_)
  have el : lidx_main_v23 (ix3 h n m) k = ix3 h n k := funext fun a => Fin.ext (by match a with | ⟨0, _⟩ => rfl | ⟨1, _⟩ => rfl | ⟨2, _⟩ => rfl)
  have er : ridx_main_v23 (ix3 h n m) k = ix3 h m k := funext fun a => Fin.ext (by match a with | ⟨0, _⟩ => rfl | ⟨1, _⟩ => rfl | ⟨2, _⟩ => rfl)
  rw [el, er, qh_at, kh_at]

/-- Dropping the last axis of a 16 × 4096 × 4096 array leaves a 16 × 4096 one. -/
theorem scores_reduce : S16x4096x4096.Reduces [2] S16x4096 := by decide

/-- The host's fold of the maximum along the last axis of the scores, at (h, n). -/
theorem hostMax_at (y : FVec Ideal S16x4096x4096 .f32) (init : FVec Ideal S_ .f32) (h : Fin 16) (n : Fin 4096) :
    Host.reduce (FloatOps.maximumf (F := Ideal) (φ := .f32)) y init reducesTo_S16x4096x4096_S16x4096_d2 h_S_ (ix2 h n)
      = (Finset.univ : Finset (Fin 4096)).fold max (init (Shape.Idx.first h_S_)) (fun k => y (ix3 h n k)) :=
  Cert.LibHostLastMax.hostLastMax_apply (a := 16) (b := 4096) (c := 4096) (φ := .f32) y init
    reducesTo_S16x4096x4096_S16x4096_d2 scores_reduce h_S_ h n

/-- The largest score of row n in head h. -/
theorem mx_at (x0 : (⟨S4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (h : Fin 16) (n : Fin 4096) :
    val_main_v28 (F := Ideal) x0 x1 x2 x3 x4 (ix2 h n) = rowMax (fun m' => score (denseAt x0 x1 x2) (denseAt x0 x3 x4) h n m') := by
  rw [val_main_v28_apply, val_main_v27_apply, val_main_cst_2_apply, Ideal.maximumf_def, Ideal.ofBits_def]
  unfold rowMax negInf
  refine congrArg (fun u : EReal => max _ u) ?_
  unfold val_main_v26
  refine (hostMax_at _ _ h n).trans ?_
  rw [val_main_cst_1_apply, Ideal.ofBits_def]
  exact congrArg (fun f => Finset.fold max _ f Finset.univ) (funext fun k => s_at x0 x1 x2 x3 x4 h n k)

/-- A score minus its row's largest, exponentiated. -/
theorem e_at (x0 : (⟨S4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (h : Fin 16) (n m : Fin 4096) :
    val_main_v32 (F := Ideal) x0 x1 x2 x3 x4 (ix3 h n m) = expAt (fun m' => score (denseAt x0 x1 x2) (denseAt x0 x3 x4) h n m') m := by
  rw [val_main_v32_apply, val_main_v31_apply, val_main_v30_apply, val_main_v29_apply, Ideal.hostUnary_exp_def, Ideal.subf_def]
  have e : idx_main_v29 (idx_main_v30 (ix3 h n m)) = ix2 h n := funext fun a => Fin.ext (by match a with | ⟨0, _⟩ => rfl | ⟨1, _⟩ => rfl)
  rw [e, mx_at, s_at]
  rfl

/-- The sum of a row's exponentials. -/
theorem sum_at (x0 : (⟨S4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (h : Fin 16) (n : Fin 4096) :
    val_main_v33 (F := Ideal) x0 x1 x2 x3 x4 (ix2 h n) = rowSum (fun m' => score (denseAt x0 x1 x2) (denseAt x0 x3 x4) h n m') := by
  rw [val_main_v33_apply, val_main_cst_3_apply, Ideal.ofBits_def]
  unfold rowSum
  refine congrArg (fun u : EReal => _ + u) (Finset.sum_congr rfl fun k _ => ?_)
  have e : idx_main_v33 (ix2 h n) k = ix3 h n k := funext fun a => Fin.ext (by match a with | ⟨0, _⟩ => rfl | ⟨1, _⟩ => rfl | ⟨2, _⟩ => rfl)
  rw [e, e_at]

/-- The softmax weight of key row m for query row n in head h. -/
theorem p_at (x0 : (⟨S4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (h : Fin 16) (n m : Fin 4096) :
    val_main_v36 (F := Ideal) x0 x1 x2 x3 x4 (ix3 h n m) = prob (fun m' => score (denseAt x0 x1 x2) (denseAt x0 x3 x4) h n m') m := by
  rw [val_main_v36_apply, val_main_v35_apply, val_main_v34_apply, Ideal.hostDivf_def]
  have e : idx_main_v34 (idx_main_v35 (ix3 h n m)) = ix2 h n := funext fun a => Fin.ext (by match a with | ⟨0, _⟩ => rfl | ⟨1, _⟩ => rfl)
  rw [e, e_at, sum_at]
  rfl

/-- Head h's output at row n, coordinate d: the value rows weighted by the softmax of the score row. -/
theorem att_at (x0 : (⟨S4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (h : Fin 16) (n : Fin 4096) (d : Fin 64) :
    val_main_v37 (F := Ideal) x0 x1 x2 x3 x4 x5 x6 (ix3 h n d) = att (denseAt x0 x1 x2) (denseAt x0 x3 x4) (denseAt x0 x5 x6) h n d := by
  rw [val_main_v37_apply]
  unfold att
  refine Finset.sum_congr rfl fun k _ => ?_
  have el : lidx_main_v37 (ix3 h n d) k = ix3 h n k := funext fun a => Fin.ext (by match a with | ⟨0, _⟩ => rfl | ⟨1, _⟩ => rfl | ⟨2, _⟩ => rfl)
  have er : ridx_main_v37 (ix3 h n d) k = ix3 h k d := funext fun a => Fin.ext (by match a with | ⟨0, _⟩ => rfl | ⟨1, _⟩ => rfl | ⟨2, _⟩ => rfl)
  rw [el, er, p_at, vh_at]

/-- The heads side by side again: column c of row p is coordinate c % 64 of head c / 64. -/
theorem merged_at (x0 : (⟨S4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (p : Fin 4096) (c : Fin 1024) :
    val_main_v39 (F := Ideal) x0 x1 x2 x3 x4 x5 x6 (ix2 p c) = merged (denseAt x0 x1 x2) (denseAt x0 x3 x4) (denseAt x0 x5 x6) p c := by
  rw [val_main_v39_apply, val_main_v38_apply]
  have e : idx_main_v38 (idx_main_v39 (ix2 p c)) = ix3 (headOf c) p (coordOf c) := funext fun a => Fin.ext (by
    have hp := p.isLt; have hc := c.isLt
    match a with
    | ⟨0, _⟩ => show (p.val * 1024 + c.val) / 64 % 16 = c.val / 64; omega
    | ⟨1, _⟩ => show (p.val * 1024 + c.val) / 1024 = p.val; omega
    | ⟨2, _⟩ => show (p.val * 1024 + c.val) % 64 = c.val % 64; omega)
  rw [e, att_at]
  rfl

/-- The reference program's result is the attention layer of its nine arguments. -/
theorem ref_is_spec (a0 : (⟨S4096x1024, .f32⟩ : BufTy).Contents (Elt Ideal)) (a1 : (⟨S1024x1024, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal))
    (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) :
    val_main_v44 (F := Ideal) a0 a1 a2 a3 a4 a5 a6 a7 a8 = refSpec a0 a1 a2 a3 a4 a5 a6 a7 a8 := by
  funext i
  obtain ⟨p, c, rfl⟩ : ∃ (p : Fin 4096) (c : Fin 1024), i = ix2 p c := ⟨i 0, i 1, eq_ix2 i⟩
  rw [refSpec_apply, val_main_v44_apply, val_main_v41_apply, val_main_v43_apply, val_main_v42_apply, Ideal.addf_def]
  unfold outAt
  refine congrArg₂ (fun u v : EReal => u + v) (Finset.sum_congr rfl fun k _ => ?_) (congrArg a8 ?_)
  · rw [val_main_v40_apply]
    have el : lidx_main_v41 (ix2 p c) k = ix2 p k := funext fun a => Fin.ext (by match a with | ⟨0, _⟩ => rfl | ⟨1, _⟩ => rfl)
    rw [el, merged_at]
    exact congrArg (fun u : EReal => _ * u) (congrArg a7 (funext fun a => Fin.ext (by match a with | ⟨0, _⟩ => rfl | ⟨1, _⟩ => rfl)))
  · exact funext fun a => Fin.ext (by match a with | ⟨0, _⟩ => rfl)

end Cert.RefSide

end
-- ==== Proof.lean ====
/-
  Multi-head self-attention over 4096 tokens of width 1024 (16 heads of 64): the kernel's program — a fused
  query / key / value projection, a flash-attention region that meets each block of 256 query rows with the 8 blocks of
  512 key rows in turn while carrying a running maximum, normaliser and weighted sum, and an output projection —
  against the plain composition `softmax((x·Wqᵀ + bq)(x·Wkᵀ + bk)ᵀ / √64)(x·Wvᵀ + bv)·Woᵀ + bo`.

  Frames. Each program runs to the end, faults nowhere and leaves its nine argument arrays as launched: for the two
  kernel programs (the word-level one and its reading on the extended reals, the same text) this is the run of the
  program's six segments, three stretches of host operations and three regions, with each region's body run at every
  grid point; for the reference it is its run with the result dropped.

  Values, on the extended reals. The kernel multiplies the query by 1/8 before the scores' product and the reference
  multiplies the product by 1/√64 = 1/8 after it; the kernel carries the softmax block by block from a maximum of −∞
  and divides once at the end, the reference normalises each weight by the whole row's sum. For finite inputs every
  projected entry is a real number, a real factor moves across a finite sum of reals, and the block-by-block
  recurrence over a row of real scores ends at the whole row's softmax average; so both programs end with the same
  array, entry by entry. The kernel's idealisation rewrote nothing, so the third claim has no conjunct.
-/
import proofs.«168538_j2869038154470_2_alg».proof.Defs
import proofs.«168538_j2869038154470_2_alg».proof.Proof.RunK
import proofs.«168538_j2869038154470_2_alg».proof.Proof.RunI
import proofs.«168538_j2869038154470_2_alg».proof.Proof.Bridge2
import proofs.«168538_j2869038154470_2_alg».proof.Proof.FiniteArgs
import proofs.«168538_j2869038154470_2_alg».proof.Proof.RefIsSpec
import proofs.«168538_j2869038154470_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level program runs to the end and keeps its arguments. -/
theorem frame_kernel : Cert.frame_Kernel := fun m ρ _ => Cert.Kernel.Run.frame m ρ

/-- So does its reading on the extended reals. -/
theorem frame_kernelIdeal : Cert.frame_KernelIdeal := fun m ρ _ => Cert.KernelIdeal.Run.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the nine arguments, both programs end with the specification's array of those
    arguments: the kernel's by the run of its segments read back through the three regions, the reference's by its
    run read one operation at a time. -/
theorem algebraic : Cert.algebraic_KernelIdeal_ReferenceIdeal := by
  intro m ρ m' ρ' hpre hagree
  refine ⟨fun c => Cert.RefSide.refSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩) (Cert.KernelIdeal.Run.run_named m ρ)
    obtain ⟨h0, h1, h2, h3, h4, h5, h6, h7, h8⟩ := Cert.RefSide.real_args m hpre c
    exact Cert.KernelIdeal.Bridge.result_eq m c
      (fun p q => Cert.RefSide.dense_real _ _ _ h0 h1 h2 p q)
      (fun p q => Cert.RefSide.dense_real _ _ _ h0 h3 h4 p q)
      (fun p q => Cert.RefSide.dense_real _ _ _ h0 h5 h6 p q)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v44_eq, Cert.RefSide.ref_is_spec,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
